-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000 : Shape := ⟨1, ![3200000]⟩
abbrev S100000 : Shape := ⟨1, ![100000]⟩
abbrev S2x16x16 : Shape := ⟨3, ![2, 16, 16]⟩
abbrev S2x16 : Shape := ⟨2, ![2, 16]⟩
abbrev S64x16 : Shape := ⟨2, ![64, 16]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S2x16x16 : S_.BroadcastsInDim S2x16x16 (![] : Fin 0 → Fin S2x16x16.rank)
  reducesTo_S2x16x16_S_d0_1_2 : S2x16x16.ReducesTo [0, 1, 2] S_
  bcast_S_S2x16 : S_.BroadcastsInDim S2x16 (![] : Fin 0 → Fin S2x16.rank)
  reducesTo_S2x16_S_d0_1 : S2x16.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S10x64 .f32) (main_v50 : FVec F S10x64 .f32) : IVec S_ 1 :=
  let main_v51 : IVec S10x64 1 := cmpf .olt main_v49 main_v50
  let main_c_19 : IVec S_ 1 := constantI S_ 1 1#1
  let main_v52 : IVec S_ 1 := (fun x v => Host.reduce IntOp.andi x v reducesTo_S10x64_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S2x16 .f32) (main_arg10 : FVec F S64x16 .f32) (main_arg11 : FVec F S64 .f32) (main_arg12 : FVec F S10x64 .f32) (main_arg13 : FVec F S10 .f32) (main_v33 : IVec S_ 1) : IVec S_ 1 :=
  let main_v34 : FVec F S2x16 .f32 := Host.absf main_arg9
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S10x64 .f32 := Host.absf main_arg12
  let main_cst_18 : FVec F S_ .f32 := constant S_ .f32 0x7F800000#32
  let main_v50 : FVec F S10x64 .f32 := broadcastInDim S10x64 ![] bcast_S_S10x64 main_cst_18
  fn_part3 (F := F) main_arg13 main_v48 main_v49 main_v50

def fn_part1 {F : FTy → Type} [FloatOps F] (main_arg6 : FVec F S2x16x16 .f32) (main_arg7 : FVec F S2x16 .f32) (main_arg8 : FVec F S2x16 .f32) (main_arg9 : FVec F S2x16 .f32) (main_arg10 : FVec F S64x16 .f32) (main_arg11 : FVec F S64 .f32) (main_arg12 : FVec F S10x64 .f32) (main_arg13 : FVec F S10 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S2x16x16 .f32 := Host.absf main_arg6
  let main_cst_6 : FVec F S_ .f32 := constant S_ .f32 0x7F800000#32
  let main_v20 : FVec F S2x16x16 .f32 := broadcastInDim S2x16x16 ![] bcast_S_S2x16x16 main_cst_6
  let main_v21 : IVec S2x16x16 1 := cmpf .olt main_v19 main_v20
  let main_c_7 : IVec S_ 1 := constantI S_ 1 1#1
  let main_v22 : IVec S_ 1 := (fun x v => Host.reduce IntOp.andi x v reducesTo_S2x16x16_S_d0_1_2 h_S_) main_v21 main_c_7
  let main_v23 : IVec S_ 1 := andi main_v18 main_v22
  let main_v24 : FVec F S2x16 .f32 := Host.absf main_arg7
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S2x16 .f32 := Host.absf main_arg8
  let main_cst_10 : FVec F S_ .f32 := constant S_ .f32 0x7F800000#32
  let main_v30 : FVec F S2x16 .f32 := broadcastInDim S2x16 ![] bcast_S_S2x16 main_cst_10
  let main_v31 : IVec S2x16 1 := cmpf .olt main_v29 main_v30
  let main_c_11 : IVec S_ 1 := constantI S_ 1 1#1
  let main_v32 : IVec S_ 1 := (fun x v => Host.reduce IntOp.andi x v reducesTo_S2x16_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x16 .f32) (main_arg1 : IVec S2x3200000 32) (main_arg2 : FVec F S3200000 .f32) (main_arg3 : IVec S100000 32) (main_arg4 : FVec F S2x16x16 .f32) (main_arg5 : FVec F S2x16 .f32) (main_arg6 : FVec F S2x16x16 .f32) (main_arg7 : FVec F S2x16 .f32) (main_arg8 : FVec F S2x16 .f32) (main_arg9 : FVec F S2x16 .f32) (main_arg10 : FVec F S64x16 .f32) (main_arg11 : FVec F S64 .f32) (main_arg12 : FVec F S10x64 .f32) (main_arg13 : FVec F S10 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S2x16x16 .f32 := Host.absf main_arg4
  let main_cst_2 : FVec F S_ .f32 := constant S_ .f32 0x7F800000#32
  let main_v10 : FVec F S2x16x16 .f32 := broadcastInDim S2x16x16 ![] bcast_S_S2x16x16 main_cst_2
  let main_v11 : IVec S2x16x16 1 := cmpf .olt main_v9 main_v10
  let main_c_3 : IVec S_ 1 := constantI S_ 1 1#1
  let main_v12 : IVec S_ 1 := (fun x v => Host.reduce IntOp.andi x v reducesTo_S2x16x16_S_d0_1_2 h_S_) main_v11 main_c_3
  let main_v13 : IVec S_ 1 := andi main_v8 main_v12
  let main_v14 : FVec F S2x16 .f32 := Host.absf main_arg5
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg6 main_arg7 main_arg8 main_arg9 main_arg10 main_arg11 main_arg12 main_arg13 main_v13 main_v16
-- ==== Kernel.lean ====
abbrev S100000x16 : Shape := ⟨2, ![100000, 16]⟩
abbrev S2x3200000 : Shape := ⟨2, ![2, 3200000]⟩
abbrev S3200000 : Shape := ⟨1, ![3200000]⟩
abbrev S100000 : Shape := ⟨1, ![100000]⟩
abbrev S2x16x16 : Shape := ⟨3, ![2, 16, 16]⟩
abbrev S2x16 : Shape := ⟨2, ![2, 16]⟩
abbrev S64x16 : Shape := ⟨2, ![64, 16]⟩
abbrev S64 : Shape := ⟨1, ![64]⟩
abbrev S10x64 : Shape := ⟨2, ![10, 64]⟩
abbrev S10 : Shape := ⟨1, ![10]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S1x16x16 : Shape := ⟨3, ![1, 16, 16]⟩
abbrev S16x16 : Shape := ⟨2, ![16, 16]⟩
abbrev S5000x16 : Shape := ⟨2, ![5000, 16]⟩
abbrev S3300000x16 : Shape := ⟨2, ![3300000, 16]⟩
abbrev S1x16 : Shape := ⟨2, ![1, 16]⟩
abbrev S16 : Shape := ⟨1, ![16]⟩
abbrev S5000 : Shape := ⟨1, ![5000]⟩
abbrev S5000x1 : Shape := ⟨2, ![5000, 1]⟩
abbrev S1x64 : Shape := ⟨2, ![1, 64]⟩
abbrev S1x10 : Shape := ⟨2, ![1, 10]⟩
abbrev S100000x10 : Shape := ⟨2, ![100000, 10]⟩
abbrev S5000x10 : Shape := ⟨2, ![5000, 10]⟩
abbrev S16x64 : Shape := ⟨2, ![16, 64]⟩
abbrev S5000x64 : Shape := ⟨2, ![5000, 64]⟩
abbrev S64x10 : Shape := ⟨2, ![64, 10]⟩

abbrev nBuf : Space → Nat
  | .hbm => 130
  | .vmem => 36
  | .smem => 0
  | _ => 0

abbrev hbmTy0_0 (i : Nat) : BufTy := match i % 128 with
  | 0 => ⟨S100000x16, .f32⟩
  | 1 => ⟨S2x3200000, .i32⟩
  | 2 => ⟨S3200000, .f32⟩
  | 3 => ⟨S100000, .i32⟩
  | 4 => ⟨S2x16x16, .f32⟩
  | 5 => ⟨S2x16, .f32⟩
  | 6 => ⟨S2x16x16, .f32⟩
  | 7 => ⟨S2x16, .f32⟩
  | 8 => ⟨S2x16, .f32⟩
  | 9 => ⟨S2x16, .f32⟩
  | 10 => ⟨S64x16, .f32⟩
  | 11 => ⟨S64, .f32⟩
  | 12 => ⟨S10x64, .f32⟩
  | 13 => ⟨S10, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S1x16x16, .f32⟩
  | 60 => ⟨S16x16, .f32⟩
  | 61 => ⟨S100000x16, .f32⟩
  | 62 => ⟨S3300000x1, .f32⟩
  | 63 => ⟨S_, .i32⟩
  | 64 => ⟨S3300000, .i32⟩
  | 65 => ⟨S3300000, .i1⟩
  | 66 => ⟨S_, .i32⟩
  | 67 => ⟨S3300000, .i32⟩
  | 68 => ⟨S3300000, .i32⟩
  | 69 => ⟨S3300000, .i32⟩
  | 70 => ⟨S3300000x1, .i32⟩
  | 71 => ⟨S3300000x16, .f32⟩
  | 72 => ⟨S3300000x16, .f32⟩
  | 73 => ⟨S3300000x16, .f32⟩
  | 74 => ⟨S_, .f32⟩
  | 75 => ⟨S100000x16, .f32⟩
  | 76 => ⟨S3300000x1, .i32⟩
  | 77 => ⟨S100000x16, .f32⟩
  | 78 => ⟨S1x16x16, .f32⟩
  | 79 => ⟨S16x16, .f32⟩
  | 80 => ⟨S1x16, .f32⟩
  | 81 => ⟨S16, .f32⟩
  | 82 => ⟨S1x16, .f32⟩
  | 83 => ⟨S16, .f32⟩
  | 84 => ⟨S1x16, .f32⟩
  | 85 => ⟨S16, .f32⟩
  | 86 => ⟨S1x16, .f32⟩
  | 87 => ⟨S16, .f32⟩
  | 88 => ⟨S1x16, .f32⟩
  | 89 => ⟨S1x16, .f32⟩
  | 90 => ⟨S1x16, .f32⟩
  | 91 => ⟨S1x16, .f32⟩
  | 92 => ⟨S100000x16, .f32⟩
  | 93 => ⟨S1x16x16, .f32⟩
  | 94 => ⟨S16x16, .f32⟩
  | 95 => ⟨S100000x16, .f32⟩
  | 96 => ⟨S3300000x1, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x16, .f32⟩
  | 106 => ⟨S3300000x16, .f32⟩
  | 107 => ⟨S3300000x16, .f32⟩
  | 108 => ⟨S_, .f32⟩
  | 109 => ⟨S100000x16, .f32⟩
  | 110 => ⟨S3300000x1, .i32⟩
  | 111 => ⟨S100000x16, .f32⟩
  | 112 => ⟨S1x16x16, .f32⟩
  | 113 => ⟨S16x16, .f32⟩
  | 114 => ⟨S1x16, .f32⟩
  | 115 => ⟨S16, .f32⟩
  | 116 => ⟨S1x16, .f32⟩
  | 117 => ⟨S16, .f32⟩
  | 118 => ⟨S1x16, .f32⟩
  | 119 => ⟨S16, .f32⟩
  | 120 => ⟨S1x16, .f32⟩
  | 121 => ⟨S16, .f32⟩
  | 122 => ⟨S1x16, .f32⟩
  | 123 => ⟨S1x16, .f32⟩
  | 124 => ⟨S1x16, .f32⟩
  | 125 => ⟨S1x16, .f32⟩
  | 126 => ⟨S100000x16, .f32⟩
  | 127 => ⟨S1x64, .f32⟩
  | _ => ⟨S100000x16, .f32⟩

abbrev hbmTy0_1 (i : Nat) : BufTy := match i % 128 with
  | 0 => ⟨S1x10, .f32⟩
  | 1 => ⟨S100000x10, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S16x16, .f32⟩
  | .local _ .vmem, ⟨22, _⟩ => ⟨S1x16, .f32⟩
  | .local _ .vmem, ⟨23, _⟩ => ⟨S1x16, .f32⟩
  | .local _ .vmem, ⟨24, _⟩ => ⟨S1x16, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S64x16, .f32⟩
  | .local _ .vmem, ⟨31, _⟩ => ⟨S1x64, .f32⟩
  | .local _ .vmem, ⟨32, _⟩ => ⟨S10x64, .f32⟩
  | .local _ .vmem, ⟨33, _⟩ => ⟨S1x10, .f32⟩
  | .local _ .vmem, ⟨34, _⟩ => ⟨S5000x10, .f32⟩
  | .local _ .vmem, ⟨35, _⟩ => ⟨S5000x10, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  slices_S2x16x16_S1x16x16_0_0_0 : S2x16x16.Slices ![0, 0, 0] S1x16x16
  shapeCasts_S1x16x16_S16x16 : S1x16x16.ShapeCasts S16x16
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  transposes_S16x16_p1_0_S16x16 : S16x16.Transposes [1, 0] S16x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  slices_S2x16_S1x16_0_0 : S2x16.Slices ![0, 0] S1x16
  shapeCasts_S1x16_S16 : S1x16.ShapeCasts S16
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  slices_S2x16x16_S1x16x16_1_0_0 : S2x16x16.Slices ![1, 0, 0] S1x16x16
  slices_S2x16_S1x16_1_0 : S2x16.Slices ![1, 0] S1x16
  shapeCasts_S64_S1x64 : S64.ShapeCasts S1x64
  shapeCasts_S10_S1x10 : S10.ShapeCasts S1x10
  inb_S64x16_S64x16_0_0 : ∀ a, (![0, 0] : Fin 2 → Nat) a + S64x16.size a ≤ S64x16.size a
  h_S64x16 : 0 < S64x16.numel
  transposes_S64x16_p1_0_S16x64 : S64x16.Transposes [1, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S10x64_S10x64_0_0 : ∀ a, (![0, 0] : Fin 2 → Nat) a + S10x64.size a ≤ S10x64.size a
  h_S10x64 : 0 < S10x64.numel
  transposes_S10x64_p1_0_S64x10 : S10x64.Transposes [1, 0] S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x16_S5000x16_1_0_0_1_n_n_wf : DotDims.WF S5000x16 S16x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x16.size a ≤ S100000x16.size a
  hwx3_6 : ∀ i : grid3.Coords, EltTy.bits .f32 = 32 ∨ (Rect.block (s := S100000x16) S5000x16.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x64.size a ≤ S10x64.size a
  hwx4_3 : ∀ i : grid4.Coords, EltTy.bits .f32 = 32 ∨ (Rect.block (s := S10x64) S10x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x10.size a ≤ S100000x10.size a
  hwx4_5 : ∀ i : grid4.Coords, EltTy.bits .f32 = 32 ∨ (Rect.block (s := S100000x10) S5000x10.size (cc4_transform_5 i) (hinb4_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S10x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S5000x10.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000 : Shape := ⟨1, ![3200000]⟩
abbrev S100000 : Shape := ⟨1, ![100000]⟩
abbrev S2x16x16 : Shape := ⟨3, ![2, 16, 16]⟩
abbrev S2x16 : Shape := ⟨2, ![2, 16]⟩
abbrev S64x16 : Shape := ⟨2, ![64, 16]⟩
abbrev S64 : Shape := ⟨1, ![64]⟩
abbrev S10x64 : Shape := ⟨2, ![10, 64]⟩
abbrev S10 : Shape := ⟨1, ![10]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S1x16x16 : Shape := ⟨3, ![1, 16, 16]⟩
abbrev S16x16 : Shape := ⟨2, ![16, 16]⟩
abbrev S3300000x16 : Shape := ⟨2, ![3300000, 16]⟩
abbrev S1x16 : Shape := ⟨2, ![1, 16]⟩
abbrev S16 : Shape := ⟨1, ![16]⟩
abbrev S100000x1 : Shape := ⟨2, ![100000, 1]⟩
abbrev S16x64 : Shape := ⟨2, ![16, 64]⟩
abbrev S100000x64 : Shape := ⟨2, ![100000, 64]⟩
abbrev S1x64 : Shape := ⟨2, ![1, 64]⟩
abbrev S64x10 : Shape := ⟨2, ![64, 10]⟩
abbrev S100000x10 : Shape := ⟨2, ![100000, 10]⟩
abbrev S1x10 : Shape := ⟨2, ![1, 10]⟩

abbrev nBuf : Space → Nat
  | .hbm => 222
  | .vmem => 0
  | .smem => 0
  | _ => 0

abbrev hbmTy0_0 (i : Nat) : BufTy := match i % 128 with
  | 0 => ⟨S100000x16, .f32⟩
  | 1 => ⟨S2x3200000, .i32⟩
  | 2 => ⟨S3200000, .f32⟩
  | 3 => ⟨S100000, .i32⟩
  | 4 => ⟨S2x16x16, .f32⟩
  | 5 => ⟨S2x16, .f32⟩
  | 6 => ⟨S2x16x16, .f32⟩
  | 7 => ⟨S2x16, .f32⟩
  | 8 => ⟨S2x16, .f32⟩
  | 9 => ⟨S2x16, .f32⟩
  | 10 => ⟨S64x16, .f32⟩
  | 11 => ⟨S64, .f32⟩
  | 12 => ⟨S10x64, .f32⟩
  | 13 => ⟨S10, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S100000, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S1x16x16, .f32⟩
  | 60 => ⟨S16x16, .f32⟩
  | 61 => ⟨S16x16, .f32⟩
  | 62 => ⟨S100000x16, .f32⟩
  | 63 => ⟨S3300000x1, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000x16, .f32⟩
  | 73 => ⟨S3300000x16, .f32⟩
  | 74 => ⟨S3300000x16, .f32⟩
  | 75 => ⟨S_, .f32⟩
  | 76 => ⟨S100000x16, .f32⟩
  | 77 => ⟨S3300000x1, .i32⟩
  | 78 => ⟨S100000x16, .f32⟩
  | 79 => ⟨S1x16x16, .f32⟩
  | 80 => ⟨S16x16, .f32⟩
  | 81 => ⟨S16x16, .f32⟩
  | 82 => ⟨S100000x16, .f32⟩
  | 83 => ⟨S1x16, .f32⟩
  | 84 => ⟨S16, .f32⟩
  | 85 => ⟨S1x16, .f32⟩
  | 86 => ⟨S100000x16, .f32⟩
  | 87 => ⟨S100000x16, .f32⟩
  | 88 => ⟨S100000x16, .f32⟩
  | 89 => ⟨S1x16, .f32⟩
  | 90 => ⟨S16, .f32⟩
  | 91 => ⟨S1x16, .f32⟩
  | 92 => ⟨S100000x16, .f32⟩
  | 93 => ⟨S100000x16, .f32⟩
  | 94 => ⟨S_, .f32⟩
  | 95 => ⟨S100000x16, .f32⟩
  | 96 => ⟨S100000x16, .i1⟩
  | 97 => ⟨S_, .f32⟩
  | 98 => ⟨S100000x16, .f32⟩
  | 99 => ⟨S100000x16, .f32⟩
  | 100 => ⟨S100000x16, .f32⟩
  | 101 => ⟨S1x16, .f32⟩
  | 102 => ⟨S16, .f32⟩
  | 103 => ⟨S1x16, .f32⟩
  | 104 => ⟨S16, .f32⟩
  | 105 => ⟨S_, .f32⟩
  | 106 => ⟨S100000, .f32⟩
  | 107 => ⟨S100000x1, .f32⟩
  | 108 => ⟨S_, .f32⟩
  | 109 => ⟨S100000x1, .f32⟩
  | 110 => ⟨S100000x1, .f32⟩
  | 111 => ⟨S100000x16, .f32⟩
  | 112 => ⟨S100000x16, .f32⟩
  | 113 => ⟨S100000x16, .f32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x16, .f32⟩
  | 121 => ⟨S100000x16, .f32⟩
  | 122 => ⟨S_, .f32⟩
  | 123 => ⟨S100000x1, .f32⟩
  | 124 => ⟨S100000x1, .f32⟩
  | 125 => ⟨S100000x1, .f32⟩
  | 126 => ⟨S100000x16, .f32⟩
  | 127 => ⟨S100000x16, .f32⟩
  | _ => ⟨S100000x16, .f32⟩

abbrev hbmTy0_1 (i : Nat) : BufTy := match i % 128 with
  | 0 => ⟨S1x16, .f32⟩
  | 1 => ⟨S100000x16, .f32⟩
  | 2 => ⟨S100000x16, .f32⟩
  | 3 => ⟨S1x16, .f32⟩
  | 4 => ⟨S100000x16, .f32⟩
  | 5 => ⟨S100000x16, .f32⟩
  | 6 => ⟨S1x16x16, .f32⟩
  | 7 => ⟨S16x16, .f32⟩
  | 8 => ⟨S16x16, .f32⟩
  | 9 => ⟨S100000x16, .f32⟩
  | 10 => ⟨S3300000x1, .f32⟩
  | 11 => ⟨S_, .i32⟩
  | 12 => ⟨S3300000, .i32⟩
  | 13 => ⟨S3300000, .i1⟩
  | 14 => ⟨S_, .i32⟩
  | 15 => ⟨S3300000, .i32⟩
  | 16 => ⟨S3300000, .i32⟩
  | 17 => ⟨S3300000, .i32⟩
  | 18 => ⟨S3300000x1, .i32⟩
  | 19 => ⟨S3300000x16, .f32⟩
  | 20 => ⟨S3300000x16, .f32⟩
  | 21 => ⟨S3300000x16, .f32⟩
  | 22 => ⟨S_, .f32⟩
  | 23 => ⟨S100000x16, .f32⟩
  | 24 => ⟨S3300000x1, .i32⟩
  | 25 => ⟨S100000x16, .f32⟩
  | 26 => ⟨S1x16x16, .f32⟩
  | 27 => ⟨S16x16, .f32⟩
  | 28 => ⟨S16x16, .f32⟩
  | 29 => ⟨S100000x16, .f32⟩
  | 30 => ⟨S1x16, .f32⟩
  | 31 => ⟨S16, .f32⟩
  | 32 => ⟨S1x16, .f32⟩
  | 33 => ⟨S100000x16, .f32⟩
  | 34 => ⟨S100000x16, .f32⟩
  | 35 => ⟨S100000x16, .f32⟩
  | 36 => ⟨S1x16, .f32⟩
  | 37 => ⟨S16, .f32⟩
  | 38 => ⟨S1x16, .f32⟩
  | 39 => ⟨S100000x16, .f32⟩
  | 40 => ⟨S100000x16, .f32⟩
  | 41 => ⟨S_, .f32⟩
  | 42 => ⟨S100000x16, .f32⟩
  | 43 => ⟨S100000x16, .i1⟩
  | 44 => ⟨S_, .f32⟩
  | 45 => ⟨S100000x16, .f32⟩
  | 46 => ⟨S100000x16, .f32⟩
  | 47 => ⟨S100000x16, .f32⟩
  | 48 => ⟨S1x16, .f32⟩
  | 49 => ⟨S16, .f32⟩
  | 50 => ⟨S1x16, .f32⟩
  | 51 => ⟨S16, .f32⟩
  | 52 => ⟨S_, .f32⟩
  | 53 => ⟨S100000, .f32⟩
  | 54 => ⟨S100000x1, .f32⟩
  | 55 => ⟨S_, .f32⟩
  | 56 => ⟨S100000x1, .f32⟩
  | 57 => ⟨S100000x1, .f32⟩
  | 58 => ⟨S100000x16, .f32⟩
  | 59 => ⟨S100000x16, .f32⟩
  | 60 => ⟨S100000x16, .f32⟩
  | 61 => ⟨S_, .f32⟩
  | 62 => ⟨S100000, .f32⟩
  | 63 => ⟨S100000x1, .f32⟩
  | 64 => ⟨S_, .f32⟩
  | 65 => ⟨S100000x1, .f32⟩
  | 66 => ⟨S100000x1, .f32⟩
  | 67 => ⟨S100000x16, .f32⟩
  | 68 => ⟨S100000x16, .f32⟩
  | 69 => ⟨S_, .f32⟩
  | 70 => ⟨S100000x1, .f32⟩
  | 71 => ⟨S100000x1, .f32⟩
  | 72 => ⟨S100000x1, .f32⟩
  | 73 => ⟨S100000x16, .f32⟩
  | 74 => ⟨S100000x16, .f32⟩
  | 75 => ⟨S1x16, .f32⟩
  | 76 => ⟨S100000x16, .f32⟩
  | 77 => ⟨S100000x16, .f32⟩
  | 78 => ⟨S1x16, .f32⟩
  | 79 => ⟨S100000x16, .f32⟩
  | 80 => ⟨S100000x16, .f32⟩
  | 81 => ⟨S16x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S64x10, .f32⟩
  | 90 => ⟨S100000x10, .f32⟩
  | 91 => ⟨S1x10, .f32⟩
  | 92 => ⟨S100000x10, .f32⟩
  | 93 => ⟨S100000x10, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v17 : Ref sig .tc := ⟨.hbm, 38, rfl⟩
abbrev main_c : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_17 : Ref sig .tc := ⟨.hbm, 139, rfl⟩
abbrev main_v104 : Ref sig .tc := ⟨.hbm, 140, rfl⟩
abbrev main_v105 : Ref sig .tc := ⟨.hbm, 141, rfl⟩
abbrev main_c_18 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_19 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_20 : Ref sig .tc := ⟨.hbm, 169, rfl⟩
abbrev main_v131 : Ref sig .tc := ⟨.hbm, 170, rfl⟩
abbrev main_v132 : Ref sig .tc := ⟨.hbm, 171, rfl⟩
abbrev main_cst_21 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_22 : Ref sig .tc := ⟨.hbm, 180, rfl⟩
abbrev main_v140 : Ref sig .tc := ⟨.hbm, 181, rfl⟩
abbrev main_v141 : Ref sig .tc := ⟨.hbm, 182, rfl⟩
abbrev main_cst_23 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_24 : Ref sig .tc := ⟨.hbm, 189, rfl⟩
abbrev main_v147 : Ref sig .tc := ⟨.hbm, 190, rfl⟩
abbrev main_v148 : Ref sig .tc := ⟨.hbm, 191, rfl⟩
abbrev main_cst_25 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_26 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_call3_cst : Ref sig .tc := ⟨.hbm, 214, rfl⟩
abbrev main_call3_v0 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  slices_S2x16x16_S1x16x16_0_0_0 : S2x16x16.Slices ![0, 0, 0] S1x16x16
  shapeCasts_S1x16x16_S16x16 : S1x16x16.ShapeCasts S16x16
  transposes_S16x16_S16x16_1_0 : S16x16.Transposes [1, 0] S16x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  slices_S2x16_S1x16_0_0 : S2x16.Slices ![0, 0] S1x16
  shapeCasts_S1x16_S16 : S1x16.ShapeCasts S16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  slices_S2x16x16_S1x16x16_1_0_0 : S2x16x16.Slices ![1, 0, 0] S1x16x16
  slices_S2x16_S1x16_1_0 : S2x16.Slices ![1, 0] S1x16
  transposes_S64x16_S16x64_1_0 : S64x16.Transposes [1, 0] S16x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S10x64_S64x10_1_0 : S10x64.Transposes [1, 0] S64x10
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x16_S16x16_S100000x16_1_0_0_1_n_n_wf : DotDims.WF S100000x16 S16x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  dot_S100000x64_S64x10_S100000x10_1_0_0_1_n_n_wf : DotDims.WF S100000x64 S64x10 S100000x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.KRun.lean ====
/-
  The idealized kernel program, run from launch to return, with every surviving buffer's final contents named.

  The program is a line of twelve segments: stretches of host operations and five kernel regions. Between
  two segments the buffers that outlive the kernels hold definite contents — after a host stretch the
  stretch's operations applied to what it found, after a region the region's arrays as its write-backs leave
  them and every other buffer as it was. Folding these through the program from the launch memory gives the
  contents at the return; every weakly fair execution terminates without a fault in a state whose memory
  holds exactly those contents. Any statement about the final memory that follows from them is therefore a
  statement about every execution.
-/
import proofs.«123398_j55817394979003_2_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in its final state each buffer that
    outlives the kernels holds the contents the last segment boundary gives it; so whatever follows from those
    contents (`hQ`) holds of every final state. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    -- @main is the segments' run
    (fun c Q => by rw [main_run m ρ c])
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no further ghost resource is dealt
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    -- the thread state between segments: the surviving buffers at the boundary's contents, the generator
    -- register at some state, nothing owed
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    -- the first thread state, from what the launch deals each core
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _
        iexact Hprng
      · iexists ∅
        iexact Howes)
    -- the last thread state read against the final state: every surviving buffer at the last boundary's contents
    (QY := fun c s => ∀ b ∈ Pipeline.ucRefs τ sig, s.mem (((c : Thread nD τ)).1, b) = W12 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W12 m ρ c) s')
      isplitl [Hheld] <;> iassumption)
    (hQ := hQ)

end Cert.KernelIdeal.RunNamed

end
-- ==== Proof.KKeep.lean ====
/-
  Buffers that stay put. A host stretch changes only the buffers its operations write, and a kernel region only
  its own arrays; every other buffer holds after the segment what it held before. Chained through the program
  this says where each later segment's operands come from: the argument arrays from the launch memory, the edge
  weights and the two index vectors from the first stretches, each region's result from that region.
-/
import proofs.«123398_j55817394979003_2_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A buffer that no operation of a host stretch writes holds after the host stretch what it held before it. -/
local macro "untouched_by " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The argument arrays where the first region is entered -/

/-- Argument 0 is as launched when the first region is entered. -/
theorem W3_arg0 : W3 m ρ c (Proc.devRef .tc main_arg0) = m ((c : Thread nD τ).loc main_arg0) :=
  ((by untouched_by hostOps0_2 : W3 m ρ c (Proc.devRef .tc main_arg0) = W2 m ρ c (Proc.devRef .tc main_arg0)).trans ((by untouched_by hostOps0_1 : W2 m ρ c (Proc.devRef .tc main_arg0) = W1 m ρ c (Proc.devRef .tc main_arg0)).trans ((by untouched_by hostOps0 : W1 m ρ c (Proc.devRef .tc main_arg0) = W0 m ρ c (Proc.devRef .tc main_arg0))))).trans rfl

/-- Argument 4 is as launched when the first region is entered. -/
theorem W3_arg4 : W3 m ρ c (Proc.devRef .tc main_arg4) = m ((c : Thread nD τ).loc main_arg4) :=
  ((by untouched_by hostOps0_2 : W3 m ρ c (Proc.devRef .tc main_arg4) = W2 m ρ c (Proc.devRef .tc main_arg4)).trans ((by untouched_by hostOps0_1 : W2 m ρ c (Proc.devRef .tc main_arg4) = W1 m ρ c (Proc.devRef .tc main_arg4)).trans ((by untouched_by hostOps0 : W1 m ρ c (Proc.devRef .tc main_arg4) = W0 m ρ c (Proc.devRef .tc main_arg4))))).trans rfl

/-- Argument 5 is as launched when the first region is entered. -/
theorem W3_arg5 : W3 m ρ c (Proc.devRef .tc main_arg5) = m ((c : Thread nD τ).loc main_arg5) :=
  ((by untouched_by hostOps0_2 : W3 m ρ c (Proc.devRef .tc main_arg5) = W2 m ρ c (Proc.devRef .tc main_arg5)).trans ((by untouched_by hostOps0_1 : W2 m ρ c (Proc.devRef .tc main_arg5) = W1 m ρ c (Proc.devRef .tc main_arg5)).trans ((by untouched_by hostOps0 : W1 m ρ c (Proc.devRef .tc main_arg5) = W0 m ρ c (Proc.devRef .tc main_arg5))))).trans rfl

/-- Argument 6 is as launched when the first region is entered. -/
theorem W3_arg6 : W3 m ρ c (Proc.devRef .tc main_arg6) = m ((c : Thread nD τ).loc main_arg6) :=
  ((by untouched_by hostOps0_2 : W3 m ρ c (Proc.devRef .tc main_arg6) = W2 m ρ c (Proc.devRef .tc main_arg6)).trans ((by untouched_by hostOps0_1 : W2 m ρ c (Proc.devRef .tc main_arg6) = W1 m ρ c (Proc.devRef .tc main_arg6)).trans ((by untouched_by hostOps0 : W1 m ρ c (Proc.devRef .tc main_arg6) = W0 m ρ c (Proc.devRef .tc main_arg6))))).trans rfl

/-- Argument 7 is as launched when the first region is entered. -/
theorem W3_arg7 : W3 m ρ c (Proc.devRef .tc main_arg7) = m ((c : Thread nD τ).loc main_arg7) :=
  ((by untouched_by hostOps0_2 : W3 m ρ c (Proc.devRef .tc main_arg7) = W2 m ρ c (Proc.devRef .tc main_arg7)).trans ((by untouched_by hostOps0_1 : W2 m ρ c (Proc.devRef .tc main_arg7) = W1 m ρ c (Proc.devRef .tc main_arg7)).trans ((by untouched_by hostOps0 : W1 m ρ c (Proc.devRef .tc main_arg7) = W0 m ρ c (Proc.devRef .tc main_arg7))))).trans rfl

/-- Argument 8 is as launched when the first region is entered. -/
theorem W3_arg8 : W3 m ρ c (Proc.devRef .tc main_arg8) = m ((c : Thread nD τ).loc main_arg8) :=
  ((by untouched_by hostOps0_2 : W3 m ρ c (Proc.devRef .tc main_arg8) = W2 m ρ c (Proc.devRef .tc main_arg8)).trans ((by untouched_by hostOps0_1 : W2 m ρ c (Proc.devRef .tc main_arg8) = W1 m ρ c (Proc.devRef .tc main_arg8)).trans ((by untouched_by hostOps0 : W1 m ρ c (Proc.devRef .tc main_arg8) = W0 m ρ c (Proc.devRef .tc main_arg8))))).trans rfl

/-- Argument 9 is as launched when the first region is entered. -/
theorem W3_arg9 : W3 m ρ c (Proc.devRef .tc main_arg9) = m ((c : Thread nD τ).loc main_arg9) :=
  ((by untouched_by hostOps0_2 : W3 m ρ c (Proc.devRef .tc main_arg9) = W2 m ρ c (Proc.devRef .tc main_arg9)).trans ((by untouched_by hostOps0_1 : W2 m ρ c (Proc.devRef .tc main_arg9) = W1 m ρ c (Proc.devRef .tc main_arg9)).trans ((by untouched_by hostOps0 : W1 m ρ c (Proc.devRef .tc main_arg9) = W0 m ρ c (Proc.devRef .tc main_arg9))))).trans rfl

/-! ## From the first region's entry to the second layer's gather and scatter -/

theorem W4_v3 : W4 m ρ c (Proc.devRef .tc main_v3) = W3 m ρ c (Proc.devRef .tc main_v3) :=
  (W4_of_ne m ρ c main_v3 (by decide) : W4 m ρ c (Proc.devRef .tc main_v3) = W3 m ρ c (Proc.devRef .tc main_v3))

theorem W8_v3 : W8 m ρ c (Proc.devRef .tc main_v3) = W3 m ρ c (Proc.devRef .tc main_v3) :=
  (W8_of_ne m ρ c main_v3 (by decide) : W8 m ρ c (Proc.devRef .tc main_v3) = W7 m ρ c (Proc.devRef .tc main_v3)).trans ((by untouched_by hostOps2 : W7 m ρ c (Proc.devRef .tc main_v3) = W6 m ρ c (Proc.devRef .tc main_v3)).trans ((W6_of_ne m ρ c main_v3 (by decide) : W6 m ρ c (Proc.devRef .tc main_v3) = W5 m ρ c (Proc.devRef .tc main_v3)).trans ((by untouched_by hostOps1 : W5 m ρ c (Proc.devRef .tc main_v3) = W4 m ρ c (Proc.devRef .tc main_v3)).trans ((W4_of_ne m ρ c main_v3 (by decide) : W4 m ρ c (Proc.devRef .tc main_v3) = W3 m ρ c (Proc.devRef .tc main_v3))))))

theorem W4_v6 : W4 m ρ c (Proc.devRef .tc main_v6) = W3 m ρ c (Proc.devRef .tc main_v6) :=
  (W4_of_ne m ρ c main_v6 (by decide) : W4 m ρ c (Proc.devRef .tc main_v6) = W3 m ρ c (Proc.devRef .tc main_v6))

theorem W8_v6 : W8 m ρ c (Proc.devRef .tc main_v6) = W3 m ρ c (Proc.devRef .tc main_v6) :=
  (W8_of_ne m ρ c main_v6 (by decide) : W8 m ρ c (Proc.devRef .tc main_v6) = W7 m ρ c (Proc.devRef .tc main_v6)).trans ((by untouched_by hostOps2 : W7 m ρ c (Proc.devRef .tc main_v6) = W6 m ρ c (Proc.devRef .tc main_v6)).trans ((W6_of_ne m ρ c main_v6 (by decide) : W6 m ρ c (Proc.devRef .tc main_v6) = W5 m ρ c (Proc.devRef .tc main_v6)).trans ((by untouched_by hostOps1 : W5 m ρ c (Proc.devRef .tc main_v6) = W4 m ρ c (Proc.devRef .tc main_v6)).trans ((W4_of_ne m ρ c main_v6 (by decide) : W4 m ρ c (Proc.devRef .tc main_v6) = W3 m ρ c (Proc.devRef .tc main_v6))))))

theorem W4_v33 : W4 m ρ c (Proc.devRef .tc main_v33) = W3 m ρ c (Proc.devRef .tc main_v33) :=
  (W4_of_ne m ρ c main_v33 (by decide) : W4 m ρ c (Proc.devRef .tc main_v33) = W3 m ρ c (Proc.devRef .tc main_v33))

theorem W8_v33 : W8 m ρ c (Proc.devRef .tc main_v33) = W3 m ρ c (Proc.devRef .tc main_v33) :=
  (W8_of_ne m ρ c main_v33 (by decide) : W8 m ρ c (Proc.devRef .tc main_v33) = W7 m ρ c (Proc.devRef .tc main_v33)).trans ((by untouched_by hostOps2 : W7 m ρ c (Proc.devRef .tc main_v33) = W6 m ρ c (Proc.devRef .tc main_v33)).trans ((W6_of_ne m ρ c main_v33 (by decide) : W6 m ρ c (Proc.devRef .tc main_v33) = W5 m ρ c (Proc.devRef .tc main_v33)).trans ((by untouched_by hostOps1 : W5 m ρ c (Proc.devRef .tc main_v33) = W4 m ρ c (Proc.devRef .tc main_v33)).trans ((W4_of_ne m ρ c main_v33 (by decide) : W4 m ρ c (Proc.devRef .tc main_v33) = W3 m ρ c (Proc.devRef .tc main_v33))))))

theorem W4_arg5 : W4 m ρ c (Proc.devRef .tc main_arg5) = W3 m ρ c (Proc.devRef .tc main_arg5) :=
  (W4_of_ne m ρ c main_arg5 (by decide) : W4 m ρ c (Proc.devRef .tc main_arg5) = W3 m ρ c (Proc.devRef .tc main_arg5))

theorem W8_arg5 : W8 m ρ c (Proc.devRef .tc main_arg5) = W3 m ρ c (Proc.devRef .tc main_arg5) :=
  (W8_of_ne m ρ c main_arg5 (by decide) : W8 m ρ c (Proc.devRef .tc main_arg5) = W7 m ρ c (Proc.devRef .tc main_arg5)).trans ((by untouched_by hostOps2 : W7 m ρ c (Proc.devRef .tc main_arg5) = W6 m ρ c (Proc.devRef .tc main_arg5)).trans ((W6_of_ne m ρ c main_arg5 (by decide) : W6 m ρ c (Proc.devRef .tc main_arg5) = W5 m ρ c (Proc.devRef .tc main_arg5)).trans ((by untouched_by hostOps1 : W5 m ρ c (Proc.devRef .tc main_arg5) = W4 m ρ c (Proc.devRef .tc main_arg5)).trans ((W4_of_ne m ρ c main_arg5 (by decide) : W4 m ρ c (Proc.devRef .tc main_arg5) = W3 m ρ c (Proc.devRef .tc main_arg5))))))

theorem W4_arg6 : W4 m ρ c (Proc.devRef .tc main_arg6) = W3 m ρ c (Proc.devRef .tc main_arg6) :=
  (W4_of_ne m ρ c main_arg6 (by decide) : W4 m ρ c (Proc.devRef .tc main_arg6) = W3 m ρ c (Proc.devRef .tc main_arg6))

theorem W8_arg6 : W8 m ρ c (Proc.devRef .tc main_arg6) = W3 m ρ c (Proc.devRef .tc main_arg6) :=
  (W8_of_ne m ρ c main_arg6 (by decide) : W8 m ρ c (Proc.devRef .tc main_arg6) = W7 m ρ c (Proc.devRef .tc main_arg6)).trans ((by untouched_by hostOps2 : W7 m ρ c (Proc.devRef .tc main_arg6) = W6 m ρ c (Proc.devRef .tc main_arg6)).trans ((W6_of_ne m ρ c main_arg6 (by decide) : W6 m ρ c (Proc.devRef .tc main_arg6) = W5 m ρ c (Proc.devRef .tc main_arg6)).trans ((by untouched_by hostOps1 : W5 m ρ c (Proc.devRef .tc main_arg6) = W4 m ρ c (Proc.devRef .tc main_arg6)).trans ((W4_of_ne m ρ c main_arg6 (by decide) : W4 m ρ c (Proc.devRef .tc main_arg6) = W3 m ρ c (Proc.devRef .tc main_arg6))))))

theorem W4_arg7 : W4 m ρ c (Proc.devRef .tc main_arg7) = W3 m ρ c (Proc.devRef .tc main_arg7) :=
  (W4_of_ne m ρ c main_arg7 (by decide) : W4 m ρ c (Proc.devRef .tc main_arg7) = W3 m ρ c (Proc.devRef .tc main_arg7))

theorem W8_arg7 : W8 m ρ c (Proc.devRef .tc main_arg7) = W3 m ρ c (Proc.devRef .tc main_arg7) :=
  (W8_of_ne m ρ c main_arg7 (by decide) : W8 m ρ c (Proc.devRef .tc main_arg7) = W7 m ρ c (Proc.devRef .tc main_arg7)).trans ((by untouched_by hostOps2 : W7 m ρ c (Proc.devRef .tc main_arg7) = W6 m ρ c (Proc.devRef .tc main_arg7)).trans ((W6_of_ne m ρ c main_arg7 (by decide) : W6 m ρ c (Proc.devRef .tc main_arg7) = W5 m ρ c (Proc.devRef .tc main_arg7)).trans ((by untouched_by hostOps1 : W5 m ρ c (Proc.devRef .tc main_arg7) = W4 m ρ c (Proc.devRef .tc main_arg7)).trans ((W4_of_ne m ρ c main_arg7 (by decide) : W4 m ρ c (Proc.devRef .tc main_arg7) = W3 m ρ c (Proc.devRef .tc main_arg7))))))

theorem W4_arg8 : W4 m ρ c (Proc.devRef .tc main_arg8) = W3 m ρ c (Proc.devRef .tc main_arg8) :=
  (W4_of_ne m ρ c main_arg8 (by decide) : W4 m ρ c (Proc.devRef .tc main_arg8) = W3 m ρ c (Proc.devRef .tc main_arg8))

theorem W8_arg8 : W8 m ρ c (Proc.devRef .tc main_arg8) = W3 m ρ c (Proc.devRef .tc main_arg8) :=
  (W8_of_ne m ρ c main_arg8 (by decide) : W8 m ρ c (Proc.devRef .tc main_arg8) = W7 m ρ c (Proc.devRef .tc main_arg8)).trans ((by untouched_by hostOps2 : W7 m ρ c (Proc.devRef .tc main_arg8) = W6 m ρ c (Proc.devRef .tc main_arg8)).trans ((W6_of_ne m ρ c main_arg8 (by decide) : W6 m ρ c (Proc.devRef .tc main_arg8) = W5 m ρ c (Proc.devRef .tc main_arg8)).trans ((by untouched_by hostOps1 : W5 m ρ c (Proc.devRef .tc main_arg8) = W4 m ρ c (Proc.devRef .tc main_arg8)).trans ((W4_of_ne m ρ c main_arg8 (by decide) : W4 m ρ c (Proc.devRef .tc main_arg8) = W3 m ρ c (Proc.devRef .tc main_arg8))))))

theorem W4_arg9 : W4 m ρ c (Proc.devRef .tc main_arg9) = W3 m ρ c (Proc.devRef .tc main_arg9) :=
  (W4_of_ne m ρ c main_arg9 (by decide) : W4 m ρ c (Proc.devRef .tc main_arg9) = W3 m ρ c (Proc.devRef .tc main_arg9))

theorem W8_arg9 : W8 m ρ c (Proc.devRef .tc main_arg9) = W3 m ρ c (Proc.devRef .tc main_arg9) :=
  (W8_of_ne m ρ c main_arg9 (by decide) : W8 m ρ c (Proc.devRef .tc main_arg9) = W7 m ρ c (Proc.devRef .tc main_arg9)).trans ((by untouched_by hostOps2 : W7 m ρ c (Proc.devRef .tc main_arg9) = W6 m ρ c (Proc.devRef .tc main_arg9)).trans ((W6_of_ne m ρ c main_arg9 (by decide) : W6 m ρ c (Proc.devRef .tc main_arg9) = W5 m ρ c (Proc.devRef .tc main_arg9)).trans ((by untouched_by hostOps1 : W5 m ρ c (Proc.devRef .tc main_arg9) = W4 m ρ c (Proc.devRef .tc main_arg9)).trans ((W4_of_ne m ρ c main_arg9 (by decide) : W4 m ρ c (Proc.devRef .tc main_arg9) = W3 m ρ c (Proc.devRef .tc main_arg9))))))

/-- The lin weights' array (argument 4) where the second lin weight is sliced out of it. -/
theorem W6_arg4 : W6 m ρ c (Proc.devRef .tc main_arg4) = m ((c : Thread nD τ).loc main_arg4) :=
  ((W6_of_ne m ρ c main_arg4 (by decide) : W6 m ρ c (Proc.devRef .tc main_arg4) = W5 m ρ c (Proc.devRef .tc main_arg4)).trans ((by untouched_by hostOps1 : W5 m ρ c (Proc.devRef .tc main_arg4) = W4 m ρ c (Proc.devRef .tc main_arg4)).trans ((W4_of_ne m ρ c main_arg4 (by decide) : W4 m ρ c (Proc.devRef .tc main_arg4) = W3 m ρ c (Proc.devRef .tc main_arg4))))).trans (W3_arg4 m ρ c)

/-- The first layer's result is still there when the second lin region is entered. -/
theorem W7_v64 : W7 m ρ c (Proc.devRef .tc main_v64) = W6 m ρ c (Proc.devRef .tc main_v64) :=
  (by untouched_by hostOps2 : W7 m ρ c (Proc.devRef .tc main_v64) = W6 m ρ c (Proc.devRef .tc main_v64))

/-- The second layer's result is still there when the classifier region is entered. -/
theorem W11_v95 : W11 m ρ c (Proc.devRef .tc main_v95) = W10 m ρ c (Proc.devRef .tc main_v95) :=
  (by untouched_by hostOps4 : W11 m ρ c (Proc.devRef .tc main_v95) = W10 m ρ c (Proc.devRef .tc main_v95))

/-! ## The classifier's arguments: nothing after these boundaries writes them, so they are what the program ends with -/

theorem W10_arg11 : W10 m ρ c (Proc.devRef .tc main_arg11) = m ((c : Thread nD τ).loc main_arg11) :=
  (((W12_of_ne m ρ c main_arg11 (by decide) : W12 m ρ c (Proc.devRef .tc main_arg11) = W11 m ρ c (Proc.devRef .tc main_arg11)).trans ((by untouched_by hostOps4 : W11 m ρ c (Proc.devRef .tc main_arg11) = W10 m ρ c (Proc.devRef .tc main_arg11)))).symm).trans (W12_main_arg11 m ρ c)

theorem W10_arg13 : W10 m ρ c (Proc.devRef .tc main_arg13) = m ((c : Thread nD τ).loc main_arg13) :=
  (((W12_of_ne m ρ c main_arg13 (by decide) : W12 m ρ c (Proc.devRef .tc main_arg13) = W11 m ρ c (Proc.devRef .tc main_arg13)).trans ((by untouched_by hostOps4 : W11 m ρ c (Proc.devRef .tc main_arg13) = W10 m ρ c (Proc.devRef .tc main_arg13)))).symm).trans (W12_main_arg13 m ρ c)

/-- An input array of the last region is left as the region found it. -/
theorem W11_arg10 : W11 m ρ c (Proc.devRef .tc main_arg10) = m ((c : Thread nD τ).loc main_arg10) :=
  (((W12_arr m ρ c 1).trans (((dat4 (V11 m ρ) c).arrAt_in 1 rfl _).trans (A_eq4 (V11 m ρ) c 1))).symm).trans (W12_main_arg10 m ρ c)

/-- An input array of the last region is left as the region found it. -/
theorem W11_arg12 : W11 m ρ c (Proc.devRef .tc main_arg12) = m ((c : Thread nD τ).loc main_arg12) :=
  (((W12_arr m ρ c 3).trans (((dat4 (V11 m ρ) c).arrAt_in 3 rfl _).trans (A_eq4 (V11 m ρ) c 3))).symm).trans (W12_main_arg12 m ρ c)

end Cert.KernelIdeal.Keep

end
-- ==== Proof.Spec.lean ====
/-
  The mathematics of the network, index by index, on the extended reals.

  A graph of 100000 nodes carries a 16-vector per node. One layer maps the node features `h` to
  `lin h W` (every row against the rows of a 16×16 weight), sums the scaled rows of the neighbours
  into each node (done by the surrounding program, not here), and then `node`: an affine map and
  `tanh`, a bias, the leaky rectifier of slope `f32(0.2)`, and the normalisation of each row to zero
  mean and unit variance (over its 16 entries, with `f32(1e-5)` added to the variance) followed by a
  gain and an offset per column. The classifier `cls` is an affine map to 64 columns, the positive
  part, and an affine map to 10 columns.

  Every sum here is a finite sum in the commutative monoid of the extended reals, so neither the
  order nor the grouping of its terms matters; no other law is used between the two programs.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- node × feature -/
abbrev NxD : Shape := ⟨2, ![100000, 16]⟩
/-- a 16 × 16 weight -/
abbrev DxD : Shape := ⟨2, ![16, 16]⟩
/-- a vector over the 16 features -/
abbrev Dv : Shape := ⟨1, ![16]⟩
/-- the classifier's first weight, hidden × feature -/
abbrev HxD : Shape := ⟨2, ![64, 16]⟩
/-- a vector over the 64 hidden columns -/
abbrev Hv : Shape := ⟨1, ![64]⟩
/-- the classifier's second weight, class × hidden -/
abbrev CxH : Shape := ⟨2, ![10, 64]⟩
/-- a vector over the 10 classes -/
abbrev Cv : Shape := ⟨1, ![10]⟩
/-- node × class -/
abbrev NxC : Shape := ⟨2, ![100000, 10]⟩

/-- The word of `+0.0`. -/
abbrev zeroLit : EReal := Ideal.ofBits .f32 0x00000000#32
/-- The rectifier's slope: the f32 nearest `0.2`, as its exact binary value. -/
abbrev slope : EReal := Ideal.ofBits .f32 0x3E4CCCCD#32
/-- The row length `16`, by which a row's sum is divided. -/
abbrev width : EReal := Ideal.ofBits .f32 0x41800000#32
/-- The f32 nearest `1e-5`, added to the variance. -/
abbrev eps : EReal := Ideal.ofBits .f32 0x3727C5AC#32

/-- The one row of a 1 × 16 array, as a vector over the features. -/
def row16 (v : (⟨2, ![1, 16]⟩ : Shape).Idx → EReal) : Dv.Idx → EReal := fun j => v (ix2 (0 : Fin 1) (j 0))
/-- The one row of a 1 × 64 array, as a vector over the hidden columns. -/
def row64 (v : (⟨2, ![1, 64]⟩ : Shape).Idx → EReal) : Hv.Idx → EReal := fun j => v (ix2 (0 : Fin 1) (j 0))
/-- The one row of a 1 × 10 array, as a vector over the classes. -/
def row10 (v : (⟨2, ![1, 10]⟩ : Shape).Idx → EReal) : Cv.Idx → EReal := fun j => v (ix2 (0 : Fin 1) (j 0))

/-- `∑ₖ h[n, k] · w[j, k]`: row `n` of `h` against row `j` of `w`. -/
def linAt (h : NxD.Idx → EReal) (w : DxD.Idx → EReal) (n : Fin 100000) (j : Fin 16) : EReal :=
  ∑ k : Fin 16, h (ix2 n k) * w (ix2 j k)

/-- The projection of every node's row by the weight `w` (no bias). -/
def lin (h : NxD.Idx → EReal) (w : DxD.Idx → EReal) : NxD.Idx → EReal :=
  fun i => linAt h w (i 0) (i 1)

/-- Entry `(n, j)` before the normalisation: `tanh` of the affine map, the bias `cb`, then the leaky rectifier. -/
def actAt (a : NxD.Idx → EReal) (w : DxD.Idx → EReal) (nb cb : Dv.Idx → EReal) (n : Fin 100000) (j : Fin 16) : EReal :=
  Scalar.select (Ideal.cmp .ogt (Ideal.tanh (linAt a w n j + nb (ix1 j)) + cb (ix1 j)) zeroLit)
    (Ideal.tanh (linAt a w n j + nb (ix1 j)) + cb (ix1 j))
    (slope * (Ideal.tanh (linAt a w n j + nb (ix1 j)) + cb (ix1 j)))

/-- The mean of row `n` of the activation. -/
def muAt (a : NxD.Idx → EReal) (w : DxD.Idx → EReal) (nb cb : Dv.Idx → EReal) (n : Fin 100000) : EReal :=
  Ideal.div (∑ k : Fin 16, actAt a w nb cb n k) width

/-- The variance of row `n` of the activation about its mean. -/
def varAt (a : NxD.Idx → EReal) (w : DxD.Idx → EReal) (nb cb : Dv.Idx → EReal) (n : Fin 100000) : EReal :=
  Ideal.div (∑ k : Fin 16, (actAt a w nb cb n k - muAt a w nb cb n) * (actAt a w nb cb n k - muAt a w nb cb n)) width

/-- Entry `(n, j)` of the node update: the centred activation times `(var + eps)^(-1/2)`, times the gain, plus the offset. -/
def nodeAt (a : NxD.Idx → EReal) (w : DxD.Idx → EReal) (nb cb g b : Dv.Idx → EReal) (n : Fin 100000) (j : Fin 16) : EReal :=
  (actAt a w nb cb n j - muAt a w nb cb n) * Ideal.rsqrt (varAt a w nb cb n + eps) * g (ix1 j) + b (ix1 j)

/-- The node update of every node. -/
def node (a : NxD.Idx → EReal) (w : DxD.Idx → EReal) (nb cb g b : Dv.Idx → EReal) : NxD.Idx → EReal :=
  fun i => nodeAt a w nb cb g b (i 0) (i 1)

/-- Hidden column `q` of node `n`: the positive part of the first affine map. -/
def hidAt (h : NxD.Idx → EReal) (w1 : HxD.Idx → EReal) (b1 : Hv.Idx → EReal) (n : Fin 100000) (q : Fin 64) : EReal :=
  max ((∑ k : Fin 16, h (ix2 n k) * w1 (ix2 q k)) + b1 (ix1 q)) zeroLit

/-- Class `c` of node `n`: the second affine map of the hidden row. -/
def clsAt (h : NxD.Idx → EReal) (w1 : HxD.Idx → EReal) (b1 : Hv.Idx → EReal) (w2 : CxH.Idx → EReal) (b2 : Cv.Idx → EReal)
    (n : Fin 100000) (c : Fin 10) : EReal :=
  (∑ q : Fin 64, hidAt h w1 b1 n q * w2 (ix2 c q)) + b2 (ix1 c)

/-- The classifier on every node. -/
def cls (h : NxD.Idx → EReal) (w1 : HxD.Idx → EReal) (b1 : Hv.Idx → EReal) (w2 : CxH.Idx → EReal) (b2 : Cv.Idx → EReal) :
    NxC.Idx → EReal :=
  fun i => clsAt h w1 b1 w2 b2 (i 0) (i 1)

end Cert.Spec

end
-- ==== Proof.KGlue.lean ====
/-
  Where the two programs' host operations meet. Outside the kernels both programs run the same host
  operations on the same operands: the symmetric edge normalisation from the edge weights and the two index
  vectors, and per layer the gather of the projected rows along the edges, their scaling, and the scatter-add
  into the target nodes; also the slices and reshapes that cut each layer's weights and vectors out of the
  stacked arguments. So what the kernel program holds in a buffer after a host stretch is, term for term, the
  reference's value at the corresponding stage — provided the buffers the stretch starts from hold the
  corresponding stages, which for a kernel's result array is the statement about that kernel.
-/
import proofs.«123398_j55817394979003_2_alg».proof.Proof.ReadP
import proofs.«123398_j55817394979003_2_alg».proof.Proof.KKeep
import proofs.«123398_j55817394979003_2_alg».proof.Proof.Spec

set_option maxRecDepth 16384

noncomputable section

namespace Cert.KGlue

open Idealize.ShloMosaic Idealize.ShloMosaic.TcCoe Idealize.SL.Sem Idealize.ShloMosaic.StableHlo
open Cert.KernelIdeal Cert.KernelIdeal.Gen Cert.KernelIdeal.Keep

variable (m : (ℓ : Loc nD τ sig) → Buf (Elt Ideal) ℓ) (ρ : Dev nD → PrngReg) (c : Dev nD)

/-! ## A vector reshaped to one row, read back as a vector -/

theorem row16_shapeCast (u : (⟨1, ![16]⟩ : Shape).Idx → EReal) (h : (⟨1, ![16]⟩ : Shape).ShapeCasts ⟨2, ![1, 16]⟩) :
    Cert.Spec.row16 (shapeCast ⟨2, ![1, 16]⟩ u h) = u := by
  funext j
  unfold Cert.Spec.row16
  exact (shapeCast_addUnit_apply ![16] u h _).trans (congrArg u (funext fun a => by match a with | ⟨0, _⟩ => rfl))

theorem row64_shapeCast (u : (⟨1, ![64]⟩ : Shape).Idx → EReal) (h : (⟨1, ![64]⟩ : Shape).ShapeCasts ⟨2, ![1, 64]⟩) :
    Cert.Spec.row64 (shapeCast ⟨2, ![1, 64]⟩ u h) = u := by
  funext j
  unfold Cert.Spec.row64
  exact (shapeCast_addUnit_apply ![64] u h _).trans (congrArg u (funext fun a => by match a with | ⟨0, _⟩ => rfl))

theorem row10_shapeCast (u : (⟨1, ![10]⟩ : Shape).Idx → EReal) (h : (⟨1, ![10]⟩ : Shape).ShapeCasts ⟨2, ![1, 10]⟩) :
    Cert.Spec.row10 (shapeCast ⟨2, ![1, 10]⟩ u h) = u := by
  funext j
  unfold Cert.Spec.row10
  exact (shapeCast_addUnit_apply ![10] u h _).trans (congrArg u (funext fun a => by match a with | ⟨0, _⟩ => rfl))

/-- A buffer that no operation of a host stretch writes holds after the stretch what it held before it: the
    stretch's operations are listed, and each one's written buffer is another. -/
local macro "untouched_by " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The first stretch, stage by stage: the index vectors, the weights with the self loops' ones, the degrees,
    and the inverse square root of the degrees where they are positive -/

theorem w1_v3 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp
  rfl

theorem w1_v6 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  dsimp only [hostOps0]
  after_results_simp
  rfl

theorem w1_v8 : W1 m ρ c (Proc.devRef .tc main_v8) = Cert.ReferenceIdeal.ReadP.val_main_v8 (F := Ideal) (m ((c : Thread nD τ).loc main_arg2)) := by
  show StableHlo.after hostOps0 (W0 m ρ c) (Proc.devRef .tc main_v8) = _
  dsimp only [hostOps0]
  after_results_simp
  rfl

theorem w1_v13 : W1 m ρ c (Proc.devRef .tc main_v13) = Cert.ReferenceIdeal.ReadP.val_main_v13 (F := Ideal) (m ((c : Thread nD τ).loc main_arg1)) (m ((c : Thread nD τ).loc main_arg2)) := by
  show StableHlo.after hostOps0 (W0 m ρ c) (Proc.devRef .tc main_v13) = _
  dsimp only [hostOps0]
  after_results_simp
  rfl

theorem w1_v16 : W1 m ρ c (Proc.devRef .tc main_v16) = Cert.ReferenceIdeal.ReadP.val_main_v16 (F := Ideal) (m ((c : Thread nD τ).loc main_arg1)) (m ((c : Thread nD τ).loc main_arg2)) := by
  show StableHlo.after hostOps0 (W0 m ρ c) (Proc.devRef .tc main_v16) = _
  dsimp only [hostOps0]
  after_results_simp
  rfl

theorem w1_cst_3 : W1 m ρ c (Proc.devRef .tc main_cst_3) = Cert.ReferenceIdeal.ReadP.val_main_cst_3 (F := Ideal) := by
  show StableHlo.after hostOps0 (W0 m ρ c) (Proc.devRef .tc main_cst_3) = _
  dsimp only [hostOps0]
  after_results_simp
  rfl

/-- The inverse square root of every node's degree, zero where the degree is not positive. The selection is an
    outlined function: each of its three operations names its buffers together with their tensor types, and moves
    a value to the buffer's own type and back; at these literal buffers both moves are the identity. -/
theorem w2_v17 : W2 m ρ c (Proc.devRef .tc main_v17) = Cert.ReferenceIdeal.ReadP.val_main_v17 (F := Ideal) (m ((c : Thread nD τ).loc main_arg1)) (m ((c : Thread nD τ).loc main_arg2)) := by
  have e13 := w1_v13 m ρ c
  have e16 := w1_v16 m ρ c
  have e3 := w1_cst_3 m ρ c
  show StableHlo.after hostOps0_1 (W1 m ρ c) (Proc.devRef .tc main_v17) = _
  generalize W1 m ρ c = X at e13 e16 e3 ⊢
  dsimp only [hostOps0_1]
  after_results_simp
  rw [e13, e16, e3]
  have t_cst_3 : ∀ v : (⟨S_, .f32⟩ : BufTy).Contents (Elt Ideal), (TRef.of (sig := sig) (T := ⟨S_, .f32⟩) main_cst_3).toBuf v = v := fun _ => rfl
  have o_cst_3 : ∀ v : (⟨S_, .f32⟩ : BufTy).Contents (Elt Ideal), (TRef.of (sig := sig) (T := ⟨S_, .f32⟩) main_cst_3).ofBuf (Val := Elt Ideal) v = v := fun _ => rfl
  have t_call0_v0 : ∀ v : (⟨S_, .f32⟩ : BufTy).Contents (Elt Ideal), (TRef.of (sig := sig) (T := ⟨S_, .f32⟩) main_call0_v0).toBuf v = v := fun _ => rfl
  have o_call0_v0 : ∀ v : (⟨S_, .f32⟩ : BufTy).Contents (Elt Ideal), (TRef.of (sig := sig) (T := ⟨S_, .f32⟩) main_call0_v0).ofBuf (Val := Elt Ideal) v = v := fun _ => rfl
  have t_call0_v1 : ∀ v : (⟨S100000, .f32⟩ : BufTy).Contents (Elt Ideal), (TRef.of (sig := sig) (T := ⟨S100000, .f32⟩) main_call0_v1).toBuf v = v := fun _ => rfl
  have o_call0_v1 : ∀ v : (⟨S100000, .f32⟩ : BufTy).Contents (Elt Ideal), (TRef.of (sig := sig) (T := ⟨S100000, .f32⟩) main_call0_v1).ofBuf (Val := Elt Ideal) v = v := fun _ => rfl
  have t_v16 : ∀ v : (⟨S100000, .f32⟩ : BufTy).Contents (Elt Ideal), (TRef.of (sig := sig) (T := ⟨S100000, .f32⟩) main_v16).toBuf v = v := fun _ => rfl
  have o_v16 : ∀ v : (⟨S100000, .f32⟩ : BufTy).Contents (Elt Ideal), (TRef.of (sig := sig) (T := ⟨S100000, .f32⟩) main_v16).ofBuf (Val := Elt Ideal) v = v := fun _ => rfl
  have t_v17 : ∀ v : (⟨S100000, .f32⟩ : BufTy).Contents (Elt Ideal), (TRef.of (sig := sig) (T := ⟨S100000, .f32⟩) main_v17).toBuf v = v := fun _ => rfl
  have o_v17 : ∀ v : (⟨S100000, .f32⟩ : BufTy).Contents (Elt Ideal), (TRef.of (sig := sig) (T := ⟨S100000, .f32⟩) main_v17).ofBuf (Val := Elt Ideal) v = v := fun _ => rfl
  have t_v13 : ∀ v : (⟨S100000, .i1⟩ : BufTy).Contents (Elt Ideal), (TRef.of (sig := sig) (T := ⟨S100000, .i1⟩) main_v13).toBuf v = v := fun _ => rfl
  have o_v13 : ∀ v : (⟨S100000, .i1⟩ : BufTy).Contents (Elt Ideal), (TRef.of (sig := sig) (T := ⟨S100000, .i1⟩) main_v13).ofBuf (Val := Elt Ideal) v = v := fun _ => rfl
  simp only [t_cst_3, o_cst_3, t_call0_v0, o_call0_v0, t_call0_v1, o_call0_v1, t_v16, o_v16, t_v17, o_v17, t_v13, o_v13]
  rfl

theorem w2_v3 : W2 m ρ c (Proc.devRef .tc main_v3) = Cert.ReferenceIdeal.ReadP.val_main_v3 (F := Ideal) (m ((c : Thread nD τ).loc main_arg1)) :=
  (by untouched_by hostOps0_1 : W2 m ρ c (Proc.devRef .tc main_v3) = W1 m ρ c (Proc.devRef .tc main_v3)).trans (w1_v3 m ρ c)

theorem w2_v6 : W2 m ρ c (Proc.devRef .tc main_v6) = Cert.ReferenceIdeal.ReadP.val_main_v6 (F := Ideal) (m ((c : Thread nD τ).loc main_arg1)) :=
  (by untouched_by hostOps0_1 : W2 m ρ c (Proc.devRef .tc main_v6) = W1 m ρ c (Proc.devRef .tc main_v6)).trans (w1_v6 m ρ c)

theorem w2_v8 : W2 m ρ c (Proc.devRef .tc main_v8) = Cert.ReferenceIdeal.ReadP.val_main_v8 (F := Ideal) (m ((c : Thread nD τ).loc main_arg2)) :=
  (by untouched_by hostOps0_1 : W2 m ρ c (Proc.devRef .tc main_v8) = W1 m ρ c (Proc.devRef .tc main_v8)).trans (w1_v8 m ρ c)

/-! ## Before the first region: the source and target index vectors, the edge normalisation, the first lin weight -/

/-- The source index of every edge, self loops appended. -/
theorem st_v3 : W3 m ρ c (Proc.devRef .tc main_v3) = Cert.ReferenceIdeal.ReadP.val_main_v3 (F := Ideal) (m ((c : Thread nD τ).loc main_arg1)) :=
  (by untouched_by hostOps0_2 : W3 m ρ c (Proc.devRef .tc main_v3) = W2 m ρ c (Proc.devRef .tc main_v3)).trans (w2_v3 m ρ c)

/-- The target index of every edge, self loops appended. -/
theorem st_v6 : W3 m ρ c (Proc.devRef .tc main_v6) = Cert.ReferenceIdeal.ReadP.val_main_v6 (F := Ideal) (m ((c : Thread nD τ).loc main_arg1)) :=
  (by untouched_by hostOps0_2 : W3 m ρ c (Proc.devRef .tc main_v6) = W2 m ρ c (Proc.devRef .tc main_v6)).trans (w2_v6 m ρ c)

/-- The normalised weight of every edge: the weight times the inverse square roots of its two endpoints' degrees. -/
theorem st_v33 : W3 m ρ c (Proc.devRef .tc main_v33) = Cert.ReferenceIdeal.ReadP.val_main_v33 (F := Ideal) (m ((c : Thread nD τ).loc main_arg1)) (m ((c : Thread nD τ).loc main_arg2)) := by
  have e17 := w2_v17 m ρ c
  have e3 := w2_v3 m ρ c
  have e6 := w2_v6 m ρ c
  have e8 := w2_v8 m ρ c
  show StableHlo.after hostOps0_2 (W2 m ρ c) (Proc.devRef .tc main_v33) = _
  generalize W2 m ρ c = X at e17 e3 e6 e8 ⊢
  dsimp only [hostOps0_2]
  after_results_simp
  rw [e17, e3, e6, e8]
  rfl

/-- The first layer's lin weight, cut out of the stacked argument. -/
theorem st_v35 : W3 m ρ c (Proc.devRef .tc main_v35) = Cert.ReferenceIdeal.ReadP.val_main_v35 (F := Ideal) (m ((c : Thread nD τ).loc main_arg4)) := by
  have e4 : W2 m ρ c (Proc.devRef .tc main_arg4) = m ((c : Thread nD τ).loc main_arg4) :=
    (by untouched_by hostOps0_1 : W2 m ρ c (Proc.devRef .tc main_arg4) = W1 m ρ c (Proc.devRef .tc main_arg4)).trans
      ((by untouched_by hostOps0 : W1 m ρ c (Proc.devRef .tc main_arg4) = W0 m ρ c (Proc.devRef .tc main_arg4)).trans rfl)
  show StableHlo.after hostOps0_2 (W2 m ρ c) (Proc.devRef .tc main_v35) = _
  generalize W2 m ρ c = X at e4 ⊢
  dsimp only [hostOps0_2]
  after_results_simp
  rw [e4]
  rfl

/-! ## Between the first lin region and the first node region -/

/-- The first layer's aggregate: if the lin region left the reference's projection, the scatter-add of the scaled
    gathered rows is the reference's. -/
theorem st_v49 (h36 : W4 m ρ c (Proc.devRef .tc main_v36) = Cert.ReferenceIdeal.ReadP.val_main_v37 (F := Ideal) (m ((c : Thread nD τ).loc main_arg0)) (m ((c : Thread nD τ).loc main_arg4))) :
    W5 m ρ c (Proc.devRef .tc main_v49) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg4)) := by
  show StableHlo.after hostOps1 (W4 m ρ c) (Proc.devRef .tc main_v49) = _
  dsimp only [hostOps1]
  after_results_simp
  rw [h36, (W4_v33 m ρ c).trans (st_v33 m ρ c), (W4_v3 m ρ c).trans (st_v3 m ρ c), (W4_v6 m ρ c).trans (st_v6 m ρ c)]
  rfl

theorem st_v51 : W5 m ρ c (Proc.devRef .tc main_v51) = Cert.ReferenceIdeal.ReadP.val_main_v52 (F := Ideal) (m ((c : Thread nD τ).loc main_arg6)) := by
  show StableHlo.after hostOps1 (W4 m ρ c) (Proc.devRef .tc main_v51) = _
  dsimp only [hostOps1]
  after_results
  rw [(W4_arg6 m ρ c).trans (W3_arg6 m ρ c)]
  rfl

theorem st_v60 : W5 m ρ c (Proc.devRef .tc main_v60) = shapeCast S1x16 (Cert.ReferenceIdeal.ReadP.val_main_v56 (F := Ideal) (m ((c : Thread nD τ).loc main_arg7))) shapeCasts_S16_S1x16 := by
  show StableHlo.after hostOps1 (W4 m ρ c) (Proc.devRef .tc main_v60) = _
  dsimp only [hostOps1]
  after_results
  rw [(W4_arg7 m ρ c).trans (W3_arg7 m ρ c)]
  rfl

theorem st_v61 : W5 m ρ c (Proc.devRef .tc main_v61) = shapeCast S1x16 (Cert.ReferenceIdeal.ReadP.val_main_v62 (F := Ideal) (m ((c : Thread nD τ).loc main_arg5))) shapeCasts_S16_S1x16 := by
  show StableHlo.after hostOps1 (W4 m ρ c) (Proc.devRef .tc main_v61) = _
  dsimp only [hostOps1]
  after_results
  rw [(W4_arg5 m ρ c).trans (W3_arg5 m ρ c)]
  rfl

theorem st_v62 : W5 m ρ c (Proc.devRef .tc main_v62) = shapeCast S1x16 (Cert.ReferenceIdeal.ReadP.val_main_v72 (F := Ideal) (m ((c : Thread nD τ).loc main_arg8))) shapeCasts_S16_S1x16 := by
  show StableHlo.after hostOps1 (W4 m ρ c) (Proc.devRef .tc main_v62) = _
  dsimp only [hostOps1]
  after_results
  rw [(W4_arg8 m ρ c).trans (W3_arg8 m ρ c)]
  rfl

theorem st_v63 : W5 m ρ c (Proc.devRef .tc main_v63) = shapeCast S1x16 (Cert.ReferenceIdeal.ReadP.val_main_v74 (F := Ideal) (m ((c : Thread nD τ).loc main_arg9))) shapeCasts_S16_S1x16 := by
  show StableHlo.after hostOps1 (W4 m ρ c) (Proc.devRef .tc main_v63) = _
  dsimp only [hostOps1]
  after_results
  rw [(W4_arg9 m ρ c).trans (W3_arg9 m ρ c)]
  rfl

/-! ## Between the first node region and the second lin region -/

theorem st_v66 : W7 m ρ c (Proc.devRef .tc main_v66) = Cert.ReferenceIdeal.ReadP.val_main_v100 (F := Ideal) (m ((c : Thread nD τ).loc main_arg4)) := by
  show StableHlo.after hostOps2 (W6 m ρ c) (Proc.devRef .tc main_v66) = _
  dsimp only [hostOps2]
  after_results
  rw [W6_arg4 m ρ c]
  rfl

/-! ## Between the second lin region and the second node region -/

theorem st_v80 (h67 : W8 m ρ c (Proc.devRef .tc main_v67) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W9 m ρ c (Proc.devRef .tc main_v80) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W8 m ρ c) (Proc.devRef .tc main_v80) = _
  dsimp only [hostOps3]
  after_results_simp
  rw [h67, (W8_v33 m ρ c).trans (st_v33 m ρ c), (W8_v3 m ρ c).trans (st_v3 m ρ c), (W8_v6 m ρ c).trans (st_v6 m ρ c)]
  rfl

theorem st_v82 : W9 m ρ c (Proc.devRef .tc main_v82) = Cert.ReferenceIdeal.ReadP.val_main_v117 (F := Ideal) (m ((c : Thread nD τ).loc main_arg6)) := by
  show StableHlo.after hostOps3 (W8 m ρ c) (Proc.devRef .tc main_v82) = _
  dsimp only [hostOps3]
  after_results
  rw [(W8_arg6 m ρ c).trans (W3_arg6 m ρ c)]
  rfl

theorem st_v91 : W9 m ρ c (Proc.devRef .tc main_v91) = shapeCast S1x16 (Cert.ReferenceIdeal.ReadP.val_main_v121 (F := Ideal) (m ((c : Thread nD τ).loc main_arg7))) shapeCasts_S16_S1x16 := by
  show StableHlo.after hostOps3 (W8 m ρ c) (Proc.devRef .tc main_v91) = _
  dsimp only [hostOps3]
  after_results
  rw [(W8_arg7 m ρ c).trans (W3_arg7 m ρ c)]
  rfl

theorem st_v92 : W9 m ρ c (Proc.devRef .tc main_v92) = shapeCast S1x16 (Cert.ReferenceIdeal.ReadP.val_main_v127 (F := Ideal) (m ((c : Thread nD τ).loc main_arg5))) shapeCasts_S16_S1x16 := by
  show StableHlo.after hostOps3 (W8 m ρ c) (Proc.devRef .tc main_v92) = _
  dsimp only [hostOps3]
  after_results
  rw [(W8_arg5 m ρ c).trans (W3_arg5 m ρ c)]
  rfl

theorem st_v93 : W9 m ρ c (Proc.devRef .tc main_v93) = shapeCast S1x16 (Cert.ReferenceIdeal.ReadP.val_main_v137 (F := Ideal) (m ((c : Thread nD τ).loc main_arg8))) shapeCasts_S16_S1x16 := by
  show StableHlo.after hostOps3 (W8 m ρ c) (Proc.devRef .tc main_v93) = _
  dsimp only [hostOps3]
  after_results
  rw [(W8_arg8 m ρ c).trans (W3_arg8 m ρ c)]
  rfl

theorem st_v94 : W9 m ρ c (Proc.devRef .tc main_v94) = shapeCast S1x16 (Cert.ReferenceIdeal.ReadP.val_main_v139 (F := Ideal) (m ((c : Thread nD τ).loc main_arg9))) shapeCasts_S16_S1x16 := by
  show StableHlo.after hostOps3 (W8 m ρ c) (Proc.devRef .tc main_v94) = _
  dsimp only [hostOps3]
  after_results
  rw [(W8_arg9 m ρ c).trans (W3_arg9 m ρ c)]
  rfl

/-! ## Before the classifier region: its two bias vectors as one-row arrays -/

theorem st_v96 : W11 m ρ c (Proc.devRef .tc main_v96) = shapeCast S1x64 (m ((c : Thread nD τ).loc main_arg11)) shapeCasts_S64_S1x64 := by
  show StableHlo.after hostOps4 (W10 m ρ c) (Proc.devRef .tc main_v96) = _
  dsimp only [hostOps4]
  after_results
  rw [W10_arg11 m ρ c]
  rfl

theorem st_v97 : W11 m ρ c (Proc.devRef .tc main_v97) = shapeCast S1x10 (m ((c : Thread nD τ).loc main_arg13)) shapeCasts_S10_S1x10 := by
  show StableHlo.after hostOps4 (W10 m ρ c) (Proc.devRef .tc main_v97) = _
  dsimp only [hostOps4]
  after_results
  rw [W10_arg13 m ρ c]
  rfl

end Cert.KGlue

end
-- ==== Proof.KLin.lean ====
/-
  The two projection regions, from blocks to the whole array.

  Each grid point `t` of a projection holds rows `5000·t … 5000·t + 4999` of the node features and the whole
  16 × 16 weight, and stores the product of those rows with the transposed weight into a zero accumulator: entry
  `(p, q)` of the stored block is `∑ₖ x[p, k] · w[q, k]`, row `p` of the block against row `q` of the weight.
  The changes of float format on the way are the identity on the extended reals, and so are the casts of a
  shape to itself. A row of the output needs only its own row of the features, so the block a point writes
  back is a block of one whole-array function, `Spec.lin` of the arrays the region found; the 20 blocks tile
  the 100000 rows, so the output array ends holding that function.
-/
import proofs.«123398_j55817394979003_2_alg».proof.Proof.Gen.KernelIdeal.Frame
import proofs.«123398_j55817394979003_2_alg».proof.Proof.Spec
import Idealize.ShloMosaic.Lib.Pipeline.Value
import Idealize.ShloMosaic.Lib.ValueIdx
import Idealize.ShloMosaic.PureOps.Ideal.Laws

noncomputable section

namespace Cert.KSide.LinCls

open Cert.KernelIdeal Cert.KernelIdeal.Gen Idealize.ShloMosaic Idealize.ShloMosaic.TcCoe Idealize.ShloMosaic.ValueIdx
open Idealize.ShloMosaic.Pipeline (Dat)

/-! ## One stored block, entry by entry -/

/-- The two zero offsets of a whole-block access, as the constant function. -/
theorem zero_offsets : (![0, 0] : Fin 2 → Nat) = fun _ => 0 := funext fun a => by fin_cases a <;> rfl

/-- The dimension numbers of the projection's product: [5000, 16] × [16, 16], contracting the left
    operand's axis 1 with the right operand's axis 0. -/
abbrev D16 := dot_S5000x16_S16x16_S5000x16_1_0_0_1_n_n

/-- The left operand is read at the output's row … -/
theorem lhs16_0 (i : S5000x16.Idx) (q : D16.contr.Idx) : (D16.lhsIdx i q 0).val = (i 0).val := by
  unfold DotDims.lhsIdx
  rw [dif_neg (show ¬(0 : Fin S5000x16.rank) ∈ D16.lhsBatch by decide), dif_pos (show (0 : Fin S5000x16.rank) ∈ D16.lhsNonContracting by decide)]
  rfl
/-- … and the contraction position; -/
theorem lhs16_1 (i : S5000x16.Idx) (q : D16.contr.Idx) : (D16.lhsIdx i q 1).val = (q ⟨0, by decide⟩).val :=
  D16.lhsIdx_val_of_single rfl i q
/-- the right operand at the contraction position … -/
theorem rhs16_0 (i : S5000x16.Idx) (q : D16.contr.Idx) : (D16.rhsIdx i q 0).val = (q ⟨0, by decide⟩).val :=
  D16.rhsIdx_val_of_single rfl i q
/-- … and the output's column. -/
theorem rhs16_1 (i : S5000x16.Idx) (q : D16.contr.Idx) : (D16.rhsIdx i q 1).val = (i 1).val := by
  unfold DotDims.rhsIdx
  rw [dif_neg (show ¬(1 : Fin S16x16.rank) ∈ D16.rhsBatch by decide), dif_pos (show (1 : Fin S16x16.rank) ∈ D16.rhsNonContracting by decide)]
  rfl

/-- The product of a 5000 × 16 block with a 16 × 16 matrix into the zero accumulator, entry by entry:
    the sum over the 16 contraction positions, re-indexed by their one coordinate. -/
theorem matmul16_apply (a : FVec Ideal S5000x16 .bf16) (b : FVec Ideal S16x16 .bf16) (p : Fin 5000) (q : Fin 16) :
    FloatOps.matmul D16 none a b (constant S5000x16 .f32 0x00000000#32) (ix2 p q) = ∑ k : Fin 16, a (ix2 p k) * b (ix2 k q) := by
  rw [Ideal.matmul_constant_zero_apply, ← Equiv.sum_comp (ValueIdx.contrEquiv1 D16 16 rfl rfl).symm]
  refine Finset.sum_congr rfl fun k _ => ?_
  have hk := ValueIdx.contrEquiv1_symm_val D16 16 rfl rfl k
  have el : D16.lhsIdx (ix2 p q) ((ValueIdx.contrEquiv1 D16 16 rfl rfl).symm k) = ix2 p k := funext fun a => Fin.ext (by
    match a with
    | ⟨0, _⟩ => exact lhs16_0 _ _
    | ⟨1, _⟩ => exact (lhs16_1 _ _).trans hk)
  have er : D16.rhsIdx (ix2 p q) ((ValueIdx.contrEquiv1 D16 16 rfl rfl).symm k) = ix2 k q := funext fun a => Fin.ext (by
    match a with
    | ⟨0, _⟩ => exact (rhs16_0 _ _).trans hk
    | ⟨1, _⟩ => exact rhs16_1 _ _)
  rw [el, er]

/-- The transposed 16 × 16 matrix, entry by entry. -/
theorem transpose16_apply (w : FVec Ideal S16x16 .bf16) (k q : Fin 16) :
    transpose S16x16 [1, 0] w transposes_S16x16_p1_0_S16x16 (ix2 k q) = w (ix2 q k) :=
  transpose_apply [1, 0] w transposes_S16x16_p1_0_S16x16 (ix2 k q) (ix2 q k) (fun b => match b with
    | ⟨0, _⟩ => rfl
    | ⟨1, _⟩ => rfl)

/-- Entry `(p, q)` of the block the first projection stores: row `p` of the loaded block against
    row `q` of the weight. -/
theorem k0_pay1_apply (v0 : Vec Ideal S5000x16 .f32) (v2 : Vec Ideal S16x16 .f32) (p : Fin 5000) (q : Fin 16) :
    k0_pay1 (F := Ideal) v0 v2 (ix2 p q) = ∑ k : Fin 16, v0 (ix2 p k) * v2 (ix2 q k) := by
  unfold k0_pay1
  refine (matmul16_apply _ _ p q).trans ?_
  refine Finset.sum_congr rfl fun k _ => ?_
  rw [transpose16_apply, shapeCast_self]
  rfl

/-- The same for the second projection, whose body casts the loaded block to its own shape first. -/
theorem k2_pay1_apply (v0 : Vec Ideal S5000x16 .f32) (v3 : Vec Ideal S16x16 .f32) (p : Fin 5000) (q : Fin 16) :
    k2_pay1 (F := Ideal) v0 v3 (ix2 p q) = ∑ k : Fin 16, v0 (ix2 p k) * v3 (ix2 q k) := by
  unfold k2_pay1
  refine (matmul16_apply _ _ p q).trans ?_
  refine Finset.sum_congr rfl fun k _ => ?_
  rw [transpose16_apply, shapeCast_self, shapeCast_self]
  rfl

/-- When row `p` of the loaded block is row `n` of the features `h` and the loaded weight is `w`, entry
    `(p, q)` of the first projection's stored block is entry `(n, q)` of `lin h w`. -/
theorem k0_block (x0 : Vec Ideal S5000x16 .f32) (x1 : Vec Ideal S16x16 .f32) (h : Spec.NxD.Idx → EReal) (w : Spec.DxD.Idx → EReal)
    (p : Fin 5000) (q : Fin 16) (n : Fin 100000)
    (h0 : ∀ k : Fin 16, x0 (ix2 p k) = h (ix2 n k)) (h1 : ∀ k : Fin 16, x1 (ix2 q k) = w (ix2 q k)) :
    k0_pay1 (F := Ideal) x0 x1 (ix2 p q) = Spec.linAt h w n q := by
  rw [k0_pay1_apply]
  unfold Spec.linAt
  exact Finset.sum_congr rfl fun k _ => by rw [h0 k, h1 k]

/-- The same for the second projection. -/
theorem k2_block (x0 : Vec Ideal S5000x16 .f32) (x1 : Vec Ideal S16x16 .f32) (h : Spec.NxD.Idx → EReal) (w : Spec.DxD.Idx → EReal)
    (p : Fin 5000) (q : Fin 16) (n : Fin 100000)
    (h0 : ∀ k : Fin 16, x0 (ix2 p k) = h (ix2 n k)) (h1 : ∀ k : Fin 16, x1 (ix2 q k) = w (ix2 q k)) :
    k2_pay1 (F := Ideal) x0 x1 (ix2 p q) = Spec.linAt h w n q := by
  rw [k2_pay1_apply]
  unfold Spec.linAt
  exact Finset.sum_congr rfl fun k _ => by rw [h0 k, h1 k]

/-! ## From blocks to the array -/

variable (V : (c : Dev nD) → (b : Ref sig .tc) → Buf (Elt Ideal) ((c : Thread nD τ).loc b))

/-! ### The first projection (region 0) -/

/-- The printed index maps of the three windows, decided over the 20 grid points: the feature window and the
    output window sit at block row `t` (and block column 0); the weight window always at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the projection of the whole feature array: its rows are rows
    `5000·t … 5000·t + 4999` of the array, and every row of the output needs only its own row of the features and the
    whole weight. -/
theorem flushed0_eq (c : Dev nD) (t : Fin cfg0.N) :
    (dat0 (F := Ideal) V c).flushed 2 t
      = ((cfg0.win 2).blk t).view.read (Elt Ideal) (Spec.lin (V c main_arg0) (V c main_v35)) := by
  show (cfg0.win 2).cut (grid0.coords t) ((dat0 (F := Ideal) V c).after 2 t) = _
  rw [after0_2]
  unfold out0_2
  rw [View.canon_unit_zero zero_offsets]
  simp only [View.ld_unit_zero (S := S5000x16) zero_offsets, View.ld_unit_zero (S := S16x16) zero_offsets]
  obtain ⟨e0, e1, e2, e3, e4, e5⟩ := idx_facts0 t
  have ht : t.val < 20 := Nat.lt_of_lt_of_eq t.isLt N_0
  funext j
  obtain ⟨p, q, rfl⟩ : ∃ (p : Fin 5000) (q : Fin 16), j = ix2 p q := ⟨j 0, j 1, eq_ix2 j⟩
  have hp : p.val < 5000 := p.isLt
  have hemb : ((cfg0.win 2).blk t).view.emb (ix2 p q) = (ix2 (⟨t.val * 5000 + p.val, by omega⟩ : Fin 100000) q) := by
    funext a; apply Fin.ext
    match a with
    | ⟨0, _⟩ => show win0_2.index t (0 : Fin 2) * 5000 + 1 * p.val = t.val * 5000 + p.val; omega
    | ⟨1, _⟩ => show win0_2.index t (1 : Fin 2) * 16 + 1 * q.val = q.val; omega
  show k0_pay1 (F := Ideal) (iblk0 V c 0 t) (iblk0 V c 1 t) (ix2 p q)
    = Spec.lin (V c main_arg0) (V c main_v35) (((cfg0.win 2).blk t).view.emb (ix2 p q))
  rw [hemb]
  refine k0_block (iblk0 V c 0 t) (iblk0 V c 1 t) (V c main_arg0) (V c main_v35) p q ⟨t.val * 5000 + p.val, by omega⟩ (fun k => ?_) (fun k => ?_)
  · show V c main_arg0 (((cfg0.win 0).blk t).view.emb (ix2 p k)) = V c main_arg0 (ix2 (⟨t.val * 5000 + p.val, by omega⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 16 + 1 * k.val = k.val; omega
  · show V c main_v35 (((cfg0.win 1).blk t).view.emb (ix2 q k)) = V c main_v35 (ix2 q k)
    refine congrArg (V c main_v35) (funext fun a => Fin.ext ?_)
    match a with
    | ⟨0, _⟩ => show win0_1.index t (0 : Fin 2) * 16 + 1 * q.val = q.val; omega
    | ⟨1, _⟩ => show win0_1.index t (1 : Fin 2) * 16 + 1 * k.val = k.val; omega

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v36).slice (win0_2.rect t)).set ↔ _
  rw [View.set_slice_whole, Rect.mem_set_unit]
  exact Iff.rfl

/-- The 20 blocks of 5000 rows tile the 100000 rows: row `r` is in the block of point `r / 5000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region: the projection of the feature array the region found by the weight it found. -/
theorem final0 (c : Dev nD) :
    (dat0 (F := Ideal) V c).arrAt 2 cfg0.N = Spec.lin (V c main_arg0) (V c main_v35) :=
  (dat0 (F := Ideal) V c).arrAt_eq_of_cover 2 (Spec.lin (V c main_arg0) (V c main_v35)) (fun t _ => flushed0_eq V c t) (cover0)

/-! ### The second projection (region 2) -/

/-- The printed index maps of the three windows, decided over the 20 grid points: the feature window and the
    output window sit at block row `t` (and block column 0); the weight window always at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the projection of the whole feature array: its rows are rows
    `5000·t … 5000·t + 4999` of the array, and every row of the output needs only its own row of the features and the
    whole weight. -/
theorem flushed2_eq (c : Dev nD) (t : Fin cfg2.N) :
    (dat2 (F := Ideal) V c).flushed 2 t
      = ((cfg2.win 2).blk t).view.read (Elt Ideal) (Spec.lin (V c main_v64) (V c main_v66)) := by
  show (cfg2.win 2).cut (grid2.coords t) ((dat2 (F := Ideal) V c).after 2 t) = _
  rw [after2_2]
  unfold out2_2
  rw [View.canon_unit_zero zero_offsets]
  simp only [View.ld_unit_zero (S := S5000x16) zero_offsets, View.ld_unit_zero (S := S16x16) zero_offsets]
  obtain ⟨e0, e1, e2, e3, e4, e5⟩ := idx_facts2 t
  have ht : t.val < 20 := Nat.lt_of_lt_of_eq t.isLt N_2
  funext j
  obtain ⟨p, q, rfl⟩ : ∃ (p : Fin 5000) (q : Fin 16), j = ix2 p q := ⟨j 0, j 1, eq_ix2 j⟩
  have hp : p.val < 5000 := p.isLt
  have hemb : ((cfg2.win 2).blk t).view.emb (ix2 p q) = (ix2 (⟨t.val * 5000 + p.val, by omega⟩ : Fin 100000) q) := by
    funext a; apply Fin.ext
    match a with
    | ⟨0, _⟩ => show win2_2.index t (0 : Fin 2) * 5000 + 1 * p.val = t.val * 5000 + p.val; omega
    | ⟨1, _⟩ => show win2_2.index t (1 : Fin 2) * 16 + 1 * q.val = q.val; omega
  show k2_pay1 (F := Ideal) (iblk2 V c 0 t) (iblk2 V c 1 t) (ix2 p q)
    = Spec.lin (V c main_v64) (V c main_v66) (((cfg2.win 2).blk t).view.emb (ix2 p q))
  rw [hemb]
  refine k2_block (iblk2 V c 0 t) (iblk2 V c 1 t) (V c main_v64) (V c main_v66) p q ⟨t.val * 5000 + p.val, by omega⟩ (fun k => ?_) (fun k => ?_)
  · show V c main_v64 (((cfg2.win 0).blk t).view.emb (ix2 p k)) = V c main_v64 (ix2 (⟨t.val * 5000 + p.val, by omega⟩ : Fin 100000) k)
    refine congrArg (V c main_v64) (funext fun a => Fin.ext ?_)
    match a with
    | ⟨0, _⟩ => show win2_0.index t (0 : Fin 2) * 5000 + 1 * p.val = t.val * 5000 + p.val; omega
    | ⟨1, _⟩ => show win2_0.index t (1 : Fin 2) * 16 + 1 * k.val = k.val; omega
  · show V c main_v66 (((cfg2.win 1).blk t).view.emb (ix2 q k)) = V c main_v66 (ix2 q k)
    refine congrArg (V c main_v66) (funext fun a => Fin.ext ?_)
    match a with
    | ⟨0, _⟩ => show win2_1.index t (0 : Fin 2) * 16 + 1 * q.val = q.val; omega
    | ⟨1, _⟩ => show win2_1.index t (1 : Fin 2) * 16 + 1 * k.val = k.val; omega

/-- An index of the output array is in point `t`'s block iff each coordinate is in the block's range on its axis. -/
theorem mem_blk2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v67).slice (win2_2.rect t)).set ↔ _
  rw [View.set_slice_whole, Rect.mem_set_unit]
  exact Iff.rfl

/-- The 20 blocks of 5000 rows tile the 100000 rows: row `r` is in the block of point `r / 5000`. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The output array after the region: the projection of the feature array the region found by the weight it found. -/
theorem final2 (c : Dev nD) :
    (dat2 (F := Ideal) V c).arrAt 2 cfg2.N = Spec.lin (V c main_v64) (V c main_v66) :=
  (dat2 (F := Ideal) V c).arrAt_eq_of_cover 2 (Spec.lin (V c main_v64) (V c main_v66)) (fun t _ => flushed2_eq V c t) (cover2)

end Cert.KSide.LinCls

end
-- ==== Proof.KCls.lean ====
/-
  The classifier region, from blocks to the whole array.

  Each grid point `t` holds rows `5000·t … 5000·t + 4999` of the node features and the whole of the two weights
  and the two bias rows. It multiplies the rows by the transposed first weight into a zero accumulator, adds
  the first bias row to every row, takes the maximum with zero, multiplies by the transposed second weight
  into a zero accumulator, and adds the second bias row: entry `(p, c)` of the stored block is
  `∑_q max(∑ₖ x[p, k] · w1[q, k] + b1[q], 0) · w2[c, q] + b2[c]`. The changes of float format on the way are the
  identity on the extended reals, and so are the casts of a shape to itself. A row of the output needs only
  its own row of the features, so the block a point writes back is a block of one whole-array function,
  `Spec.cls` of the arrays the region found; the 20 blocks tile the 100000 rows, so the output array ends
  holding that function.
-/
import proofs.«123398_j55817394979003_2_alg».proof.Proof.Gen.KernelIdeal.Frame
import proofs.«123398_j55817394979003_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KSide.LinCls

open Cert.KernelIdeal Cert.KernelIdeal.Gen Idealize.ShloMosaic Idealize.ShloMosaic.TcCoe Idealize.ShloMosaic.ValueIdx
open Idealize.ShloMosaic.Pipeline (Dat)

/-! ## One stored block, entry by entry -/

/-- The two zero offsets of a whole-block access, as the constant function. -/
theorem zero_offsets2 : (![0, 0] : Fin 2 → Nat) = fun _ => 0 := funext fun a => by fin_cases a <;> rfl

/-- The dimension numbers of the first product: [5000, 16] × [16, 64], contracting the left operand's axis 1
    with the right operand's axis 0. -/
abbrev DA := dot_S5000x16_S16x64_S5000x64_1_0_0_1_n_n
/-- The dimension numbers of the second product: [5000, 64] × [64, 10], contracted the same way. -/
abbrev DB := dot_S5000x64_S64x10_S5000x10_1_0_0_1_n_n

/-- The first product's left operand is read at the output's row … -/
theorem lhsA_0 (i : S5000x64.Idx) (q : DA.contr.Idx) : (DA.lhsIdx i q 0).val = (i 0).val := by
  unfold DotDims.lhsIdx
  rw [dif_neg (show ¬(0 : Fin S5000x16.rank) ∈ DA.lhsBatch by decide), dif_pos (show (0 : Fin S5000x16.rank) ∈ DA.lhsNonContracting by decide)]
  rfl
/-- … and the contraction position; -/
theorem lhsA_1 (i : S5000x64.Idx) (q : DA.contr.Idx) : (DA.lhsIdx i q 1).val = (q ⟨0, by decide⟩).val :=
  DA.lhsIdx_val_of_single rfl i q
/-- its right operand at the contraction position … -/
theorem rhsA_0 (i : S5000x64.Idx) (q : DA.contr.Idx) : (DA.rhsIdx i q 0).val = (q ⟨0, by decide⟩).val :=
  DA.rhsIdx_val_of_single rfl i q
/-- … and the output's column. -/
theorem rhsA_1 (i : S5000x64.Idx) (q : DA.contr.Idx) : (DA.rhsIdx i q 1).val = (i 1).val := by
  unfold DotDims.rhsIdx
  rw [dif_neg (show ¬(1 : Fin S16x64.rank) ∈ DA.rhsBatch by decide), dif_pos (show (1 : Fin S16x64.rank) ∈ DA.rhsNonContracting by decide)]
  rfl

/-- The same four facts for the second product. -/
theorem lhsB_0 (i : S5000x10.Idx) (q : DB.contr.Idx) : (DB.lhsIdx i q 0).val = (i 0).val := by
  unfold DotDims.lhsIdx
  rw [dif_neg (show ¬(0 : Fin S5000x64.rank) ∈ DB.lhsBatch by decide), dif_pos (show (0 : Fin S5000x64.rank) ∈ DB.lhsNonContracting by decide)]
  rfl
theorem lhsB_1 (i : S5000x10.Idx) (q : DB.contr.Idx) : (DB.lhsIdx i q 1).val = (q ⟨0, by decide⟩).val :=
  DB.lhsIdx_val_of_single rfl i q
theorem rhsB_0 (i : S5000x10.Idx) (q : DB.contr.Idx) : (DB.rhsIdx i q 0).val = (q ⟨0, by decide⟩).val :=
  DB.rhsIdx_val_of_single rfl i q
theorem rhsB_1 (i : S5000x10.Idx) (q : DB.contr.Idx) : (DB.rhsIdx i q 1).val = (i 1).val := by
  unfold DotDims.rhsIdx
  rw [dif_neg (show ¬(1 : Fin S64x10.rank) ∈ DB.rhsBatch by decide), dif_pos (show (1 : Fin S64x10.rank) ∈ DB.rhsNonContracting by decide)]
  rfl

/-- The first product into the zero accumulator, entry by entry: the sum over the 16 contraction positions,
    re-indexed by their one coordinate. -/
theorem matmulA_apply (a : FVec Ideal S5000x16 .bf16) (b : FVec Ideal S16x64 .bf16) (p : Fin 5000) (q : Fin 64) :
    FloatOps.matmul DA none a b (constant S5000x64 .f32 0x00000000#32) (ix2 p q) = ∑ k : Fin 16, a (ix2 p k) * b (ix2 k q) := by
  rw [Ideal.matmul_constant_zero_apply, ← Equiv.sum_comp (ValueIdx.contrEquiv1 DA 16 rfl rfl).symm]
  refine Finset.sum_congr rfl fun k _ => ?_
  have hk := ValueIdx.contrEquiv1_symm_val DA 16 rfl rfl k
  have el : DA.lhsIdx (ix2 p q) ((ValueIdx.contrEquiv1 DA 16 rfl rfl).symm k) = ix2 p k := funext fun a => Fin.ext (by
    match a with
    | ⟨0, _⟩ => exact lhsA_0 _ _
    | ⟨1, _⟩ => exact (lhsA_1 _ _).trans hk)
  have er : DA.rhsIdx (ix2 p q) ((ValueIdx.contrEquiv1 DA 16 rfl rfl).symm k) = ix2 k q := funext fun a => Fin.ext (by
    match a with
    | ⟨0, _⟩ => exact (rhsA_0 _ _).trans hk
    | ⟨1, _⟩ => exact rhsA_1 _ _)
  rw [el, er]

/-- The second product into the zero accumulator, entry by entry: the sum over the 64 contraction positions. -/
theorem matmulB_apply (a : FVec Ideal S5000x64 .bf16) (b : FVec Ideal S64x10 .bf16) (p : Fin 5000) (c : Fin 10) :
    FloatOps.matmul DB none a b (constant S5000x10 .f32 0x00000000#32) (ix2 p c) = ∑ q : Fin 64, a (ix2 p q) * b (ix2 q c) := by
  rw [Ideal.matmul_constant_zero_apply, ← Equiv.sum_comp (ValueIdx.contrEquiv1 DB 64 rfl rfl).symm]
  refine Finset.sum_congr rfl fun k _ => ?_
  have hk := ValueIdx.contrEquiv1_symm_val DB 64 rfl rfl k
  have el : DB.lhsIdx (ix2 p c) ((ValueIdx.contrEquiv1 DB 64 rfl rfl).symm k) = ix2 p k := funext fun a => Fin.ext (by
    match a with
    | ⟨0, _⟩ => exact lhsB_0 _ _
    | ⟨1, _⟩ => exact (lhsB_1 _ _).trans hk)
  have er : DB.rhsIdx (ix2 p c) ((ValueIdx.contrEquiv1 DB 64 rfl rfl).symm k) = ix2 k c := funext fun a => Fin.ext (by
    match a with
    | ⟨0, _⟩ => exact (rhsB_0 _ _).trans hk
    | ⟨1, _⟩ => exact rhsB_1 _ _)
  rw [el, er]

/-- The hidden block, entry by entry: the maximum of the sum of its two terms with the zero word (the change of
    float format after it is the identity). -/
theorem hidden_entry (a b : FVec Ideal S5000x64 .f32) (h : FTy.bits .bf16 < FTy.bits .f32) (i : S5000x64.Idx) :
    (truncf .bf16 (maximumf (addf a b) (broadcast S5000x64 (Scalar.ofBits (F := Ideal) .f32 0x00000000#32))) h : FVec Ideal S5000x64 .bf16) i
      = max (a i + b i) (Ideal.ofBits .f32 0x00000000#32) := rfl

/-- Entry `(p, c)` of the block the classifier stores. -/
theorem k4_pay1_apply (v0 : Vec Ideal S5000x16 .f32) (v3 : Vec Ideal S64x16 .f32) (v7 : Vec Ideal S1x64 .f32)
    (v13 : Vec Ideal S10x64 .f32) (v18 : Vec Ideal S1x10 .f32) (p : Fin 5000) (c : Fin 10) :
    k4_pay1 (F := Ideal) v0 v3 v7 v13 v18 (ix2 p c)
      = (∑ q : Fin 64, max ((∑ k : Fin 16, v0 (ix2 p k) * v3 (ix2 q k)) + v7 (ix2 (0 : Fin 1) q)) (Ideal.ofBits .f32 0x00000000#32)
            * v13 (ix2 c q))
          + v18 (ix2 (0 : Fin 1) c) := by
  unfold k4_pay1
  refine (addf_apply _ _ _).trans ?_
  refine congrArg₂ (· + ·) ?_ ?_
  · refine (matmulB_apply _ _ p c).trans ?_
    refine Finset.sum_congr rfl fun q _ => ?_
    refine congrArg₂ (· * ·) ?_ ?_
    · refine (hidden_entry _ _ _ _).trans ?_
      refine congrArg (max · (Ideal.ofBits .f32 0x00000000#32)) ?_
      refine congrArg₂ (· + ·) ?_ ?_
      · refine (matmulA_apply _ _ p q).trans ?_
        refine Finset.sum_congr rfl fun k _ => ?_
        rw [transpose_ix2_apply, shapeCast_self]
        rfl
      · rw [shapeCast_self]
        exact broadcastTo_1b_ab_apply v7 _ p q
    · exact transpose_ix2_apply _ _ q c
  · rw [shapeCast_self]
    exact broadcastTo_1b_ab_apply v18 _ p c

/-- When row `p` of the loaded feature block is row `n` of the features `h`, and the loaded weights and bias rows
    are `w1`, `b1`, `w2`, `b2`, entry `(p, c)` of the stored block is entry `(n, c)` of `cls h w1 b1 w2 b2`. -/
theorem k4_block (x0 : Vec Ideal S5000x16 .f32) (x1 : Vec Ideal S64x16 .f32) (x2 : Vec Ideal S1x64 .f32)
    (x3 : Vec Ideal S10x64 .f32) (x4 : Vec Ideal S1x10 .f32)
    (h : Spec.NxD.Idx → EReal) (w1 : Spec.HxD.Idx → EReal) (b1 : Spec.Hv.Idx → EReal) (w2 : Spec.CxH.Idx → EReal) (b2 : Spec.Cv.Idx → EReal)
    (p : Fin 5000) (c : Fin 10) (n : Fin 100000)
    (h0 : ∀ k : Fin 16, x0 (ix2 p k) = h (ix2 n k))
    (h1 : ∀ (q : Fin 64) (k : Fin 16), x1 (ix2 q k) = w1 (ix2 q k))
    (h2 : ∀ q : Fin 64, x2 (ix2 (0 : Fin 1) q) = b1 (ix1 q))
    (h3 : ∀ q : Fin 64, x3 (ix2 c q) = w2 (ix2 c q))
    (h4 : x4 (ix2 (0 : Fin 1) c) = b2 (ix1 c)) :
    k4_pay1 (F := Ideal) x0 x1 x2 x3 x4 (ix2 p c) = Spec.clsAt h w1 b1 w2 b2 n c := by
  rw [k4_pay1_apply]
  unfold Spec.clsAt Spec.hidAt
  rw [h4]
  refine congrArg (· + b2 (ix1 c)) (Finset.sum_congr rfl fun q _ => ?_)
  rw [h2 q, h3 q]
  refine congrArg (fun s => max (s + b1 (ix1 q)) Spec.zeroLit * w2 (ix2 c q)) (Finset.sum_congr rfl fun k _ => ?_)
  rw [h0 k, h1 q k]

/-! ## From blocks to the array -/

variable (V : (c : Dev nD) → (b : Ref sig .tc) → Buf (Elt Ideal) ((c : Thread nD τ).loc b))

/-- The printed index maps of the six windows, decided over the 20 grid points: the feature window and the output
    window sit at block row `t` (and block column 0); the weights and bias rows always at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What grid point `t` writes back is block `t` of the classifier applied to the whole feature array: its rows are
    rows `5000·t … 5000·t + 4999` of the array, and every row of the output needs only its own row of the features and
    the whole weights and bias rows. -/
theorem flushed4_eq (c : Dev nD) (t : Fin cfg4.N) :
    (dat4 (F := Ideal) V c).flushed 5 t
      = ((cfg4.win 5).blk t).view.read (Elt Ideal)
          (Spec.cls (V c main_v95) (V c main_arg10) (Spec.row64 (V c main_v96)) (V c main_arg12) (Spec.row10 (V c main_v97))) := by
  show (cfg4.win 5).cut (grid4.coords t) ((dat4 (F := Ideal) V c).after 5 t) = _
  rw [after4_5]
  unfold out4_5
  rw [View.canon_unit_zero zero_offsets2]
  simp only [View.ld_unit_zero (S := S5000x16) zero_offsets2, View.ld_unit_zero (S := S64x16) zero_offsets2,
    View.ld_unit_zero (S := S1x64) zero_offsets2, View.ld_unit_zero (S := S10x64) zero_offsets2,
    View.ld_unit_zero (S := S1x10) zero_offsets2]
  obtain ⟨e0, e1, e2, e3, e4, e5, e6, e7, e8, e9, e10, e11⟩ := idx_facts4 t
  have ht : t.val < 20 := Nat.lt_of_lt_of_eq t.isLt N_4
  funext j
  obtain ⟨p, q, rfl⟩ : ∃ (p : Fin 5000) (q : Fin 10), j = ix2 p q := ⟨j 0, j 1, eq_ix2 j⟩
  have hp : p.val < 5000 := p.isLt
  have hemb : ((cfg4.win 5).blk t).view.emb (ix2 p q) = (ix2 (⟨t.val * 5000 + p.val, by omega⟩ : Fin 100000) q) := by
    funext a; apply Fin.ext
    match a with
    | ⟨0, _⟩ => show win4_5.index t (0 : Fin 2) * 5000 + 1 * p.val = t.val * 5000 + p.val; omega
    | ⟨1, _⟩ => show win4_5.index t (1 : Fin 2) * 10 + 1 * q.val = q.val; omega
  show k4_pay1 (F := Ideal) (iblk4 V c 0 t) (iblk4 V c 1 t) (iblk4 V c 2 t) (iblk4 V c 3 t) (iblk4 V c 4 t) (ix2 p q)
    = Spec.cls (V c main_v95) (V c main_arg10) (Spec.row64 (V c main_v96)) (V c main_arg12) (Spec.row10 (V c main_v97))
        (((cfg4.win 5).blk t).view.emb (ix2 p q))
  rw [hemb]
  refine k4_block (iblk4 V c 0 t) (iblk4 V c 1 t) (iblk4 V c 2 t) (iblk4 V c 3 t) (iblk4 V c 4 t)
    (V c main_v95) (V c main_arg10) (Spec.row64 (V c main_v96)) (V c main_arg12) (Spec.row10 (V c main_v97))
    p q ⟨t.val * 5000 + p.val, by omega⟩ (fun k => ?_) (fun r k => ?_) (fun r => ?_) (fun r => ?_) ?_
  · show V c main_v95 (((cfg4.win 0).blk t).view.emb (ix2 p k)) = V c main_v95 (ix2 (⟨t.val * 5000 + p.val, by omega⟩ : Fin 100000) k)
    refine congrArg (V c main_v95) (funext fun a => Fin.ext ?_)
    match a with
    | ⟨0, _⟩ => show win4_0.index t (0 : Fin 2) * 5000 + 1 * p.val = t.val * 5000 + p.val; omega
    | ⟨1, _⟩ => show win4_0.index t (1 : Fin 2) * 16 + 1 * k.val = k.val; omega
  · show V c main_arg10 (((cfg4.win 1).blk t).view.emb (ix2 r k)) = V c main_arg10 (ix2 r k)
    refine congrArg (V c main_arg10) (funext fun a => Fin.ext ?_)
    match a with
    | ⟨0, _⟩ => show win4_1.index t (0 : Fin 2) * 64 + 1 * r.val = r.val; omega
    | ⟨1, _⟩ => show win4_1.index t (1 : Fin 2) * 16 + 1 * k.val = k.val; omega
  · show V c main_v96 (((cfg4.win 2).blk t).view.emb (ix2 (0 : Fin 1) r)) = V c main_v96 (ix2 (0 : Fin 1) r)
    refine congrArg (V c main_v96) (funext fun a => Fin.ext ?_)
    match a with
    | ⟨0, _⟩ => show win4_2.index t (0 : Fin 2) * 1 + 1 * 0 = 0; omega
    | ⟨1, _⟩ => show win4_2.index t (1 : Fin 2) * 64 + 1 * r.val = r.val; omega
  · show V c main_arg12 (((cfg4.win 3).blk t).view.emb (ix2 q r)) = V c main_arg12 (ix2 q r)
    refine congrArg (V c main_arg12) (funext fun a => Fin.ext ?_)
    match a with
    | ⟨0, _⟩ => show win4_3.index t (0 : Fin 2) * 10 + 1 * q.val = q.val; omega
    | ⟨1, _⟩ => show win4_3.index t (1 : Fin 2) * 64 + 1 * r.val = r.val; omega
  · show V c main_v97 (((cfg4.win 4).blk t).view.emb (ix2 (0 : Fin 1) q)) = V c main_v97 (ix2 (0 : Fin 1) q)
    refine congrArg (V c main_v97) (funext fun a => Fin.ext ?_)
    match a with
    | ⟨0, _⟩ => show win4_4.index t (0 : Fin 2) * 1 + 1 * 0 = 0; omega
    | ⟨1, _⟩ => show win4_4.index t (1 : Fin 2) * 10 + 1 * q.val = q.val; omega

/-- An index of the output array is in point `t`'s block iff each coordinate is in the block's range on its axis. -/
theorem mem_blk4 (t : Fin cfg4.N) (i : S100000x10.Idx) :
    i ∈ ((cfg4.win 5).blk t).view.set ↔ ∀ a : Fin 2, win4_5.index t a * S5000x10.size a ≤ (i a).val ∧ (i a).val < win4_5.index t a * S5000x10.size a + S5000x10.size a := by
  show i ∈ ((View.whole main_v98).slice (win4_5.rect t)).set ↔ _
  rw [View.set_slice_whole, Rect.mem_set_unit]
  exact Iff.rfl

/-- The 20 blocks of 5000 rows tile the 100000 rows: row `r` is in the block of point `r / 5000`. -/
theorem cover4 (i : S100000x10.Idx) : ∃ t : Fin cfg4.N, (cfg4.win 5).flush t = true ∧ i ∈ ((cfg4.win 5).blk t).view.set := by
  have hi0 : (i 0).val < 100000 := (i 0).isLt
  have hi1 : (i 1).val < 10 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨e0, e1, e2, e3, e4, e5, e6, e7, e8, e9, e10, e11⟩ := idx_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 10 ≤ (i 1).val ∧ (i 1).val < win4_5.index t (1 : Fin 2) * 10 + 10; omega

/-- The output array after the region: the classifier applied to the feature array, weights and bias rows the
    region found. -/
theorem final4 (c : Dev nD) :
    (dat4 (F := Ideal) V c).arrAt 5 cfg4.N
      = Spec.cls (V c main_v95) (V c main_arg10) (Spec.row64 (V c main_v96)) (V c main_arg12) (Spec.row10 (V c main_v97)) :=
  (dat4 (F := Ideal) V c).arrAt_eq_of_cover 5
    (Spec.cls (V c main_v95) (V c main_arg10) (Spec.row64 (V c main_v96)) (V c main_arg12) (Spec.row10 (V c main_v97)))
    (fun t _ => flushed4_eq V c t) (cover4)

end Cert.KSide.LinCls

end
-- ==== Proof.KNodePay.lean ====
/-
  The node update's arithmetic, one entry at a time.

  A block of 5000 rows of the aggregated features goes through: a product with the transposed 16×16 weight
  (entry (r, j) is the sum over k of block[r, k] · w[j, k]), a row vector added to every row, tanh, a second
  row vector, the leaky rectifier, then each row's mean and variance (sums over its 16 entries divided by 16),
  and the centred entry times the inverse square root of the variance plus a small constant, times a gain
  and plus an offset that depend only on the column.  Entry (r, j) of the result therefore depends on row r of
  the block only.  This module reads the operations that are not entrywise — the product, the broadcasts of a
  row and of a column, the row sums — at an index given by its two coordinates.
-/
import proofs.«123398_j55817394979003_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KSide.Node

open Idealize.ShloMosaic Idealize.ShloMosaic.ValueIdx
open Cert.KernelIdeal Cert.KernelIdeal.Gen

/-- A 1 × 16 row broadcast over 5000 rows reads, at (r, j), the row's entry j. -/
theorem bcRow_at (v : FVec Ideal S1x16 .f32) (h : S1x16.Broadcasts S5000x16) (r : Fin 5000) (j : Fin 16) :
    broadcastTo S5000x16 v h (ix2 r j) = v (ix2 (0 : Fin 1) j) := by
  refine broadcastTo_apply v h (ix2 r j) (ix2 (0 : Fin 1) j) fun a => ?_
  match a with
  | ⟨0, _⟩ => rfl
  | ⟨1, _⟩ => rfl

/-- A 5000 × 1 column broadcast over 16 columns reads, at (r, j), the column's entry r. -/
theorem bcCol_at (u : FVec Ideal S5000x1 .f32) (h : S5000x1.Broadcasts S5000x16) (r : Fin 5000) (j : Fin 16) :
    broadcastTo S5000x16 u h (ix2 r j) = u (ix2 r (0 : Fin 1)) := by
  refine broadcastTo_apply u h (ix2 r j) (ix2 r (0 : Fin 1)) fun a => ?_
  match a with
  | ⟨0, _⟩ => rfl
  | ⟨1, _⟩ => rfl

/-- The sums of the rows, laid out as a column: entry (r, 0) is the sum of row r. -/
theorem rowSum_at (v : FVec Ideal S5000x16 .f32) (r : Fin 5000) :
    shapeCast S5000x1 (multiReduction .add [1] S5000 v 0x00000000#32 reduces_S5000x16_S5000 (.inl rfl) rfl)
        shapeCasts_S5000_S5000x1 (ix2 r (0 : Fin 1))
      = ∑ k : Fin 16, v (ix2 r k) := by
  refine (shapeCast_apply _ shapeCasts_S5000_S5000x1 (ix2 r (0 : Fin 1)) (ix1 r) ?_).trans ?_
  · rw [Shape.rowMajor_val_one, Shape.rowMajor_val_two]
    show r.val = r.val * 1 + 0
    omega
  · refine (Ideal.multiReduction_add_single v 0x00000000#32 reduces_S5000x16_S5000 (.inl rfl) rfl (ix1 r)).trans ?_
    refine Finset.sum_congr rfl fun k _ => congrArg v ?_
    funext a
    apply Fin.ext
    match a with
    | ⟨0, _⟩ => rfl
    | ⟨1, _⟩ => rfl

/-- The left operand's index of the product at output (·, ·) and contraction k: its row is the output's row … -/
theorem lhs_row (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide),
    dif_pos (show (0 : Fin S5000x16.rank) ∈ dot_S5000x16_S16x16_S5000x16_1_0_0_1_n_n.lhsNonContracting by decide)]
  rfl
/-- … and its column the contraction index. -/
theorem lhs_col (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
/-- The right operand's index: its row is the contraction index … -/
theorem rhs_row (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
/-- … and its column the output's column. -/
theorem rhs_col (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide),
    dif_pos (show (1 : Fin S16x16.rank) ∈ dot_S5000x16_S16x16_S5000x16_1_0_0_1_n_n.rhsNonContracting by decide)]
  rfl

/-- The product with the transposed weight: entry (r, j) is the sum over k of a[r, k] · w[j, k]. -/
theorem mm_at (a : FVec Ideal S5000x16 .bf16) (w : FVec Ideal S16x16 .bf16) (r : Fin 5000) (j : Fin 16) :
    matmul dot_S5000x16_S16x16_S5000x16_1_0_0_1_n_n none a
        (transpose S16x16 [1, 0] w transposes_S16x16_p1_0_S16x16) (constant S5000x16 .f32 0x00000000#32) (ix2 r j)
      = ∑ k : Fin 16, a (ix2 r k) * w (ix2 j k) := by
  refine (Ideal.matmul_constant_zero_apply dot_S5000x16_S16x16_S5000x16_1_0_0_1_n_n none a _ (ix2 r j)).trans ?_
  rw [← Equiv.sum_comp (contrEquiv1 dot_S5000x16_S16x16_S5000x16_1_0_0_1_n_n 16 rfl rfl).symm]
  refine Finset.sum_congr rfl fun k _ => ?_
  have hk := contrEquiv1_symm_val dot_S5000x16_S16x16_S5000x16_1_0_0_1_n_n 16 rfl rfl k
  have el : dot_S5000x16_S16x16_S5000x16_1_0_0_1_n_n.lhsIdx (ix2 r j)
      ((contrEquiv1 dot_S5000x16_S16x16_S5000x16_1_0_0_1_n_n 16 rfl rfl).symm k) = ix2 r k := funext fun b => Fin.ext (by
    match b with
    | ⟨0, _⟩ => exact lhs_row _ _
    | ⟨1, _⟩ => exact (lhs_col _ _).trans hk)
  have er : transpose S16x16 [1, 0] w transposes_S16x16_p1_0_S16x16
      (dot_S5000x16_S16x16_S5000x16_1_0_0_1_n_n.rhsIdx (ix2 r j)
        ((contrEquiv1 dot_S5000x16_S16x16_S5000x16_1_0_0_1_n_n 16 rfl rfl).symm k)) = w (ix2 j k) := by
    refine transpose_apply [1, 0] w transposes_S16x16_p1_0_S16x16 _ (ix2 j k) fun b => ?_
    match b with
    | ⟨0, _⟩ => exact ((rhs_row _ _).trans hk).symm
    | ⟨1, _⟩ => exact (rhs_col (ix2 r j) _).symm
  rw [el, er]

end Cert.KSide.Node

end
-- ==== Proof.KNodeBlock.lean ====
/-
  What the node update's body computes, entry by entry.

  The body's arithmetic is written here in stages — the affine map with tanh and a bias, the leaky rectifier,
  each row's mean, the centred entries, the normalisation by the row's variance, the gain and offset — and each
  stage is read at entry (r, j).  Only the product and the two row statistics look beyond the entry, and they look
  along row r only; so entry (r, j) of the result is a function of row r of the feature block, of the weight and
  of the four row vectors: the specification's node update of whichever node that row belongs to.
-/
import proofs.«123398_j55817394979003_2_alg».proof.Proof.KNodePay
import proofs.«123398_j55817394979003_2_alg».proof.Proof.Spec

noncomputable section

namespace Cert.KSide.Node

open Idealize.ShloMosaic Idealize.ShloMosaic.ValueIdx
open Cert.KernelIdeal Cert.KernelIdeal.Gen

/-! ## The body's arithmetic in stages -/

/-- The product with the transposed weight, the first row vector added to every row, tanh, the second row vector. -/
def preAct (x0 : Vec Ideal S5000x16 .f32) (x1 : Vec Ideal S16x16 .f32) (x2 x3 : Vec Ideal S1x16 .f32) :
    FVec Ideal S5000x16 .f32 :=
  addf (tanh (addf
      (matmul dot_S5000x16_S16x16_S5000x16_1_0_0_1_n_n none
        (truncf .bf16 (shapeCast S5000x16 x0 shapeCasts_S5000x16_S5000x16 : FVec Ideal S5000x16 .f32) bitsLt_bf16_f32)
        (transpose S16x16 [1, 0]
          (truncf .bf16 (shapeCast S16x16 x1 shapeCasts_S16x16_S16x16 : FVec Ideal S16x16 .f32) bitsLt_bf16_f32 : FVec Ideal S16x16 .bf16)
          transposes_S16x16_p1_0_S16x16)
        (constant S5000x16 .f32 0x00000000#32))
      (broadcastTo S5000x16 (shapeCast S1x16 x2 shapeCasts_S1x16_S1x16 : FVec Ideal S1x16 .f32) broadcasts_S1x16_S5000x16)))
    (broadcastTo S5000x16 (shapeCast S1x16 x3 shapeCasts_S1x16_S1x16 : FVec Ideal S1x16 .f32) broadcasts_S1x16_S5000x16)

/-- The leaky rectifier: an entry above zero is kept, any other is scaled by the slope. -/
def leaky (u : FVec Ideal S5000x16 .f32) : FVec Ideal S5000x16 .f32 :=
  select (cmpf .ogt u (broadcast S5000x16 (Scalar.ofBits (F := Ideal) .f32 0x00000000#32))) u
    (mulf (broadcast S5000x16 (Scalar.ofBits (F := Ideal) .f32 0x3E4CCCCD#32)) u)

/-- The mean of each row (its sum divided by 16), as a column. -/
def rowMean (a : FVec Ideal S5000x16 .f32) : FVec Ideal S5000x1 .f32 :=
  divf (shapeCast S5000x1 (multiReduction .add [1] S5000 a 0x00000000#32 reduces_S5000x16_S5000 (.inl rfl) rfl)
      shapeCasts_S5000_S5000x1)
    (broadcast S5000x1 (Scalar.ofBits (F := Ideal) .f32 0x41800000#32))

/-- Each entry less its row's mean. -/
def centred (a : FVec Ideal S5000x16 .f32) : FVec Ideal S5000x16 .f32 :=
  subf a (broadcastTo S5000x16 (rowMean a) broadcasts_S5000x1_S5000x16)

/-- The centred entry times the inverse square root of its row's variance plus the small constant. -/
def normalised (a : FVec Ideal S5000x16 .f32) : FVec Ideal S5000x16 .f32 :=
  mulf (centred a) (broadcastTo S5000x16
    (rsqrt (addf (rowMean (mulf (centred a) (centred a)))
      (broadcast S5000x1 (Scalar.ofBits (F := Ideal) .f32 0x3727C5AC#32))))
    broadcasts_S5000x1_S5000x16)

/-- The gain and the offset, each a row vector applied to every row. -/
def affine (v : FVec Ideal S5000x16 .f32) (x4 x5 : Vec Ideal S1x16 .f32) : FVec Ideal S5000x16 .f32 :=
  addf (mulf v (broadcastTo S5000x16 (shapeCast S1x16 x4 shapeCasts_S1x16_S1x16 : FVec Ideal S1x16 .f32) broadcasts_S1x16_S5000x16))
    (broadcastTo S5000x16 (shapeCast S1x16 x5 shapeCasts_S1x16_S1x16 : FVec Ideal S1x16 .f32) broadcasts_S1x16_S5000x16)

/-- The body's two payloads are these stages composed. -/
theorem pay_eq (x0 : Vec Ideal S5000x16 .f32) (x1 : Vec Ideal S16x16 .f32) (x2 x3 x4 x5 : Vec Ideal S1x16 .f32) :
    k1_pay1 (k1_pay2 x0 x1 x2 x3) x4 x5 = affine (normalised (leaky (preAct x0 x1 x2 x3))) x4 x5 := rfl

/-! ## Each stage at an entry -/

/-- tanh of a block, entry by entry. -/
theorem tanh_at (v : FVec Ideal S5000x16 .f32) (i : S5000x16.Idx) : tanh v i = Ideal.tanh (v i) := rfl
/-- The inverse square root of a column, entry by entry. -/
theorem rsqrt_at (v : FVec Ideal S5000x1 .f32) (i : S5000x1.Idx) : rsqrt v i = Ideal.rsqrt (v i) := rfl

theorem preAct_at (x0 : Vec Ideal S5000x16 .f32) (x1 : Vec Ideal S16x16 .f32) (x2 x3 : Vec Ideal S1x16 .f32)
    (r : Fin 5000) (j : Fin 16) :
    preAct x0 x1 x2 x3 (ix2 r j)
      = Ideal.tanh ((∑ k : Fin 16, x0 (ix2 r k) * x1 (ix2 j k)) + x2 (ix2 (0 : Fin 1) j)) + x3 (ix2 (0 : Fin 1) j) := by
  unfold preAct
  rw [addf_apply, tanh_at, addf_apply, mm_at, bcRow_at, bcRow_at]
  simp only [truncf_apply, shapeCast_self]

theorem leaky_at (u : FVec Ideal S5000x16 .f32) (i : S5000x16.Idx) :
    leaky u i = Scalar.select (Ideal.cmp .ogt (u i) Spec.zeroLit) (u i) (Spec.slope * u i) := rfl

theorem rowMean_at (a : FVec Ideal S5000x16 .f32) (r : Fin 5000) :
    rowMean a (ix2 r (0 : Fin 1)) = Ideal.div (∑ k : Fin 16, a (ix2 r k)) Spec.width := by
  unfold rowMean
  rw [divf_apply, rowSum_at]
  rfl

theorem centred_at (a : FVec Ideal S5000x16 .f32) (r : Fin 5000) (j : Fin 16) :
    centred a (ix2 r j) = a (ix2 r j) - rowMean a (ix2 r (0 : Fin 1)) := by
  unfold centred
  rw [subf_apply, bcCol_at]

theorem normalised_at' (a : FVec Ideal S5000x16 .f32) (r : Fin 5000) (j : Fin 16) :
    normalised a (ix2 r j)
      = centred a (ix2 r j) * Ideal.rsqrt (rowMean (mulf (centred a) (centred a)) (ix2 r (0 : Fin 1)) + Spec.eps) := by
  unfold normalised
  rw [mulf_apply, bcCol_at, rsqrt_at, addf_apply]
  rfl

/-- The normalised entry (r, j) from row r alone: with `f` the row, `μ` its mean and `σ²` its variance,
    `(f j − μ) · (σ² + eps)^(−1/2)`. -/
theorem normalised_at (a : FVec Ideal S5000x16 .f32) (r : Fin 5000) (j : Fin 16) (f : Fin 16 → EReal)
    (hf : ∀ k, a (ix2 r k) = f k) :
    normalised a (ix2 r j)
      = (f j - Ideal.div (∑ k : Fin 16, f k) Spec.width)
        * Ideal.rsqrt (Ideal.div (∑ k : Fin 16, (f k - Ideal.div (∑ k : Fin 16, f k) Spec.width)
            * (f k - Ideal.div (∑ k : Fin 16, f k) Spec.width)) Spec.width + Spec.eps) := by
  have hmean : rowMean a (ix2 r (0 : Fin 1)) = Ideal.div (∑ k : Fin 16, f k) Spec.width :=
    (rowMean_at a r).trans (congrArg (fun s => Ideal.div s Spec.width) (Finset.sum_congr rfl fun k _ => hf k))
  have hc : ∀ k : Fin 16, centred a (ix2 r k) = f k - Ideal.div (∑ k : Fin 16, f k) Spec.width := fun k => by
    rw [centred_at, hf k, hmean]
  have hvar : rowMean (mulf (centred a) (centred a)) (ix2 r (0 : Fin 1))
      = Ideal.div (∑ k : Fin 16, (f k - Ideal.div (∑ k : Fin 16, f k) Spec.width)
          * (f k - Ideal.div (∑ k : Fin 16, f k) Spec.width)) Spec.width :=
    (rowMean_at _ r).trans (congrArg (fun s => Ideal.div s Spec.width)
      (Finset.sum_congr rfl fun k _ => by rw [mulf_apply, hc k]))
  rw [normalised_at', hc j, hvar]

theorem affine_at (v : FVec Ideal S5000x16 .f32) (x4 x5 : Vec Ideal S1x16 .f32) (r : Fin 5000) (j : Fin 16) :
    affine v x4 x5 (ix2 r j) = v (ix2 r j) * x4 (ix2 (0 : Fin 1) j) + x5 (ix2 (0 : Fin 1) j) := by
  unfold affine
  rw [addf_apply, mulf_apply, bcRow_at, bcRow_at]
  simp only [shapeCast_self]

/-! ## The body's result at an entry is the specification's node update of the row it came from -/

/-- Entry (r, j) of what the body stores, when row r of the first block is row n of the feature array `A`, the second
    block is the weight `W` and the four row blocks are the vectors `nb`, `cb`, `g`, `b`: the node update of node n at column j. -/
theorem pay_at (A : Spec.NxD.Idx → EReal) (W : Spec.DxD.Idx → EReal) (nb cb g b : Spec.Dv.Idx → EReal)
    (x0 : Vec Ideal S5000x16 .f32) (x1 : Vec Ideal S16x16 .f32) (x2 x3 x4 x5 : Vec Ideal S1x16 .f32)
    (n : Fin 100000) (r : Fin 5000) (j : Fin 16)
    (h0 : ∀ k : Fin 16, x0 (ix2 r k) = A (ix2 n k))
    (h1 : ∀ p q : Fin 16, x1 (ix2 p q) = W (ix2 p q))
    (h2 : ∀ q : Fin 16, x2 (ix2 (0 : Fin 1) q) = nb (ix1 q))
    (h3 : ∀ q : Fin 16, x3 (ix2 (0 : Fin 1) q) = cb (ix1 q))
    (h4 : ∀ q : Fin 16, x4 (ix2 (0 : Fin 1) q) = g (ix1 q))
    (h5 : ∀ q : Fin 16, x5 (ix2 (0 : Fin 1) q) = b (ix1 q)) :
    k1_pay1 (k1_pay2 x0 x1 x2 x3) x4 x5 (ix2 r j) = Spec.nodeAt A W nb cb g b n j := by
  have hpre : ∀ k : Fin 16, preAct x0 x1 x2 x3 (ix2 r k)
      = Ideal.tanh (Spec.linAt A W n k + nb (ix1 k)) + cb (ix1 k) := fun k => by
    have hs : (∑ q : Fin 16, x0 (ix2 r q) * x1 (ix2 k q)) = Spec.linAt A W n k :=
      Finset.sum_congr rfl fun q _ => by rw [h0 q, h1 k q]
    rw [preAct_at, hs, h2, h3]
  have hact : ∀ k : Fin 16, leaky (preAct x0 x1 x2 x3) (ix2 r k) = Spec.actAt A W nb cb n k := fun k => by
    rw [leaky_at, hpre k]
    rfl
  rw [pay_eq, affine_at, normalised_at _ r j (fun k => Spec.actAt A W nb cb n k) hact, h4, h5]
  rfl

end Cert.KSide.Node

end
-- ==== Proof.KNodeFinal1.lean ====
/-
  Region 1 of the program (the first layer's node update), from its blocks to its output array.

  The region visits 20 points; at point `t` it stages rows `5000 t … 5000 t + 4999` of the aggregated features, the
  whole 16 × 16 weight and the four 1 × 16 row vectors, and writes back rows `5000 t … 5000 t + 4999` of the output.
  Entry (r, j) of what it writes back is the specification's node update of node `5000 t + r` at column j, because the
  body's arithmetic at (r, j) reads row r of the feature block only; so each write-back is a block of ONE whole-array
  function, the node update of the arrays the region finds, and since every row lies in the block of the point
  `row / 5000`, the output array ends holding that function.
-/
import proofs.«123398_j55817394979003_2_alg».proof.Proof.KNodeBlock
import proofs.«123398_j55817394979003_2_alg».proof.Proof.Gen.KernelIdeal.Frame
import Idealize.ShloMosaic.Lib.Pipeline.Value

noncomputable section

namespace Cert.KSide.Node

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-! ## Region 1 -/

/-- The printed index maps of region 1, decided over its 20 points: the feature window and the output window sit at
    block row `t`, every other window at its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of the feature window's block at point `t` is row `5000 t + r` of the array. -/
theorem iblk1_0_at (c : Dev nD) (t : Fin cfg1.N) (r : Fin 5000) (k : Fin 16) (n : Fin 100000)
    (hn : n.val = t.val * 5000 + r.val) :
    (iblk1 V c 0 t : Vec Ideal S5000x16 .f32) (ix2 r k) = (V c main_v49 : S100000x16.Idx → EReal) (ix2 n k) := by
  obtain ⟨e0, e1, -⟩ := idx_facts1 t
  show V c main_v49 (((cfg1.win 0).blk t).view.emb (ix2 r k)) = V c main_v49 (ix2 n k)
  congr 1
  funext a
  apply Fin.ext
  match a with
  | ⟨0, _⟩ => show win1_0.index t (0 : Fin 2) * 5000 + 1 * r.val = n.val; rw [e0, hn]; omega
  | ⟨1, _⟩ => show win1_0.index t (1 : Fin 2) * 16 + 1 * k.val = k.val; rw [e1]; omega

/-- The weight window's one block is the weight. -/
theorem iblk1_1_at (c : Dev nD) (t : Fin cfg1.N) (p q : Fin 16) :
    (iblk1 V c 1 t : Vec Ideal S16x16 .f32) (ix2 p q) = (V c main_v51 : S16x16.Idx → EReal) (ix2 p q) := by
  obtain ⟨-, -, e0, e1, -⟩ := idx_facts1 t
  show V c main_v51 (((cfg1.win 1).blk t).view.emb (ix2 p q)) = V c main_v51 (ix2 p q)
  congr 1
  funext a
  apply Fin.ext
  match a with
  | ⟨0, _⟩ => show win1_1.index t (0 : Fin 2) * 16 + 1 * p.val = p.val; rw [e0]; omega
  | ⟨1, _⟩ => show win1_1.index t (1 : Fin 2) * 16 + 1 * q.val = q.val; rw [e1]; omega

/-- Each row-vector window's one block is its 1 × 16 array. -/
theorem iblk1_2_at (c : Dev nD) (t : Fin cfg1.N) (q : Fin 16) :
    (iblk1 V c 2 t : Vec Ideal S1x16 .f32) (ix2 (0 : Fin 1) q) = Spec.row16 (V c main_v60) (ix1 q) := by
  obtain ⟨-, -, -, -, e0, e1, -⟩ := idx_facts1 t
  show V c main_v60 (((cfg1.win 2).blk t).view.emb (ix2 (0 : Fin 1) q)) = V c main_v60 (ix2 (0 : Fin 1) q)
  congr 1
  funext a
  apply Fin.ext
  match a with
  | ⟨0, _⟩ => show win1_2.index t (0 : Fin 2) * 1 + 1 * 0 = 0; rw [e0]
  | ⟨1, _⟩ => show win1_2.index t (1 : Fin 2) * 16 + 1 * q.val = q.val; rw [e1]; omega
theorem iblk1_3_at (c : Dev nD) (t : Fin cfg1.N) (q : Fin 16) :
    (iblk1 V c 3 t : Vec Ideal S1x16 .f32) (ix2 (0 : Fin 1) q) = Spec.row16 (V c main_v61) (ix1 q) := by
  obtain ⟨-, -, -, -, -, -, e0, e1, -⟩ := idx_facts1 t
  show V c main_v61 (((cfg1.win 3).blk t).view.emb (ix2 (0 : Fin 1) q)) = V c main_v61 (ix2 (0 : Fin 1) q)
  congr 1
  funext a
  apply Fin.ext
  match a with
  | ⟨0, _⟩ => show win1_3.index t (0 : Fin 2) * 1 + 1 * 0 = 0; rw [e0]
  | ⟨1, _⟩ => show win1_3.index t (1 : Fin 2) * 16 + 1 * q.val = q.val; rw [e1]; omega
theorem iblk1_4_at (c : Dev nD) (t : Fin cfg1.N) (q : Fin 16) :
    (iblk1 V c 4 t : Vec Ideal S1x16 .f32) (ix2 (0 : Fin 1) q) = Spec.row16 (V c main_v62) (ix1 q) := by
  obtain ⟨-, -, -, -, -, -, -, -, e0, e1, -⟩ := idx_facts1 t
  show V c main_v62 (((cfg1.win 4).blk t).view.emb (ix2 (0 : Fin 1) q)) = V c main_v62 (ix2 (0 : Fin 1) q)
  congr 1
  funext a
  apply Fin.ext
  match a with
  | ⟨0, _⟩ => show win1_4.index t (0 : Fin 2) * 1 + 1 * 0 = 0; rw [e0]
  | ⟨1, _⟩ => show win1_4.index t (1 : Fin 2) * 16 + 1 * q.val = q.val; rw [e1]; omega
theorem iblk1_5_at (c : Dev nD) (t : Fin cfg1.N) (q : Fin 16) :
    (iblk1 V c 5 t : Vec Ideal S1x16 .f32) (ix2 (0 : Fin 1) q) = Spec.row16 (V c main_v63) (ix1 q) := by
  obtain ⟨-, -, -, -, -, -, -, -, -, -, e0, e1, -⟩ := idx_facts1 t
  show V c main_v63 (((cfg1.win 5).blk t).view.emb (ix2 (0 : Fin 1) q)) = V c main_v63 (ix2 (0 : Fin 1) q)
  congr 1
  funext a
  apply Fin.ext
  match a with
  | ⟨0, _⟩ => show win1_5.index t (0 : Fin 2) * 1 + 1 * 0 = 0; rw [e0]
  | ⟨1, _⟩ => show win1_5.index t (1 : Fin 2) * 16 + 1 * q.val = q.val; rw [e1]; omega

/-- The node update of the arrays region 1 finds: what its output array must end holding. -/
abbrev G1 (c : Dev nD) : Spec.NxD.Idx → EReal :=
  Spec.node (V c main_v49) (V c main_v51) (Spec.row16 (V c main_v60)) (Spec.row16 (V c main_v61))
    (Spec.row16 (V c main_v62)) (Spec.row16 (V c main_v63))

/-- What point `t` writes back is block `t` of the node update of the arrays as the region finds them. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S5000x16) hz, View.ld_unit_zero (S := S16x16) hz, View.ld_unit_zero (S := S1x16) hz]
  refine funext fun (y : S5000x16.Idx) => ?_
  obtain ⟨r, j, rfl⟩ : ∃ (r : Fin 5000) (j : Fin 16), y = ix2 r j := ⟨y 0, y 1, eq_ix2 y⟩
  have ht : t.val < 20 := lt_of_lt_of_eq t.isLt N_1
  obtain ⟨n, hn⟩ : ∃ n : Fin 100000, n.val = t.val * 5000 + r.val := ⟨⟨t.val * 5000 + r.val, by omega⟩, rfl⟩
  show k1_pay1 (k1_pay2 (iblk1 V c 0 t) (iblk1 V c 1 t) (iblk1 V c 2 t) (iblk1 V c 3 t)) (iblk1 V c 4 t) (iblk1 V c 5 t) (ix2 r j)
    = G1 V c (((cfg1.win 6).blk t).view.emb (ix2 r j))
  refine (pay_at (V c main_v49) (V c main_v51) (Spec.row16 (V c main_v60)) (Spec.row16 (V c main_v61))
    (Spec.row16 (V c main_v62)) (Spec.row16 (V c main_v63))
    (iblk1 V c 0 t) (iblk1 V c 1 t) (iblk1 V c 2 t) (iblk1 V c 3 t) (iblk1 V c 4 t) (iblk1 V c 5 t) n r j
    (fun k => iblk1_0_at V c t r k n hn) (fun p q => iblk1_1_at V c t p q) (fun q => iblk1_2_at V c t q)
    (fun q => iblk1_3_at V c t q) (fun q => iblk1_4_at V c t q) (fun q => iblk1_5_at V c t q)).trans ?_
  obtain ⟨-, -, -, -, -, -, -, -, -, -, -, -, e0, e1⟩ := idx_facts1 t
  show Spec.nodeAt _ _ _ _ _ _ n j = Spec.nodeAt _ _ _ _ _ _ ((((cfg1.win 6).blk t).view.emb (ix2 r j)) 0) ((((cfg1.win 6).blk t).view.emb (ix2 r j)) 1)
  congr 1
  · apply Fin.ext
    show n.val = win1_6.index t (0 : Fin 2) * 5000 + 1 * r.val
    rw [e0, hn]; omega
  · apply Fin.ext
    show j.val = win1_6.index t (1 : Fin 2) * 16 + 1 * j.val
    rw [e1]; omega

/-- An index of the output array is in point `t`'s block iff each coordinate is in the block's range on its axis. -/
theorem mem_blk1 (t : Fin cfg1.N) (i : S100000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v64).slice (win1_6.rect t)).set ↔ _
  rw [View.set_slice_whole, Rect.mem_set_unit]
  exact Iff.rfl

/-- Every row of the output array is in the block of the point its number divided by 5000 names. -/
theorem cover1 (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 16 ≤ (i 1).val ∧ (i 1).val < win1_6.index t (1 : Fin 2) * 16 + 16
    rw [e1]; omega

/-- THE OUTPUT ARRAY OF REGION 1 after its run is the node update of the arrays the region finds. -/
theorem final1 (c : Dev nD) :
    (dat1 V c).arrAt 6 cfg1.N = Spec.node (V c main_v49) (V c main_v51) (Spec.row16 (V c main_v60))
      (Spec.row16 (V c main_v61)) (Spec.row16 (V c main_v62)) (Spec.row16 (V c main_v63)) :=
  (dat1 V c).arrAt_eq_of_cover 6 (G1 V c) (fun t _ => flushed1_eq V c t) cover1

end Cert.KSide.Node

end
-- ==== Proof.KNodeFinal3.lean ====
/-
  Region 3 of the program (the second layer's node update), from its blocks to its output array.

  The region visits 20 points; at point `t` it stages rows `5000 t … 5000 t + 4999` of the aggregated features, the
  whole 16 × 16 weight and the four 1 × 16 row vectors, and writes back rows `5000 t … 5000 t + 4999` of the output.
  Entry (r, j) of what it writes back is the specification's node update of node `5000 t + r` at column j, because the
  body's arithmetic at (r, j) reads row r of the feature block only; so each write-back is a block of ONE whole-array
  function, the node update of the arrays the region finds, and since every row lies in the block of the point
  `row / 5000`, the output array ends holding that function.
-/
import proofs.«123398_j55817394979003_2_alg».proof.Proof.KNodeBlock
import proofs.«123398_j55817394979003_2_alg».proof.Proof.Gen.KernelIdeal.Frame
import Idealize.ShloMosaic.Lib.Pipeline.Value

noncomputable section

namespace Cert.KSide.Node

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets, however spelt. -/
theorem hz3 : (![0, 0] : Fin 2 → Nat) = fun _ => 0 := funext fun a => by fin_cases a <;> rfl

/-! ## Region 3 -/

/-- The printed index maps of region 3, decided over its 20 points: the feature window and the output window sit at
    block row `t`, every other window at its one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `r` of the feature window's block at point `t` is row `5000 t + r` of the array. -/
theorem iblk3_0_at (c : Dev nD) (t : Fin cfg3.N) (r : Fin 5000) (k : Fin 16) (n : Fin 100000)
    (hn : n.val = t.val * 5000 + r.val) :
    (iblk3 V c 0 t : Vec Ideal S5000x16 .f32) (ix2 r k) = (V c main_v80 : S100000x16.Idx → EReal) (ix2 n k) := by
  obtain ⟨e0, e1, -⟩ := idx_facts3 t
  show V c main_v80 (((cfg3.win 0).blk t).view.emb (ix2 r k)) = V c main_v80 (ix2 n k)
  congr 1
  funext a
  apply Fin.ext
  match a with
  | ⟨0, _⟩ => show win3_0.index t (0 : Fin 2) * 5000 + 1 * r.val = n.val; rw [e0, hn]; omega
  | ⟨1, _⟩ => show win3_0.index t (1 : Fin 2) * 16 + 1 * k.val = k.val; rw [e1]; omega

/-- The weight window's one block is the weight. -/
theorem iblk3_1_at (c : Dev nD) (t : Fin cfg3.N) (p q : Fin 16) :
    (iblk3 V c 1 t : Vec Ideal S16x16 .f32) (ix2 p q) = (V c main_v82 : S16x16.Idx → EReal) (ix2 p q) := by
  obtain ⟨-, -, e0, e1, -⟩ := idx_facts3 t
  show V c main_v82 (((cfg3.win 1).blk t).view.emb (ix2 p q)) = V c main_v82 (ix2 p q)
  congr 1
  funext a
  apply Fin.ext
  match a with
  | ⟨0, _⟩ => show win3_1.index t (0 : Fin 2) * 16 + 1 * p.val = p.val; rw [e0]; omega
  | ⟨1, _⟩ => show win3_1.index t (1 : Fin 2) * 16 + 1 * q.val = q.val; rw [e1]; omega

/-- Each row-vector window's one block is its 1 × 16 array. -/
theorem iblk3_2_at (c : Dev nD) (t : Fin cfg3.N) (q : Fin 16) :
    (iblk3 V c 2 t : Vec Ideal S1x16 .f32) (ix2 (0 : Fin 1) q) = Spec.row16 (V c main_v91) (ix1 q) := by
  obtain ⟨-, -, -, -, e0, e1, -⟩ := idx_facts3 t
  show V c main_v91 (((cfg3.win 2).blk t).view.emb (ix2 (0 : Fin 1) q)) = V c main_v91 (ix2 (0 : Fin 1) q)
  congr 1
  funext a
  apply Fin.ext
  match a with
  | ⟨0, _⟩ => show win3_2.index t (0 : Fin 2) * 1 + 1 * 0 = 0; rw [e0]
  | ⟨1, _⟩ => show win3_2.index t (1 : Fin 2) * 16 + 1 * q.val = q.val; rw [e1]; omega
theorem iblk3_3_at (c : Dev nD) (t : Fin cfg3.N) (q : Fin 16) :
    (iblk3 V c 3 t : Vec Ideal S1x16 .f32) (ix2 (0 : Fin 1) q) = Spec.row16 (V c main_v92) (ix1 q) := by
  obtain ⟨-, -, -, -, -, -, e0, e1, -⟩ := idx_facts3 t
  show V c main_v92 (((cfg3.win 3).blk t).view.emb (ix2 (0 : Fin 1) q)) = V c main_v92 (ix2 (0 : Fin 1) q)
  congr 1
  funext a
  apply Fin.ext
  match a with
  | ⟨0, _⟩ => show win3_3.index t (0 : Fin 2) * 1 + 1 * 0 = 0; rw [e0]
  | ⟨1, _⟩ => show win3_3.index t (1 : Fin 2) * 16 + 1 * q.val = q.val; rw [e1]; omega
theorem iblk3_4_at (c : Dev nD) (t : Fin cfg3.N) (q : Fin 16) :
    (iblk3 V c 4 t : Vec Ideal S1x16 .f32) (ix2 (0 : Fin 1) q) = Spec.row16 (V c main_v93) (ix1 q) := by
  obtain ⟨-, -, -, -, -, -, -, -, e0, e1, -⟩ := idx_facts3 t
  show V c main_v93 (((cfg3.win 4).blk t).view.emb (ix2 (0 : Fin 1) q)) = V c main_v93 (ix2 (0 : Fin 1) q)
  congr 1
  funext a
  apply Fin.ext
  match a with
  | ⟨0, _⟩ => show win3_4.index t (0 : Fin 2) * 1 + 1 * 0 = 0; rw [e0]
  | ⟨1, _⟩ => show win3_4.index t (1 : Fin 2) * 16 + 1 * q.val = q.val; rw [e1]; omega
theorem iblk3_5_at (c : Dev nD) (t : Fin cfg3.N) (q : Fin 16) :
    (iblk3 V c 5 t : Vec Ideal S1x16 .f32) (ix2 (0 : Fin 1) q) = Spec.row16 (V c main_v94) (ix1 q) := by
  obtain ⟨-, -, -, -, -, -, -, -, -, -, e0, e1, -⟩ := idx_facts3 t
  show V c main_v94 (((cfg3.win 5).blk t).view.emb (ix2 (0 : Fin 1) q)) = V c main_v94 (ix2 (0 : Fin 1) q)
  congr 1
  funext a
  apply Fin.ext
  match a with
  | ⟨0, _⟩ => show win3_5.index t (0 : Fin 2) * 1 + 1 * 0 = 0; rw [e0]
  | ⟨1, _⟩ => show win3_5.index t (1 : Fin 2) * 16 + 1 * q.val = q.val; rw [e1]; omega

/-- Region 3's body has the same arithmetic as region 1's. -/
theorem pay3_eq (x0 : Vec Ideal S5000x16 .f32) (x1 : Vec Ideal S16x16 .f32) (x2 x3 x4 x5 : Vec Ideal S1x16 .f32) :
    k3_pay1 (k3_pay2 x0 x1 x2 x3) x4 x5 = k1_pay1 (k1_pay2 x0 x1 x2 x3) x4 x5 := rfl

/-- The node update of the arrays region 3 finds: what its output array must end holding. -/
abbrev G3 (c : Dev nD) : Spec.NxD.Idx → EReal :=
  Spec.node (V c main_v80) (V c main_v82) (Spec.row16 (V c main_v91)) (Spec.row16 (V c main_v92))
    (Spec.row16 (V c main_v93)) (Spec.row16 (V c main_v94))

/-- What point `t` writes back is block `t` of the node update of the arrays as the region finds them. -/
theorem flushed3_eq (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S5000x16) hz3, View.ld_unit_zero (S := S16x16) hz3, View.ld_unit_zero (S := S1x16) hz3]
  refine funext fun (y : S5000x16.Idx) => ?_
  obtain ⟨r, j, rfl⟩ : ∃ (r : Fin 5000) (j : Fin 16), y = ix2 r j := ⟨y 0, y 1, eq_ix2 y⟩
  have ht : t.val < 20 := lt_of_lt_of_eq t.isLt N_3
  obtain ⟨n, hn⟩ : ∃ n : Fin 100000, n.val = t.val * 5000 + r.val := ⟨⟨t.val * 5000 + r.val, by omega⟩, rfl⟩
  show k3_pay1 (k3_pay2 (iblk3 V c 0 t) (iblk3 V c 1 t) (iblk3 V c 2 t) (iblk3 V c 3 t)) (iblk3 V c 4 t) (iblk3 V c 5 t) (ix2 r j)
    = G3 V c (((cfg3.win 6).blk t).view.emb (ix2 r j))
  rw [pay3_eq]
  refine (pay_at (V c main_v80) (V c main_v82) (Spec.row16 (V c main_v91)) (Spec.row16 (V c main_v92))
    (Spec.row16 (V c main_v93)) (Spec.row16 (V c main_v94))
    (iblk3 V c 0 t) (iblk3 V c 1 t) (iblk3 V c 2 t) (iblk3 V c 3 t) (iblk3 V c 4 t) (iblk3 V c 5 t) n r j
    (fun k => iblk3_0_at V c t r k n hn) (fun p q => iblk3_1_at V c t p q) (fun q => iblk3_2_at V c t q)
    (fun q => iblk3_3_at V c t q) (fun q => iblk3_4_at V c t q) (fun q => iblk3_5_at V c t q)).trans ?_
  obtain ⟨-, -, -, -, -, -, -, -, -, -, -, -, e0, e1⟩ := idx_facts3 t
  show Spec.nodeAt _ _ _ _ _ _ n j = Spec.nodeAt _ _ _ _ _ _ ((((cfg3.win 6).blk t).view.emb (ix2 r j)) 0) ((((cfg3.win 6).blk t).view.emb (ix2 r j)) 1)
  congr 1
  · apply Fin.ext
    show n.val = win3_6.index t (0 : Fin 2) * 5000 + 1 * r.val
    rw [e0, hn]; omega
  · apply Fin.ext
    show j.val = win3_6.index t (1 : Fin 2) * 16 + 1 * j.val
    rw [e1]; omega

/-- An index of the output array is in point `t`'s block iff each coordinate is in the block's range on its axis. -/
theorem mem_blk3 (t : Fin cfg3.N) (i : S100000x16.Idx) :
    i ∈ ((cfg3.win 6).blk t).view.set ↔ ∀ a : Fin 2, win3_6.index t a * S5000x16.size a ≤ (i a).val
      ∧ (i a).val < win3_6.index t a * S5000x16.size a + S5000x16.size a := by
  show i ∈ ((View.whole main_v95).slice (win3_6.rect t)).set ↔ _
  rw [View.set_slice_whole, Rect.mem_set_unit]
  exact Iff.rfl

/-- Every row of the output array is in the block of the point its number divided by 5000 names. -/
theorem cover3 (i : S100000x16.Idx) :
    ∃ t : Fin cfg3.N, (cfg3.win 6).flush t = true ∧ i ∈ ((cfg3.win 6).blk t).view.set := by
  have hi0 : (i 0).val < 100000 := (i 0).isLt
  have hi1 : (i 1).val < 16 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 16 ≤ (i 1).val ∧ (i 1).val < win3_6.index t (1 : Fin 2) * 16 + 16
    rw [e1]; omega

/-- THE OUTPUT ARRAY OF REGION 3 after its run is the node update of the arrays the region finds. -/
theorem final3 (c : Dev nD) :
    (dat3 V c).arrAt 6 cfg3.N = Spec.node (V c main_v80) (V c main_v82) (Spec.row16 (V c main_v91))
      (Spec.row16 (V c main_v92)) (Spec.row16 (V c main_v93)) (Spec.row16 (V c main_v94)) :=
  (dat3 V c).arrAt_eq_of_cover 6 (G3 V c) (fun t _ => flushed3_eq V c t) cover3

end Cert.KSide.Node

end
-- ==== Proof.RefLin0.lean ====
/-
  The first projection of the reference: the product of the node features with the transposed
  weight, contracted over the weight's second axis, is row against row.  Entry `(n, j)` is
  `∑ₖ h[n, k] · wᵀ[k, j]` and `wᵀ[k, j] = w[j, k]`.
-/
import proofs.«123398_j55817394979003_2_alg».proof.Proof.ReadP
import proofs.«123398_j55817394979003_2_alg».proof.Proof.Spec

noncomputable section

namespace Cert.RefSide

open Cert.ReferenceIdeal Cert.ReferenceIdeal.Gen Cert.ReferenceIdeal.ReadP Idealize.ShloMosaic Idealize.ShloMosaic.ValueIdx

variable (x0 : (⟨S100000x16, .f32⟩ : BufTy).Contents (Elt Ideal)) (x4 : (⟨S2x16x16, .f32⟩ : BufTy).Contents (Elt Ideal))

/-- The left operand of the product is read at row `n`, column `k`. -/
theorem lidx_v37 (n : Fin 100000) (j k : Fin 16) : lidx_main_v37 (ix2 n j) k = ix2 n k :=
  funext fun a => Fin.ext (by match a with | ⟨0, _⟩ => rfl | ⟨1, _⟩ => rfl)

/-- The transposed weight at `(k, j)` is the weight at `(j, k)`. -/
theorem ridx_v37 (n : Fin 100000) (j k : Fin 16) :
    idx_main_v36 (ridx_main_v37 (ix2 n j) k) = ix2 j k :=
  funext fun a => Fin.ext (by match a with | ⟨0, _⟩ => rfl | ⟨1, _⟩ => rfl)

/-- The projection stage is `lin` of its left operand and the untransposed weight. -/
theorem ref_lin0 :
    val_main_v37 (F := Ideal) x0 x4 = Spec.lin (x0) (val_main_v35 (F := Ideal) x4) := by
  funext i
  obtain ⟨n, j, rfl⟩ : ∃ (n : Fin 100000) (j : Fin 16), i = ix2 n j := ⟨i 0, i 1, eq_ix2 i⟩
  show _ = Spec.linAt _ _ n j
  rw [val_main_v37_apply]
  unfold Spec.linAt
  refine Finset.sum_congr rfl fun k _ => ?_
  rw [val_main_v36_apply, lidx_v37, ridx_v37]

end Cert.RefSide

end
-- ==== Proof.RefNode0.lean ====
/-
  The first node update of the reference, read entry by entry.

  The stages after the neighbour sum are, in order: the product with the transposed weight and the
  bias `nb` under `tanh`; the bias `cb`; the leaky rectifier, written as a choice between the value
  and the slope times the value; the row mean (the row sum over the 16 columns divided by 16); the
  row variance (the mean of the squared deviations); and the deviation times the inverse square root
  of variance plus epsilon, times the gain, plus the offset.  Each broadcast of a per-row or
  per-column quantity reads that quantity at the row or the column of the entry, and each row sum
  starts from the zero word, which is the real number zero.
-/
import proofs.«123398_j55817394979003_2_alg».proof.Proof.ReadP
import proofs.«123398_j55817394979003_2_alg».proof.Proof.Spec

noncomputable section

namespace Cert.RefSide

open Cert.ReferenceIdeal Cert.ReferenceIdeal.Gen Cert.ReferenceIdeal.ReadP Idealize.ShloMosaic Idealize.ShloMosaic.ValueIdx

variable (x0 : (⟨S100000x16, .f32⟩ : BufTy).Contents (Elt Ideal)) (x1 : (⟨S2x3200000, .i32⟩ : BufTy).Contents (Elt Ideal)) (x2 : (⟨S3200000, .f32⟩ : BufTy).Contents (Elt Ideal))
  (x4 : (⟨S2x16x16, .f32⟩ : BufTy).Contents (Elt Ideal)) (x5 : (⟨S2x16, .f32⟩ : BufTy).Contents (Elt Ideal)) (x6 : (⟨S2x16x16, .f32⟩ : BufTy).Contents (Elt Ideal))
  (x7 x8 x9 : (⟨S2x16, .f32⟩ : BufTy).Contents (Elt Ideal))

/-! ### Where each stage reads its operand -/

theorem lidx_v54 (n : Fin 100000) (j k : Fin 16) : lidx_main_v54 (ix2 n j) k = ix2 n k :=
  funext fun a => Fin.ext (by match a with | ⟨0, _⟩ => rfl | ⟨1, _⟩ => rfl)

theorem ridx_v54 (n : Fin 100000) (j k : Fin 16) :
    idx_main_v53 (ridx_main_v54 (ix2 n j) k) = ix2 j k :=
  funext fun a => Fin.ext (by match a with | ⟨0, _⟩ => rfl | ⟨1, _⟩ => rfl)

/-- The bias `nb`, laid out as one row and repeated down the nodes, is read at the column. -/
theorem col_v58 (n : Fin 100000) (j : Fin 16) : idx_main_v57 (idx_main_v58 (ix2 n j)) = ix1 j :=
  funext fun a => Fin.ext (by match a with | ⟨0, _⟩ => rfl)

/-- The bias `cb`, likewise. -/
theorem col_v64 (n : Fin 100000) (j : Fin 16) : idx_main_v63 (idx_main_v64 (ix2 n j)) = ix1 j :=
  funext fun a => Fin.ext (by match a with | ⟨0, _⟩ => rfl)

/-- The gain, likewise. -/
theorem col_v94 (n : Fin 100000) (j : Fin 16) : idx_main_v93 (idx_main_v94 (ix2 n j)) = ix1 j :=
  funext fun a => Fin.ext (by match a with | ⟨0, _⟩ => rfl)

/-- The offset, likewise. -/
theorem col_v97 (n : Fin 100000) (j : Fin 16) : idx_main_v96 (idx_main_v97 (ix2 n j)) = ix1 j :=
  funext fun a => Fin.ext (by match a with | ⟨0, _⟩ => rfl)

/-- Term `k` of the first row sum of row `n` is entry `(n, k)`. -/
theorem row_v75 (n : Fin 100000) (k : Fin 16) :
    idx_main_v75 (idx_main_v76 (ix2 n (0 : Fin 1))) k = ix2 n k :=
  funext fun a => Fin.ext (by match a with | ⟨0, _⟩ => rfl | ⟨1, _⟩ => rfl)

/-- Term `k` of the second row sum of row `n` is entry `(n, k)`. -/
theorem row_v82 (n : Fin 100000) (k : Fin 16) :
    idx_main_v82 (idx_main_v83 (ix2 n (0 : Fin 1))) k = ix2 n k :=
  funext fun a => Fin.ext (by match a with | ⟨0, _⟩ => rfl | ⟨1, _⟩ => rfl)

/-- A per-row quantity repeated along the row is read at the row. -/
theorem rowOf_v79 (n : Fin 100000) (j : Fin 16) : idx_main_v79 (ix2 n j) = ix2 n (0 : Fin 1) :=
  funext fun a => Fin.ext (by match a with | ⟨0, _⟩ => rfl | ⟨1, _⟩ => rfl)

theorem rowOf_v86 (n : Fin 100000) (j : Fin 16) : idx_main_v86 (ix2 n j) = ix2 n (0 : Fin 1) :=
  funext fun a => Fin.ext (by match a with | ⟨0, _⟩ => rfl | ⟨1, _⟩ => rfl)

theorem rowOf_v91 (n : Fin 100000) (j : Fin 16) : idx_main_v91 (ix2 n j) = ix2 n (0 : Fin 1) :=
  funext fun a => Fin.ext (by match a with | ⟨0, _⟩ => rfl | ⟨1, _⟩ => rfl)

/-! ### The stages -/

/-- The product with the transposed weight is row against row. -/
theorem lin_v54 (n : Fin 100000) (j : Fin 16) :
    val_main_v54 (F := Ideal) x0 x1 x2 x4 x6 (ix2 n j) = Spec.linAt (val_main_v50 (F := Ideal) x0 x1 x2 x4) (val_main_v52 (F := Ideal) x6) n j := by
  rw [val_main_v54_apply]
  unfold Spec.linAt
  refine Finset.sum_congr rfl fun k _ => ?_
  rw [val_main_v53_apply, lidx_v54, ridx_v54]

/-- The rectified activation. -/
theorem act_v70 (n : Fin 100000) (j : Fin 16) :
    val_main_v70 (F := Ideal) x0 x1 x2 x4 x5 x6 x7 (ix2 n j) = Spec.actAt (val_main_v50 (F := Ideal) x0 x1 x2 x4) (val_main_v52 (F := Ideal) x6) (val_main_v56 (F := Ideal) x7) (val_main_v62 (F := Ideal) x5) n j := by
  rw [val_main_v70_apply, val_main_v67_apply, val_main_v69_apply, val_main_v65_apply,
    val_main_v60_apply, val_main_v59_apply, lin_v54,
    val_main_v58_apply, val_main_v57_apply, col_v58,
    val_main_v64_apply, val_main_v63_apply, col_v64,
    val_main_v66_apply, val_main_cst_10_apply, val_main_v68_apply, val_main_cst_11_apply]
  simp only [Ideal.addf_def, Ideal.mulf_def, Ideal.cmpf_def, Ideal.hostUnary_tanh_def, Ideal.ofBits_def]
  unfold Spec.actAt
  rfl

/-- The row mean. -/
theorem mu_v78 (n : Fin 100000) :
    val_main_v78 (F := Ideal) x0 x1 x2 x4 x5 x6 x7 (ix2 n (0 : Fin 1)) = Spec.muAt (val_main_v50 (F := Ideal) x0 x1 x2 x4) (val_main_v52 (F := Ideal) x6) (val_main_v56 (F := Ideal) x7) (val_main_v62 (F := Ideal) x5) n := by
  rw [val_main_v78_apply, val_main_v76_apply, val_main_v75_apply, val_main_cst_12_apply,
    val_main_v77_apply, val_main_cst_13_apply]
  simp only [row_v75, act_v70, Ideal.ofBits_def, Ideal.ofBits_zero_f32, zero_add, Ideal.hostDivf_def]
  unfold Spec.muAt
  rfl

/-- The squared deviation of entry `(n, k)` from its row mean. -/
theorem sq_v81 (n : Fin 100000) (k : Fin 16) :
    val_main_v81 (F := Ideal) x0 x1 x2 x4 x5 x6 x7 (ix2 n k) =
      (Spec.actAt (val_main_v50 (F := Ideal) x0 x1 x2 x4) (val_main_v52 (F := Ideal) x6) (val_main_v56 (F := Ideal) x7) (val_main_v62 (F := Ideal) x5) n k - Spec.muAt (val_main_v50 (F := Ideal) x0 x1 x2 x4) (val_main_v52 (F := Ideal) x6) (val_main_v56 (F := Ideal) x7) (val_main_v62 (F := Ideal) x5) n) *
      (Spec.actAt (val_main_v50 (F := Ideal) x0 x1 x2 x4) (val_main_v52 (F := Ideal) x6) (val_main_v56 (F := Ideal) x7) (val_main_v62 (F := Ideal) x5) n k - Spec.muAt (val_main_v50 (F := Ideal) x0 x1 x2 x4) (val_main_v52 (F := Ideal) x6) (val_main_v56 (F := Ideal) x7) (val_main_v62 (F := Ideal) x5) n) := by
  rw [val_main_v81_apply, val_main_v80_apply, val_main_v79_apply, rowOf_v79, act_v70, mu_v78]
  simp only [Ideal.mulf_def, Ideal.subf_def]

/-- The row variance. -/
theorem var_v85 (n : Fin 100000) :
    val_main_v85 (F := Ideal) x0 x1 x2 x4 x5 x6 x7 (ix2 n (0 : Fin 1)) = Spec.varAt (val_main_v50 (F := Ideal) x0 x1 x2 x4) (val_main_v52 (F := Ideal) x6) (val_main_v56 (F := Ideal) x7) (val_main_v62 (F := Ideal) x5) n := by
  rw [val_main_v85_apply, val_main_v83_apply, val_main_v82_apply, val_main_cst_14_apply,
    val_main_v84_apply, val_main_cst_15_apply]
  simp only [row_v82, sq_v81, Ideal.ofBits_def, Ideal.ofBits_zero_f32, zero_add, Ideal.hostDivf_def]
  unfold Spec.varAt
  rfl

/-- The node update at an entry. -/
theorem node_v98 (n : Fin 100000) (j : Fin 16) :
    val_main_v98 (F := Ideal) x0 x1 x2 x4 x5 x6 x7 x8 x9 (ix2 n j) = Spec.nodeAt (val_main_v50 (F := Ideal) x0 x1 x2 x4) (val_main_v52 (F := Ideal) x6) (val_main_v56 (F := Ideal) x7) (val_main_v62 (F := Ideal) x5) (val_main_v72 (F := Ideal) x8) (val_main_v74 (F := Ideal) x9) n j := by
  rw [val_main_v98_apply, val_main_v95_apply, val_main_v92_apply,
    val_main_v87_apply, val_main_v86_apply, rowOf_v86, mu_v78, act_v70,
    val_main_v91_apply, rowOf_v91, val_main_v90_apply, val_main_v89_apply, var_v85,
    val_main_v88_apply, val_main_cst_16_apply,
    val_main_v94_apply, val_main_v93_apply, col_v94,
    val_main_v97_apply, val_main_v96_apply, col_v97]
  simp only [Ideal.addf_def, Ideal.mulf_def, Ideal.subf_def, Ideal.hostUnary_rsqrt_def, Ideal.ofBits_def]
  unfold Spec.nodeAt
  rfl

/-- The first node update of the reference is `node` of the neighbour sum, the weight, the two
biases, the gain and the offset of its layer. -/
theorem ref_node0 :
    val_main_v98 (F := Ideal) x0 x1 x2 x4 x5 x6 x7 x8 x9 = Spec.node (val_main_v50 (F := Ideal) x0 x1 x2 x4) (val_main_v52 (F := Ideal) x6) (val_main_v56 (F := Ideal) x7) (val_main_v62 (F := Ideal) x5) (val_main_v72 (F := Ideal) x8) (val_main_v74 (F := Ideal) x9) := by
  funext i
  obtain ⟨n, j, rfl⟩ : ∃ (n : Fin 100000) (j : Fin 16), i = ix2 n j := ⟨i 0, i 1, eq_ix2 i⟩
  exact node_v98 x0 x1 x2 x4 x5 x6 x7 x8 x9 n j

end Cert.RefSide

end
-- ==== Proof.RefLin1.lean ====
/-
  The second projection of the reference: the product of the node features with the transposed
  weight, contracted over the weight's second axis, is row against row.  Entry `(n, j)` is
  `∑ₖ h[n, k] · wᵀ[k, j]` and `wᵀ[k, j] = w[j, k]`.
-/
import proofs.«123398_j55817394979003_2_alg».proof.Proof.ReadP
import proofs.«123398_j55817394979003_2_alg».proof.Proof.Spec

noncomputable section

namespace Cert.RefSide

open Cert.ReferenceIdeal Cert.ReferenceIdeal.Gen Cert.ReferenceIdeal.ReadP Idealize.ShloMosaic Idealize.ShloMosaic.ValueIdx

variable (x0 : (⟨S100000x16, .f32⟩ : BufTy).Contents (Elt Ideal)) (x1 : (⟨S2x3200000, .i32⟩ : BufTy).Contents (Elt Ideal)) (x2 : (⟨S3200000, .f32⟩ : BufTy).Contents (Elt Ideal))
  (x4 : (⟨S2x16x16, .f32⟩ : BufTy).Contents (Elt Ideal)) (x5 : (⟨S2x16, .f32⟩ : BufTy).Contents (Elt Ideal)) (x6 : (⟨S2x16x16, .f32⟩ : BufTy).Contents (Elt Ideal))
  (x7 x8 x9 : (⟨S2x16, .f32⟩ : BufTy).Contents (Elt Ideal))

/-- The left operand of the product is read at row `n`, column `k`. -/
theorem lidx_v102 (n : Fin 100000) (j k : Fin 16) : lidx_main_v102 (ix2 n j) k = ix2 n k :=
  funext fun a => Fin.ext (by match a with | ⟨0, _⟩ => rfl | ⟨1, _⟩ => rfl)

/-- The transposed weight at `(k, j)` is the weight at `(j, k)`. -/
theorem ridx_v102 (n : Fin 100000) (j k : Fin 16) :
    idx_main_v101 (ridx_main_v102 (ix2 n j) k) = ix2 j k :=
  funext fun a => Fin.ext (by match a with | ⟨0, _⟩ => rfl | ⟨1, _⟩ => rfl)

/-- The projection stage is `lin` of its left operand and the untransposed weight. -/
theorem ref_lin1 :
    val_main_v102 (F := Ideal) x0 x1 x2 x4 x5 x6 x7 x8 x9 = Spec.lin (val_main_v98 (F := Ideal) x0 x1 x2 x4 x5 x6 x7 x8 x9) (val_main_v100 (F := Ideal) x4) := by
  funext i
  obtain ⟨n, j, rfl⟩ : ∃ (n : Fin 100000) (j : Fin 16), i = ix2 n j := ⟨i 0, i 1, eq_ix2 i⟩
  show _ = Spec.linAt _ _ n j
  rw [val_main_v102_apply]
  unfold Spec.linAt
  refine Finset.sum_congr rfl fun k _ => ?_
  rw [val_main_v101_apply, lidx_v102, ridx_v102]

end Cert.RefSide

end
-- ==== Proof.RefNode1.lean ====
/-
  The second node update of the reference, read entry by entry.

  The stages after the neighbour sum are, in order: the product with the transposed weight and the
  bias `nb` under `tanh`; the bias `cb`; the leaky rectifier, written as a choice between the value
  and the slope times the value; the row mean (the row sum over the 16 columns divided by 16); the
  row variance (the mean of the squared deviations); and the deviation times the inverse square root
  of variance plus epsilon, times the gain, plus the offset.  Each broadcast of a per-row or
  per-column quantity reads that quantity at the row or the column of the entry, and each row sum
  starts from the zero word, which is the real number zero.
-/
import proofs.«123398_j55817394979003_2_alg».proof.Proof.ReadP
import proofs.«123398_j55817394979003_2_alg».proof.Proof.Spec

noncomputable section

namespace Cert.RefSide

open Cert.ReferenceIdeal Cert.ReferenceIdeal.Gen Cert.ReferenceIdeal.ReadP Idealize.ShloMosaic Idealize.ShloMosaic.ValueIdx

variable (x0 : (⟨S100000x16, .f32⟩ : BufTy).Contents (Elt Ideal)) (x1 : (⟨S2x3200000, .i32⟩ : BufTy).Contents (Elt Ideal)) (x2 : (⟨S3200000, .f32⟩ : BufTy).Contents (Elt Ideal))
  (x4 : (⟨S2x16x16, .f32⟩ : BufTy).Contents (Elt Ideal)) (x5 : (⟨S2x16, .f32⟩ : BufTy).Contents (Elt Ideal)) (x6 : (⟨S2x16x16, .f32⟩ : BufTy).Contents (Elt Ideal))
  (x7 x8 x9 : (⟨S2x16, .f32⟩ : BufTy).Contents (Elt Ideal))

/-! ### Where each stage reads its operand -/

theorem lidx_v119 (n : Fin 100000) (j k : Fin 16) : lidx_main_v119 (ix2 n j) k = ix2 n k :=
  funext fun a => Fin.ext (by match a with | ⟨0, _⟩ => rfl | ⟨1, _⟩ => rfl)

theorem ridx_v119 (n : Fin 100000) (j k : Fin 16) :
    idx_main_v118 (ridx_main_v119 (ix2 n j) k) = ix2 j k :=
  funext fun a => Fin.ext (by match a with | ⟨0, _⟩ => rfl | ⟨1, _⟩ => rfl)

/-- The bias `nb`, laid out as one row and repeated down the nodes, is read at the column. -/
theorem col_v123 (n : Fin 100000) (j : Fin 16) : idx_main_v122 (idx_main_v123 (ix2 n j)) = ix1 j :=
  funext fun a => Fin.ext (by match a with | ⟨0, _⟩ => rfl)

/-- The bias `cb`, likewise. -/
theorem col_v129 (n : Fin 100000) (j : Fin 16) : idx_main_v128 (idx_main_v129 (ix2 n j)) = ix1 j :=
  funext fun a => Fin.ext (by match a with | ⟨0, _⟩ => rfl)

/-- The gain, likewise. -/
theorem col_v159 (n : Fin 100000) (j : Fin 16) : idx_main_v158 (idx_main_v159 (ix2 n j)) = ix1 j :=
  funext fun a => Fin.ext (by match a with | ⟨0, _⟩ => rfl)

/-- The offset, likewise. -/
theorem col_v162 (n : Fin 100000) (j : Fin 16) : idx_main_v161 (idx_main_v162 (ix2 n j)) = ix1 j :=
  funext fun a => Fin.ext (by match a with | ⟨0, _⟩ => rfl)

/-- Term `k` of the first row sum of row `n` is entry `(n, k)`. -/
theorem row_v140 (n : Fin 100000) (k : Fin 16) :
    idx_main_v140 (idx_main_v141 (ix2 n (0 : Fin 1))) k = ix2 n k :=
  funext fun a => Fin.ext (by match a with | ⟨0, _⟩ => rfl | ⟨1, _⟩ => rfl)

/-- Term `k` of the second row sum of row `n` is entry `(n, k)`. -/
theorem row_v147 (n : Fin 100000) (k : Fin 16) :
    idx_main_v147 (idx_main_v148 (ix2 n (0 : Fin 1))) k = ix2 n k :=
  funext fun a => Fin.ext (by match a with | ⟨0, _⟩ => rfl | ⟨1, _⟩ => rfl)

/-- A per-row quantity repeated along the row is read at the row. -/
theorem rowOf_v144 (n : Fin 100000) (j : Fin 16) : idx_main_v144 (ix2 n j) = ix2 n (0 : Fin 1) :=
  funext fun a => Fin.ext (by match a with | ⟨0, _⟩ => rfl | ⟨1, _⟩ => rfl)

theorem rowOf_v151 (n : Fin 100000) (j : Fin 16) : idx_main_v151 (ix2 n j) = ix2 n (0 : Fin 1) :=
  funext fun a => Fin.ext (by match a with | ⟨0, _⟩ => rfl | ⟨1, _⟩ => rfl)

theorem rowOf_v156 (n : Fin 100000) (j : Fin 16) : idx_main_v156 (ix2 n j) = ix2 n (0 : Fin 1) :=
  funext fun a => Fin.ext (by match a with | ⟨0, _⟩ => rfl | ⟨1, _⟩ => rfl)

/-! ### The stages -/

/-- The product with the transposed weight is row against row. -/
theorem lin_v119 (n : Fin 100000) (j : Fin 16) :
    val_main_v119 (F := Ideal) x0 x1 x2 x4 x5 x6 x7 x8 x9 (ix2 n j) = Spec.linAt (val_main_v115 (F := Ideal) x0 x1 x2 x4 x5 x6 x7 x8 x9) (val_main_v117 (F := Ideal) x6) n j := by
  rw [val_main_v119_apply]
  unfold Spec.linAt
  refine Finset.sum_congr rfl fun k _ => ?_
  rw [val_main_v118_apply, lidx_v119, ridx_v119]

/-- The rectified activation. -/
theorem act_v135 (n : Fin 100000) (j : Fin 16) :
    val_main_v135 (F := Ideal) x0 x1 x2 x4 x5 x6 x7 x8 x9 (ix2 n j) = Spec.actAt (val_main_v115 (F := Ideal) x0 x1 x2 x4 x5 x6 x7 x8 x9) (val_main_v117 (F := Ideal) x6) (val_main_v121 (F := Ideal) x7) (val_main_v127 (F := Ideal) x5) n j := by
  rw [val_main_v135_apply, val_main_v132_apply, val_main_v134_apply, val_main_v130_apply,
    val_main_v125_apply, val_main_v124_apply, lin_v119,
    val_main_v123_apply, val_main_v122_apply, col_v123,
    val_main_v129_apply, val_main_v128_apply, col_v129,
    val_main_v131_apply, val_main_cst_20_apply, val_main_v133_apply, val_main_cst_21_apply]
  simp only [Ideal.addf_def, Ideal.mulf_def, Ideal.cmpf_def, Ideal.hostUnary_tanh_def, Ideal.ofBits_def]
  unfold Spec.actAt
  rfl

/-- The row mean. -/
theorem mu_v143 (n : Fin 100000) :
    val_main_v143 (F := Ideal) x0 x1 x2 x4 x5 x6 x7 x8 x9 (ix2 n (0 : Fin 1)) = Spec.muAt (val_main_v115 (F := Ideal) x0 x1 x2 x4 x5 x6 x7 x8 x9) (val_main_v117 (F := Ideal) x6) (val_main_v121 (F := Ideal) x7) (val_main_v127 (F := Ideal) x5) n := by
  rw [val_main_v143_apply, val_main_v141_apply, val_main_v140_apply, val_main_cst_22_apply,
    val_main_v142_apply, val_main_cst_23_apply]
  simp only [row_v140, act_v135, Ideal.ofBits_def, Ideal.ofBits_zero_f32, zero_add, Ideal.hostDivf_def]
  unfold Spec.muAt
  rfl

/-- The squared deviation of entry `(n, k)` from its row mean. -/
theorem sq_v146 (n : Fin 100000) (k : Fin 16) :
    val_main_v146 (F := Ideal) x0 x1 x2 x4 x5 x6 x7 x8 x9 (ix2 n k) =
      (Spec.actAt (val_main_v115 (F := Ideal) x0 x1 x2 x4 x5 x6 x7 x8 x9) (val_main_v117 (F := Ideal) x6) (val_main_v121 (F := Ideal) x7) (val_main_v127 (F := Ideal) x5) n k - Spec.muAt (val_main_v115 (F := Ideal) x0 x1 x2 x4 x5 x6 x7 x8 x9) (val_main_v117 (F := Ideal) x6) (val_main_v121 (F := Ideal) x7) (val_main_v127 (F := Ideal) x5) n) *
      (Spec.actAt (val_main_v115 (F := Ideal) x0 x1 x2 x4 x5 x6 x7 x8 x9) (val_main_v117 (F := Ideal) x6) (val_main_v121 (F := Ideal) x7) (val_main_v127 (F := Ideal) x5) n k - Spec.muAt (val_main_v115 (F := Ideal) x0 x1 x2 x4 x5 x6 x7 x8 x9) (val_main_v117 (F := Ideal) x6) (val_main_v121 (F := Ideal) x7) (val_main_v127 (F := Ideal) x5) n) := by
  rw [val_main_v146_apply, val_main_v145_apply, val_main_v144_apply, rowOf_v144, act_v135, mu_v143]
  simp only [Ideal.mulf_def, Ideal.subf_def]

/-- The row variance. -/
theorem var_v150 (n : Fin 100000) :
    val_main_v150 (F := Ideal) x0 x1 x2 x4 x5 x6 x7 x8 x9 (ix2 n (0 : Fin 1)) = Spec.varAt (val_main_v115 (F := Ideal) x0 x1 x2 x4 x5 x6 x7 x8 x9) (val_main_v117 (F := Ideal) x6) (val_main_v121 (F := Ideal) x7) (val_main_v127 (F := Ideal) x5) n := by
  rw [val_main_v150_apply, val_main_v148_apply, val_main_v147_apply, val_main_cst_24_apply,
    val_main_v149_apply, val_main_cst_25_apply]
  simp only [row_v147, sq_v146, Ideal.ofBits_def, Ideal.ofBits_zero_f32, zero_add, Ideal.hostDivf_def]
  unfold Spec.varAt
  rfl

/-- The node update at an entry. -/
theorem node_v163 (n : Fin 100000) (j : Fin 16) :
    val_main_v163 (F := Ideal) x0 x1 x2 x4 x5 x6 x7 x8 x9 (ix2 n j) = Spec.nodeAt (val_main_v115 (F := Ideal) x0 x1 x2 x4 x5 x6 x7 x8 x9) (val_main_v117 (F := Ideal) x6) (val_main_v121 (F := Ideal) x7) (val_main_v127 (F := Ideal) x5) (val_main_v137 (F := Ideal) x8) (val_main_v139 (F := Ideal) x9) n j := by
  rw [val_main_v163_apply, val_main_v160_apply, val_main_v157_apply,
    val_main_v152_apply, val_main_v151_apply, rowOf_v151, mu_v143, act_v135,
    val_main_v156_apply, rowOf_v156, val_main_v155_apply, val_main_v154_apply, var_v150,
    val_main_v153_apply, val_main_cst_26_apply,
    val_main_v159_apply, val_main_v158_apply, col_v159,
    val_main_v162_apply, val_main_v161_apply, col_v162]
  simp only [Ideal.addf_def, Ideal.mulf_def, Ideal.subf_def, Ideal.hostUnary_rsqrt_def, Ideal.ofBits_def]
  unfold Spec.nodeAt
  rfl

/-- The second node update of the reference is `node` of the neighbour sum, the weight, the two
biases, the gain and the offset of its layer. -/
theorem ref_node1 :
    val_main_v163 (F := Ideal) x0 x1 x2 x4 x5 x6 x7 x8 x9 = Spec.node (val_main_v115 (F := Ideal) x0 x1 x2 x4 x5 x6 x7 x8 x9) (val_main_v117 (F := Ideal) x6) (val_main_v121 (F := Ideal) x7) (val_main_v127 (F := Ideal) x5) (val_main_v137 (F := Ideal) x8) (val_main_v139 (F := Ideal) x9) := by
  funext i
  obtain ⟨n, j, rfl⟩ : ∃ (n : Fin 100000) (j : Fin 16), i = ix2 n j := ⟨i 0, i 1, eq_ix2 i⟩
  exact node_v163 x0 x1 x2 x4 x5 x6 x7 x8 x9 n j

end Cert.RefSide

end
-- ==== Proof.RefCls.lean ====
/-
  The classifier of the reference, read entry by entry: the node features against the rows of the
  first weight (a product with its transpose, contracted over the 16 features), plus the first bias
  repeated down the nodes, the maximum with the zero word, then the same against the rows of the
  second weight (contracted over the 64 hidden columns) plus the second bias.
-/
import proofs.«123398_j55817394979003_2_alg».proof.Proof.ReadP
import proofs.«123398_j55817394979003_2_alg».proof.Proof.Spec

noncomputable section

namespace Cert.RefSide

open Cert.ReferenceIdeal Cert.ReferenceIdeal.Gen Cert.ReferenceIdeal.ReadP Idealize.ShloMosaic Idealize.ShloMosaic.ValueIdx

variable (x0 : (⟨S100000x16, .f32⟩ : BufTy).Contents (Elt Ideal)) (x1 : (⟨S2x3200000, .i32⟩ : BufTy).Contents (Elt Ideal)) (x2 : (⟨S3200000, .f32⟩ : BufTy).Contents (Elt Ideal))
  (x4 : (⟨S2x16x16, .f32⟩ : BufTy).Contents (Elt Ideal)) (x5 : (⟨S2x16, .f32⟩ : BufTy).Contents (Elt Ideal)) (x6 : (⟨S2x16x16, .f32⟩ : BufTy).Contents (Elt Ideal))
  (x7 x8 x9 : (⟨S2x16, .f32⟩ : BufTy).Contents (Elt Ideal))
  (x10 : (⟨S64x16, .f32⟩ : BufTy).Contents (Elt Ideal)) (x11 : (⟨S64, .f32⟩ : BufTy).Contents (Elt Ideal))
  (x12 : (⟨S10x64, .f32⟩ : BufTy).Contents (Elt Ideal)) (x13 : (⟨S10, .f32⟩ : BufTy).Contents (Elt Ideal))

/-! ### Where each stage reads its operand -/

theorem lidx_v165 (n : Fin 100000) (q : Fin 64) (k : Fin 16) : lidx_main_v165 (ix2 n q) k = ix2 n k :=
  funext fun a => Fin.ext (by match a with | ⟨0, _⟩ => rfl | ⟨1, _⟩ => rfl)

theorem ridx_v165 (n : Fin 100000) (q : Fin 64) (k : Fin 16) :
    idx_main_v164 (ridx_main_v165 (ix2 n q) k) = ix2 q k :=
  funext fun a => Fin.ext (by match a with | ⟨0, _⟩ => rfl | ⟨1, _⟩ => rfl)

theorem lidx_v171 (n : Fin 100000) (c : Fin 10) (q : Fin 64) : lidx_main_v171 (ix2 n c) q = ix2 n q :=
  funext fun a => Fin.ext (by match a with | ⟨0, _⟩ => rfl | ⟨1, _⟩ => rfl)

theorem ridx_v171 (n : Fin 100000) (c : Fin 10) (q : Fin 64) :
    idx_main_v170 (ridx_main_v171 (ix2 n c) q) = ix2 c q :=
  funext fun a => Fin.ext (by match a with | ⟨0, _⟩ => rfl | ⟨1, _⟩ => rfl)

/-- The first bias, laid out as one row and repeated down the nodes, is read at the column. -/
theorem col_v167 (n : Fin 100000) (q : Fin 64) : idx_main_v166 (idx_main_v167 (ix2 n q)) = ix1 q :=
  funext fun a => Fin.ext (by match a with | ⟨0, _⟩ => rfl)

/-- The second bias, likewise. -/
theorem col_v173 (n : Fin 100000) (c : Fin 10) : idx_main_v172 (idx_main_v173 (ix2 n c)) = ix1 c :=
  funext fun a => Fin.ext (by match a with | ⟨0, _⟩ => rfl)

/-! ### The stages -/

/-- The first product is row `n` of the features against row `q` of the first weight. -/
theorem lin_v165 (n : Fin 100000) (q : Fin 64) :
    val_main_v165 (F := Ideal) x0 x1 x2 x4 x5 x6 x7 x8 x9 x10 (ix2 n q) =
      ∑ k : Fin 16, val_main_v163 (F := Ideal) x0 x1 x2 x4 x5 x6 x7 x8 x9 (ix2 n k) * x10 (ix2 q k) := by
  rw [val_main_v165_apply]
  refine Finset.sum_congr rfl fun k _ => ?_
  rw [val_main_v164_apply, lidx_v165, ridx_v165]

/-- The hidden row: the positive part of the first affine map. -/
theorem hid_v169 (n : Fin 100000) (q : Fin 64) :
    val_main_v169 (F := Ideal) x0 x1 x2 x4 x5 x6 x7 x8 x9 x10 x11 (ix2 n q) =
      Spec.hidAt (val_main_v163 (F := Ideal) x0 x1 x2 x4 x5 x6 x7 x8 x9) x10 x11 n q := by
  rw [val_main_v169_apply, val_main_v168_apply, lin_v165, val_main_v167_apply, val_main_v166_apply, col_v167,
    val_main_call3_v0_apply, val_main_call3_cst_apply]
  simp only [Ideal.maximumf_def, Ideal.addf_def, Ideal.ofBits_def]
  unfold Spec.hidAt
  rfl

/-- The classifier at an entry. -/
theorem cls_v174 (n : Fin 100000) (c : Fin 10) :
    val_main_v174 (F := Ideal) x0 x1 x2 x4 x5 x6 x7 x8 x9 x10 x11 x12 x13 (ix2 n c) =
      Spec.clsAt (val_main_v163 (F := Ideal) x0 x1 x2 x4 x5 x6 x7 x8 x9) x10 x11 x12 x13 n c := by
  rw [val_main_v174_apply, Ideal.addf_def, val_main_v171_apply, val_main_v173_apply, val_main_v172_apply, col_v173]
  unfold Spec.clsAt
  refine congrArg (fun s => s + x13 (ix1 c)) (Finset.sum_congr rfl fun q _ => ?_)
  rw [lidx_v171, hid_v169, val_main_v170_apply, ridx_v171]

/-- The last stage of the reference is `cls` of the second node update and the classifier's weights and biases. -/
theorem ref_cls :
    val_main_v174 (F := Ideal) x0 x1 x2 x4 x5 x6 x7 x8 x9 x10 x11 x12 x13 =
      Spec.cls (val_main_v163 (F := Ideal) x0 x1 x2 x4 x5 x6 x7 x8 x9) x10 x11 x12 x13 := by
  funext i
  obtain ⟨n, c, rfl⟩ : ∃ (n : Fin 100000) (c : Fin 10), i = ix2 n c := ⟨i 0, i 1, eq_ix2 i⟩
  exact cls_v174 x0 x1 x2 x4 x5 x6 x7 x8 x9 x10 x11 x12 x13 n c

end Cert.RefSide

end
-- ==== Proof.KLayers.lean ====
/-
  Layer by layer, the kernel program holds what the reference computes. Each kernel region leaves in its result
  array the specification's function (lin, node or cls) of the arrays it finds; the arrays it finds are, by the
  host stretches between the regions, the reference's stages; and the reference's next stage is the same
  function of those stages. So each region's result array holds the reference's stage — the first projection, the
  first node update, the second projection, the second node update, and at the end the classifier's output.
-/
import proofs.«123398_j55817394979003_2_alg».proof.Proof.KGlue
import proofs.«123398_j55817394979003_2_alg».proof.Proof.KLin
import proofs.«123398_j55817394979003_2_alg».proof.Proof.KCls
import proofs.«123398_j55817394979003_2_alg».proof.Proof.KNodeFinal1
import proofs.«123398_j55817394979003_2_alg».proof.Proof.KNodeFinal3
import proofs.«123398_j55817394979003_2_alg».proof.Proof.RefLin0
import proofs.«123398_j55817394979003_2_alg».proof.Proof.RefNode0
import proofs.«123398_j55817394979003_2_alg».proof.Proof.RefLin1
import proofs.«123398_j55817394979003_2_alg».proof.Proof.RefNode1
import proofs.«123398_j55817394979003_2_alg».proof.Proof.RefCls

set_option maxRecDepth 16384

noncomputable section

namespace Cert.KLayers

open Idealize.ShloMosaic Idealize.ShloMosaic.TcCoe Idealize.SL.Sem Idealize.ShloMosaic.StableHlo
open Cert.KernelIdeal Cert.KernelIdeal.Gen Cert.KernelIdeal.Keep Cert.KGlue

variable (m : (ℓ : Loc nD τ sig) → Buf (Elt Ideal) ℓ) (ρ : Dev nD → PrngReg) (c : Dev nD)

/-- The first lin region leaves the reference's first projection. -/
theorem layer_lin0 : W4 m ρ c (Proc.devRef .tc main_v36) = Cert.ReferenceIdeal.ReadP.val_main_v37 (F := Ideal) (m ((c : Thread nD τ).loc main_arg0)) (m ((c : Thread nD τ).loc main_arg4)) := by
  have h := (W4_arr m ρ c 2).trans (Cert.KSide.LinCls.final0 (V3 m ρ) c)
  rw [show V3 m ρ c main_arg0 = _ from W3_arg0 m ρ c, show V3 m ρ c main_v35 = _ from st_v35 m ρ c] at h
  exact h.trans (Cert.RefSide.ref_lin0 (m ((c : Thread nD τ).loc main_arg0)) (m ((c : Thread nD τ).loc main_arg4))).symm

/-- The first node region leaves the reference's first node update. -/
theorem layer_node0 : W6 m ρ c (Proc.devRef .tc main_v64) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W6_arr m ρ c 6).trans (Cert.KSide.Node.final1 (V5 m ρ) c)
  rw [show V5 m ρ c main_v49 = _ from st_v49 m ρ c (layer_lin0 m ρ c), show V5 m ρ c main_v51 = _ from st_v51 m ρ c,
    show V5 m ρ c main_v60 = _ from st_v60 m ρ c, show V5 m ρ c main_v61 = _ from st_v61 m ρ c,
    show V5 m ρ c main_v62 = _ from st_v62 m ρ c, show V5 m ρ c main_v63 = _ from st_v63 m ρ c,
    row16_shapeCast, row16_shapeCast, row16_shapeCast, row16_shapeCast] at h
  exact h.trans (Cert.RefSide.ref_node0 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The second lin region leaves the reference's second projection. -/
theorem layer_lin1 : W8 m ρ c (Proc.devRef .tc main_v67) = Cert.ReferenceIdeal.ReadP.val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W8_arr m ρ c 2).trans (Cert.KSide.LinCls.final2 (V7 m ρ) c)
  rw [show V7 m ρ c main_v64 = _ from (W7_v64 m ρ c).trans (layer_node0 m ρ c), show V7 m ρ c main_v66 = _ from st_v66 m ρ c] at h
  exact h.trans (Cert.RefSide.ref_lin1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The second node region leaves the reference's second node update. -/
theorem layer_node1 : W10 m ρ c (Proc.devRef .tc main_v95) = Cert.ReferenceIdeal.ReadP.val_main_v163 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W10_arr m ρ c 6).trans (Cert.KSide.Node.final3 (V9 m ρ) c)
  rw [show V9 m ρ c main_v80 = _ from st_v80 m ρ c (layer_lin1 m ρ c), show V9 m ρ c main_v82 = _ from st_v82 m ρ c,
    show V9 m ρ c main_v91 = _ from st_v91 m ρ c, show V9 m ρ c main_v92 = _ from st_v92 m ρ c,
    show V9 m ρ c main_v93 = _ from st_v93 m ρ c, show V9 m ρ c main_v94 = _ from st_v94 m ρ c,
    row16_shapeCast, row16_shapeCast, row16_shapeCast, row16_shapeCast] at h
  exact h.trans (Cert.RefSide.ref_node1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-- The classifier region leaves the reference's result. -/
theorem layer_cls : W12 m ρ c (Proc.devRef .tc main_v98) = Cert.ReferenceIdeal.ReadP.val_main_v174 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := (W12_arr m ρ c 5).trans (Cert.KSide.LinCls.final4 (V11 m ρ) c)
  rw [show V11 m ρ c main_v95 = _ from (W11_v95 m ρ c).trans (layer_node1 m ρ c), show V11 m ρ c main_arg10 = _ from W11_arg10 m ρ c,
    show V11 m ρ c main_v96 = _ from st_v96 m ρ c, show V11 m ρ c main_arg12 = _ from W11_arg12 m ρ c,
    show V11 m ρ c main_v97 = _ from st_v97 m ρ c, row64_shapeCast, row10_shapeCast] at h
  exact h.trans (Cert.RefSide.ref_cls (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm

end Cert.KLayers

end
-- ==== Proof.RPieces.lean ====
/-
  The reference program's straight line of 208 host operations, cut into nineteen consecutive pieces at the values
  that more than one later operation reads (the index vectors, the degrees, each layer's activation, its row means
  and its centred rows) and at the ends of the stages. The fold of a line over contents splits at any cut, so the
  whole line's fold is the pieces' folds composed.
-/
import proofs.«123398_j55817394979003_2_alg».proof.Proof.RefRunP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP

/-- The fold of a line of operations over contents splits at any cut of the line. -/
theorem after_append {F : FTy → Type} [FloatOps F] (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

variable {F : FTy → Type} [FloatOps F]

/-- Operations 1 to 10 of the reference program: the two index vectors and the edge weights with the self loops appended. -/
abbrev c0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]

/-- Operations 11 to 14 of the reference program: the weighted degree of every node. -/
abbrev c1 : List (HloOp τ sig (Elt F)) :=
  [ nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- Operations 15 to 25 of the reference program: its inverse square root where the degree is positive. -/
abbrev c2 : List (HloOp τ sig (Elt F)) :=
  [ nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select ]

/-- Operations 26 to 45 of the reference program: the normalised edge weights. -/
abbrev c3 : List (HloOp τ sig (Elt F)) :=
  [ nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v8 main_v25 (mulf : (⟨S3300000, .f32⟩ : BufTy).Contents (Elt F) → (⟨S3300000, .f32⟩ : BufTy).Contents (Elt F) → (⟨S3300000, .f32⟩ : BufTy).Contents (Elt F)),
    nullary main_c_5 (constantI S_ 32 0#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v28 (broadcastInDim S3300000 ![] bcast_S_S3300000 : (⟨S_, .i32⟩ : BufTy).Contents (Elt F) → (⟨S3300000, .i32⟩ : BufTy).Contents (Elt F)),
    binary main_v6 main_v28 main_v29 (addi : (⟨S3300000, .i32⟩ : BufTy).Contents (Elt F) → (⟨S3300000, .i32⟩ : BufTy).Contents (Elt F) → (⟨S3300000, .i32⟩ : BufTy).Contents (Elt F)),
    ternary main_v27 main_v29 main_v6 main_v30 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v30 main_v31 (broadcastInDim S3300000x1 ![0] bcast_S3300000_S3300000x1_0 : (⟨S3300000, .i32⟩ : BufTy).Contents (Elt F) → (⟨S3300000x1, .i32⟩ : BufTy).Contents (Elt F)),
    binary main_v17 main_v31 main_v32 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v25 main_v32 main_v33 (mulf : (⟨S3300000, .f32⟩ : BufTy).Contents (Elt F) → (⟨S3300000, .f32⟩ : BufTy).Contents (Elt F) → (⟨S3300000, .f32⟩ : BufTy).Contents (Elt F)) ]

/-- Operations 46 to 49 of the reference program: layer one's projection. -/
abbrev c4 : List (HloOp τ sig (Elt F)) :=
  [ unary main_arg4 main_v34 ((extractStridedSlice S1x16x16 ![0, 0, 0] · slices_S2x16x16_S1x16x16_0_0_0) : (⟨S2x16x16, .f32⟩ : BufTy).Contents (Elt F) → (⟨S1x16x16, .f32⟩ : BufTy).Contents (Elt F)),
    reshape main_v34 main_v35 rfl shapeCasts_S1x16x16_S16x16,
    unary main_v35 main_v36 ((transpose S16x16 [1, 0] · transposes_S16x16_S16x16_1_0) : (⟨S16x16, .f32⟩ : BufTy).Contents (Elt F) → (⟨S16x16, .f32⟩ : BufTy).Contents (Elt F)),
    binary main_arg0 main_v36 main_v37 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 50 to 65 of the reference program: layer one's aggregation along the edges. -/
abbrev c5 : List (HloOp τ sig (Elt F)) :=
  [ unary main_v33 main_v38 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v39 (broadcastInDim S3300000 ![] bcast_S_S3300000 : (⟨S_, .i32⟩ : BufTy).Contents (Elt F) → (⟨S3300000, .i32⟩ : BufTy).Contents (Elt F)),
    binary main_v3 main_v39 main_v40 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v41 (broadcastInDim S3300000 ![] bcast_S_S3300000 : (⟨S_, .i32⟩ : BufTy).Contents (Elt F) → (⟨S3300000, .i32⟩ : BufTy).Contents (Elt F)),
    binary main_v3 main_v41 main_v42 (addi : (⟨S3300000, .i32⟩ : BufTy).Contents (Elt F) → (⟨S3300000, .i32⟩ : BufTy).Contents (Elt F) → (⟨S3300000, .i32⟩ : BufTy).Contents (Elt F)),
    ternary main_v40 main_v42 main_v3 main_v43 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v43 main_v44 (broadcastInDim S3300000x1 ![0] bcast_S3300000_S3300000x1_0 : (⟨S3300000, .i32⟩ : BufTy).Contents (Elt F) → (⟨S3300000x1, .i32⟩ : BufTy).Contents (Elt F)),
    binary main_v37 main_v44 main_v45 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v38 main_v46 (broadcastInDim S3300000x16 ![0, 1] bcast_S3300000x1_S3300000x16_0_1 : (⟨S3300000x1, .f32⟩ : BufTy).Contents (Elt F) → (⟨S3300000x16, .f32⟩ : BufTy).Contents (Elt F)),
    binary main_v46 main_v45 main_v47 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v48 (broadcastInDim S100000x16 ![] bcast_S_S100000x16 : (⟨S_, .f32⟩ : BufTy).Contents (Elt F) → (⟨S100000x16, .f32⟩ : BufTy).Contents (Elt F)),
    unary main_v6 main_v49 (broadcastInDim S3300000x1 ![0] bcast_S3300000_S3300000x1_0 : (⟨S3300000, .i32⟩ : BufTy).Contents (Elt F) → (⟨S3300000x1, .i32⟩ : BufTy).Contents (Elt F)),
    ternary main_v48 main_v49 main_v47 main_v50 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 66 to 80 of the reference program: layer one's affine map, tanh and bias. -/
abbrev c6 : List (HloOp τ sig (Elt F)) :=
  [ unary main_arg6 main_v51 ((extractStridedSlice S1x16x16 ![0, 0, 0] · slices_S2x16x16_S1x16x16_0_0_0) : (⟨S2x16x16, .f32⟩ : BufTy).Contents (Elt F) → (⟨S1x16x16, .f32⟩ : BufTy).Contents (Elt F)),
    reshape main_v51 main_v52 rfl shapeCasts_S1x16x16_S16x16,
    unary main_v52 main_v53 ((transpose S16x16 [1, 0] · transposes_S16x16_S16x16_1_0) : (⟨S16x16, .f32⟩ : BufTy).Contents (Elt F) → (⟨S16x16, .f32⟩ : BufTy).Contents (Elt F)),
    binary main_v50 main_v53 main_v54 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg7 main_v55 ((extractStridedSlice S1x16 ![0, 0] · slices_S2x16_S1x16_0_0) : (⟨S2x16, .f32⟩ : BufTy).Contents (Elt F) → (⟨S1x16, .f32⟩ : BufTy).Contents (Elt F)),
    reshape main_v55 main_v56 rfl shapeCasts_S1x16_S16,
    unary main_v56 main_v57 (broadcastInDim S1x16 ![1] bcast_S16_S1x16_1 : (⟨S16, .f32⟩ : BufTy).Contents (Elt F) → (⟨S1x16, .f32⟩ : BufTy).Contents (Elt F)),
    unary main_v57 main_v58 (broadcastInDim S100000x16 ![0, 1] bcast_S1x16_S100000x16_0_1 : (⟨S1x16, .f32⟩ : BufTy).Contents (Elt F) → (⟨S100000x16, .f32⟩ : BufTy).Contents (Elt F)),
    binary main_v54 main_v58 main_v59 (addf : (⟨S100000x16, .f32⟩ : BufTy).Contents (Elt F) → (⟨S100000x16, .f32⟩ : BufTy).Contents (Elt F) → (⟨S100000x16, .f32⟩ : BufTy).Contents (Elt F)),
    unary main_v59 main_v60 (Host.tanh : (⟨S100000x16, .f32⟩ : BufTy).Contents (Elt F) → (⟨S100000x16, .f32⟩ : BufTy).Contents (Elt F)),
    unary main_arg5 main_v61 ((extractStridedSlice S1x16 ![0, 0] · slices_S2x16_S1x16_0_0) : (⟨S2x16, .f32⟩ : BufTy).Contents (Elt F) → (⟨S1x16, .f32⟩ : BufTy).Contents (Elt F)),
    reshape main_v61 main_v62 rfl shapeCasts_S1x16_S16,
    unary main_v62 main_v63 (broadcastInDim S1x16 ![1] bcast_S16_S1x16_1 : (⟨S16, .f32⟩ : BufTy).Contents (Elt F) → (⟨S1x16, .f32⟩ : BufTy).Contents (Elt F)),
    unary main_v63 main_v64 (broadcastInDim S100000x16 ![0, 1] bcast_S1x16_S100000x16_0_1 : (⟨S1x16, .f32⟩ : BufTy).Contents (Elt F) → (⟨S100000x16, .f32⟩ : BufTy).Contents (Elt F)),
    binary main_v60 main_v64 main_v65 (addf : (⟨S100000x16, .f32⟩ : BufTy).Contents (Elt F) → (⟨S100000x16, .f32⟩ : BufTy).Contents (Elt F) → (⟨S100000x16, .f32⟩ : BufTy).Contents (Elt F)) ]

/-- Operations 81 to 87 of the reference program: its leaky rectifier. -/
abbrev c7 : List (HloOp τ sig (Elt F)) :=
  [ nullary main_cst_10 (constant S_ .f32 0x00000000#32),
    unary main_cst_10 main_v66 (broadcastInDim S100000x16 ![] bcast_S_S100000x16 : (⟨S_, .f32⟩ : BufTy).Contents (Elt F) → (⟨S100000x16, .f32⟩ : BufTy).Contents (Elt F)),
    binary main_v65 main_v66 main_v67 (cmpf .ogt : (⟨S100000x16, .f32⟩ : BufTy).Contents (Elt F) → (⟨S100000x16, .f32⟩ : BufTy).Contents (Elt F) → (⟨S100000x16, .i1⟩ : BufTy).Contents (Elt F)),
    nullary main_cst_11 (constant S_ .f32 0x3E4CCCCD#32),
    unary main_cst_11 main_v68 (broadcastInDim S100000x16 ![] bcast_S_S100000x16 : (⟨S_, .f32⟩ : BufTy).Contents (Elt F) → (⟨S100000x16, .f32⟩ : BufTy).Contents (Elt F)),
    binary main_v68 main_v65 main_v69 (mulf : (⟨S100000x16, .f32⟩ : BufTy).Contents (Elt F) → (⟨S100000x16, .f32⟩ : BufTy).Contents (Elt F) → (⟨S100000x16, .f32⟩ : BufTy).Contents (Elt F)),
    TRef.ternary (TRef.of (T := ⟨S100000x16, .i1⟩) main_v67) (TRef.of (T := ⟨S100000x16, .f32⟩) main_v65) (TRef.of (T := ⟨S100000x16, .f32⟩) main_v69) (TRef.of (T := ⟨S100000x16, .f32⟩) main_v70) select ]

/-- Operations 88 to 97 of the reference program: the row means (and the gain and offset vectors cut out). -/
abbrev c8 : List (HloOp τ sig (Elt F)) :=
  [ unary main_arg8 main_v71 ((extractStridedSlice S1x16 ![0, 0] · slices_S2x16_S1x16_0_0) : (⟨S2x16, .f32⟩ : BufTy).Contents (Elt F) → (⟨S1x16, .f32⟩ : BufTy).Contents (Elt F)),
    reshape main_v71 main_v72 rfl shapeCasts_S1x16_S16,
    unary main_arg9 main_v73 ((extractStridedSlice S1x16 ![0, 0] · slices_S2x16_S1x16_0_0) : (⟨S2x16, .f32⟩ : BufTy).Contents (Elt F) → (⟨S1x16, .f32⟩ : BufTy).Contents (Elt F)),
    reshape main_v73 main_v74 rfl shapeCasts_S1x16_S16,
    nullary main_cst_12 (constant S_ .f32 0x00000000#32),
    binary main_v70 main_cst_12 main_v75 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v75 main_v76 (broadcastInDim S100000x1 ![0] bcast_S100000_S100000x1_0 : (⟨S100000, .f32⟩ : BufTy).Contents (Elt F) → (⟨S100000x1, .f32⟩ : BufTy).Contents (Elt F)),
    nullary main_cst_13 (constant S_ .f32 0x41800000#32),
    unary main_cst_13 main_v77 (broadcastInDim S100000x1 ![] bcast_S_S100000x1 : (⟨S_, .f32⟩ : BufTy).Contents (Elt F) → (⟨S100000x1, .f32⟩ : BufTy).Contents (Elt F)),
    binary main_v76 main_v77 main_v78 (Host.divf : (⟨S100000x1, .f32⟩ : BufTy).Contents (Elt F) → (⟨S100000x1, .f32⟩ : BufTy).Contents (Elt F) → (⟨S100000x1, .f32⟩ : BufTy).Contents (Elt F)) ]

/-- Operations 98 to 99 of the reference program: the centred rows. -/
abbrev c9 : List (HloOp τ sig (Elt F)) :=
  [ unary main_v78 main_v79 (broadcastInDim S100000x16 ![0, 1] bcast_S100000x1_S100000x16_0_1 : (⟨S100000x1, .f32⟩ : BufTy).Contents (Elt F) → (⟨S100000x16, .f32⟩ : BufTy).Contents (Elt F)),
    binary main_v70 main_v79 main_v80 (subf : (⟨S100000x16, .f32⟩ : BufTy).Contents (Elt F) → (⟨S100000x16, .f32⟩ : BufTy).Contents (Elt F) → (⟨S100000x16, .f32⟩ : BufTy).Contents (Elt F)) ]

/-- Operations 100 to 120 of the reference program: layer one's normalisation, gain and offset. -/
abbrev c10 : List (HloOp τ sig (Elt F)) :=
  [ binary main_v80 main_v80 main_v81 (mulf : (⟨S100000x16, .f32⟩ : BufTy).Contents (Elt F) → (⟨S100000x16, .f32⟩ : BufTy).Contents (Elt F) → (⟨S100000x16, .f32⟩ : BufTy).Contents (Elt F)),
    nullary main_cst_14 (constant S_ .f32 0x00000000#32),
    binary main_v81 main_cst_14 main_v82 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v82 main_v83 (broadcastInDim S100000x1 ![0] bcast_S100000_S100000x1_0 : (⟨S100000, .f32⟩ : BufTy).Contents (Elt F) → (⟨S100000x1, .f32⟩ : BufTy).Contents (Elt F)),
    nullary main_cst_15 (constant S_ .f32 0x41800000#32),
    unary main_cst_15 main_v84 (broadcastInDim S100000x1 ![] bcast_S_S100000x1 : (⟨S_, .f32⟩ : BufTy).Contents (Elt F) → (⟨S100000x1, .f32⟩ : BufTy).Contents (Elt F)),
    binary main_v83 main_v84 main_v85 (Host.divf : (⟨S100000x1, .f32⟩ : BufTy).Contents (Elt F) → (⟨S100000x1, .f32⟩ : BufTy).Contents (Elt F) → (⟨S100000x1, .f32⟩ : BufTy).Contents (Elt F)),
    unary main_v78 main_v86 (broadcastInDim S100000x16 ![0, 1] bcast_S100000x1_S100000x16_0_1 : (⟨S100000x1, .f32⟩ : BufTy).Contents (Elt F) → (⟨S100000x16, .f32⟩ : BufTy).Contents (Elt F)),
    binary main_v70 main_v86 main_v87 (subf : (⟨S100000x16, .f32⟩ : BufTy).Contents (Elt F) → (⟨S100000x16, .f32⟩ : BufTy).Contents (Elt F) → (⟨S100000x16, .f32⟩ : BufTy).Contents (Elt F)),
    nullary main_cst_16 (constant S_ .f32 0x3727C5AC#32),
    unary main_cst_16 main_v88 (broadcastInDim S100000x1 ![] bcast_S_S100000x1 : (⟨S_, .f32⟩ : BufTy).Contents (Elt F) → (⟨S100000x1, .f32⟩ : BufTy).Contents (Elt F)),
    binary main_v85 main_v88 main_v89 (addf : (⟨S100000x1, .f32⟩ : BufTy).Contents (Elt F) → (⟨S100000x1, .f32⟩ : BufTy).Contents (Elt F) → (⟨S100000x1, .f32⟩ : BufTy).Contents (Elt F)),
    unary main_v89 main_v90 (Host.rsqrt : (⟨S100000x1, .f32⟩ : BufTy).Contents (Elt F) → (⟨S100000x1, .f32⟩ : BufTy).Contents (Elt F)),
    unary main_v90 main_v91 (broadcastInDim S100000x16 ![0, 1] bcast_S100000x1_S100000x16_0_1 : (⟨S100000x1, .f32⟩ : BufTy).Contents (Elt F) → (⟨S100000x16, .f32⟩ : BufTy).Contents (Elt F)),
    binary main_v87 main_v91 main_v92 (mulf : (⟨S100000x16, .f32⟩ : BufTy).Contents (Elt F) → (⟨S100000x16, .f32⟩ : BufTy).Contents (Elt F) → (⟨S100000x16, .f32⟩ : BufTy).Contents (Elt F)),
    unary main_v72 main_v93 (broadcastInDim S1x16 ![1] bcast_S16_S1x16_1 : (⟨S16, .f32⟩ : BufTy).Contents (Elt F) → (⟨S1x16, .f32⟩ : BufTy).Contents (Elt F)),
    unary main_v93 main_v94 (broadcastInDim S100000x16 ![0, 1] bcast_S1x16_S100000x16_0_1 : (⟨S1x16, .f32⟩ : BufTy).Contents (Elt F) → (⟨S100000x16, .f32⟩ : BufTy).Contents (Elt F)),
    binary main_v92 main_v94 main_v95 (mulf : (⟨S100000x16, .f32⟩ : BufTy).Contents (Elt F) → (⟨S100000x16, .f32⟩ : BufTy).Contents (Elt F) → (⟨S100000x16, .f32⟩ : BufTy).Contents (Elt F)),
    unary main_v74 main_v96 (broadcastInDim S1x16 ![1] bcast_S16_S1x16_1 : (⟨S16, .f32⟩ : BufTy).Contents (Elt F) → (⟨S1x16, .f32⟩ : BufTy).Contents (Elt F)),
    unary main_v96 main_v97 (broadcastInDim S100000x16 ![0, 1] bcast_S1x16_S100000x16_0_1 : (⟨S1x16, .f32⟩ : BufTy).Contents (Elt F) → (⟨S100000x16, .f32⟩ : BufTy).Contents (Elt F)),
    binary main_v95 main_v97 main_v98 (addf : (⟨S100000x16, .f32⟩ : BufTy).Contents (Elt F) → (⟨S100000x16, .f32⟩ : BufTy).Contents (Elt F) → (⟨S100000x16, .f32⟩ : BufTy).Contents (Elt F)) ]

/-- Operations 121 to 124 of the reference program: layer two's projection. -/
abbrev c11 : List (HloOp τ sig (Elt F)) :=
  [ unary main_arg4 main_v99 ((extractStridedSlice S1x16x16 ![1, 0, 0] · slices_S2x16x16_S1x16x16_1_0_0) : (⟨S2x16x16, .f32⟩ : BufTy).Contents (Elt F) → (⟨S1x16x16, .f32⟩ : BufTy).Contents (Elt F)),
    reshape main_v99 main_v100 rfl shapeCasts_S1x16x16_S16x16,
    unary main_v100 main_v101 ((transpose S16x16 [1, 0] · transposes_S16x16_S16x16_1_0) : (⟨S16x16, .f32⟩ : BufTy).Contents (Elt F) → (⟨S16x16, .f32⟩ : BufTy).Contents (Elt F)),
    binary main_v98 main_v101 main_v102 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- Operations 125 to 140 of the reference program: layer two's aggregation along the edges. -/
abbrev c12 : List (HloOp τ sig (Elt F)) :=
  [ unary main_v33 main_v103 (broadcastInDim S3300000x1 ![0] bcast_S3300000_S3300000x1_0 : (⟨S3300000, .f32⟩ : BufTy).Contents (Elt F) → (⟨S3300000x1, .f32⟩ : BufTy).Contents (Elt F)),
    nullary main_c_17 (constantI S_ 32 0#32),
    unary main_c_17 main_v104 (broadcastInDim S3300000 ![] bcast_S_S3300000 : (⟨S_, .i32⟩ : BufTy).Contents (Elt F) → (⟨S3300000, .i32⟩ : BufTy).Contents (Elt F)),
    binary main_v3 main_v104 main_v105 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v106 (broadcastInDim S3300000 ![] bcast_S_S3300000 : (⟨S_, .i32⟩ : BufTy).Contents (Elt F) → (⟨S3300000, .i32⟩ : BufTy).Contents (Elt F)),
    binary main_v3 main_v106 main_v107 (addi : (⟨S3300000, .i32⟩ : BufTy).Contents (Elt F) → (⟨S3300000, .i32⟩ : BufTy).Contents (Elt F) → (⟨S3300000, .i32⟩ : BufTy).Contents (Elt F)),
    ternary main_v105 main_v107 main_v3 main_v108 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v108 main_v109 (broadcastInDim S3300000x1 ![0] bcast_S3300000_S3300000x1_0 : (⟨S3300000, .i32⟩ : BufTy).Contents (Elt F) → (⟨S3300000x1, .i32⟩ : BufTy).Contents (Elt F)),
    binary main_v102 main_v109 main_v110 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v103 main_v111 (broadcastInDim S3300000x16 ![0, 1] bcast_S3300000x1_S3300000x16_0_1 : (⟨S3300000x1, .f32⟩ : BufTy).Contents (Elt F) → (⟨S3300000x16, .f32⟩ : BufTy).Contents (Elt F)),
    binary main_v111 main_v110 main_v112 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v113 (broadcastInDim S100000x16 ![] bcast_S_S100000x16 : (⟨S_, .f32⟩ : BufTy).Contents (Elt F) → (⟨S100000x16, .f32⟩ : BufTy).Contents (Elt F)),
    unary main_v6 main_v114 (broadcastInDim S3300000x1 ![0] bcast_S3300000_S3300000x1_0 : (⟨S3300000, .i32⟩ : BufTy).Contents (Elt F) → (⟨S3300000x1, .i32⟩ : BufTy).Contents (Elt F)),
    ternary main_v113 main_v114 main_v112 main_v115 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 141 to 155 of the reference program: layer two's affine map, tanh and bias. -/
abbrev c13 : List (HloOp τ sig (Elt F)) :=
  [ unary main_arg6 main_v116 ((extractStridedSlice S1x16x16 ![1, 0, 0] · slices_S2x16x16_S1x16x16_1_0_0) : (⟨S2x16x16, .f32⟩ : BufTy).Contents (Elt F) → (⟨S1x16x16, .f32⟩ : BufTy).Contents (Elt F)),
    reshape main_v116 main_v117 rfl shapeCasts_S1x16x16_S16x16,
    unary main_v117 main_v118 ((transpose S16x16 [1, 0] · transposes_S16x16_S16x16_1_0) : (⟨S16x16, .f32⟩ : BufTy).Contents (Elt F) → (⟨S16x16, .f32⟩ : BufTy).Contents (Elt F)),
    binary main_v115 main_v118 main_v119 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg7 main_v120 ((extractStridedSlice S1x16 ![1, 0] · slices_S2x16_S1x16_1_0) : (⟨S2x16, .f32⟩ : BufTy).Contents (Elt F) → (⟨S1x16, .f32⟩ : BufTy).Contents (Elt F)),
    reshape main_v120 main_v121 rfl shapeCasts_S1x16_S16,
    unary main_v121 main_v122 (broadcastInDim S1x16 ![1] bcast_S16_S1x16_1 : (⟨S16, .f32⟩ : BufTy).Contents (Elt F) → (⟨S1x16, .f32⟩ : BufTy).Contents (Elt F)),
    unary main_v122 main_v123 (broadcastInDim S100000x16 ![0, 1] bcast_S1x16_S100000x16_0_1 : (⟨S1x16, .f32⟩ : BufTy).Contents (Elt F) → (⟨S100000x16, .f32⟩ : BufTy).Contents (Elt F)),
    binary main_v119 main_v123 main_v124 (addf : (⟨S100000x16, .f32⟩ : BufTy).Contents (Elt F) → (⟨S100000x16, .f32⟩ : BufTy).Contents (Elt F) → (⟨S100000x16, .f32⟩ : BufTy).Contents (Elt F)),
    unary main_v124 main_v125 (Host.tanh : (⟨S100000x16, .f32⟩ : BufTy).Contents (Elt F) → (⟨S100000x16, .f32⟩ : BufTy).Contents (Elt F)),
    unary main_arg5 main_v126 ((extractStridedSlice S1x16 ![1, 0] · slices_S2x16_S1x16_1_0) : (⟨S2x16, .f32⟩ : BufTy).Contents (Elt F) → (⟨S1x16, .f32⟩ : BufTy).Contents (Elt F)),
    reshape main_v126 main_v127 rfl shapeCasts_S1x16_S16,
    unary main_v127 main_v128 (broadcastInDim S1x16 ![1] bcast_S16_S1x16_1 : (⟨S16, .f32⟩ : BufTy).Contents (Elt F) → (⟨S1x16, .f32⟩ : BufTy).Contents (Elt F)),
    unary main_v128 main_v129 (broadcastInDim S100000x16 ![0, 1] bcast_S1x16_S100000x16_0_1 : (⟨S1x16, .f32⟩ : BufTy).Contents (Elt F) → (⟨S100000x16, .f32⟩ : BufTy).Contents (Elt F)),
    binary main_v125 main_v129 main_v130 (addf : (⟨S100000x16, .f32⟩ : BufTy).Contents (Elt F) → (⟨S100000x16, .f32⟩ : BufTy).Contents (Elt F) → (⟨S100000x16, .f32⟩ : BufTy).Contents (Elt F)) ]

/-- Operations 156 to 162 of the reference program: its leaky rectifier. -/
abbrev c14 : List (HloOp τ sig (Elt F)) :=
  [ nullary main_cst_20 (constant S_ .f32 0x00000000#32),
    unary main_cst_20 main_v131 (broadcastInDim S100000x16 ![] bcast_S_S100000x16 : (⟨S_, .f32⟩ : BufTy).Contents (Elt F) → (⟨S100000x16, .f32⟩ : BufTy).Contents (Elt F)),
    binary main_v130 main_v131 main_v132 (cmpf .ogt : (⟨S100000x16, .f32⟩ : BufTy).Contents (Elt F) → (⟨S100000x16, .f32⟩ : BufTy).Contents (Elt F) → (⟨S100000x16, .i1⟩ : BufTy).Contents (Elt F)),
    nullary main_cst_21 (constant S_ .f32 0x3E4CCCCD#32),
    unary main_cst_21 main_v133 (broadcastInDim S100000x16 ![] bcast_S_S100000x16 : (⟨S_, .f32⟩ : BufTy).Contents (Elt F) → (⟨S100000x16, .f32⟩ : BufTy).Contents (Elt F)),
    binary main_v133 main_v130 main_v134 (mulf : (⟨S100000x16, .f32⟩ : BufTy).Contents (Elt F) → (⟨S100000x16, .f32⟩ : BufTy).Contents (Elt F) → (⟨S100000x16, .f32⟩ : BufTy).Contents (Elt F)),
    TRef.ternary (TRef.of (T := ⟨S100000x16, .i1⟩) main_v132) (TRef.of (T := ⟨S100000x16, .f32⟩) main_v130) (TRef.of (T := ⟨S100000x16, .f32⟩) main_v134) (TRef.of (T := ⟨S100000x16, .f32⟩) main_v135) select ]

/-- Operations 163 to 172 of the reference program: the row means (and the gain and offset vectors cut out). -/
abbrev c15 : List (HloOp τ sig (Elt F)) :=
  [ unary main_arg8 main_v136 ((extractStridedSlice S1x16 ![1, 0] · slices_S2x16_S1x16_1_0) : (⟨S2x16, .f32⟩ : BufTy).Contents (Elt F) → (⟨S1x16, .f32⟩ : BufTy).Contents (Elt F)),
    reshape main_v136 main_v137 rfl shapeCasts_S1x16_S16,
    unary main_arg9 main_v138 ((extractStridedSlice S1x16 ![1, 0] · slices_S2x16_S1x16_1_0) : (⟨S2x16, .f32⟩ : BufTy).Contents (Elt F) → (⟨S1x16, .f32⟩ : BufTy).Contents (Elt F)),
    reshape main_v138 main_v139 rfl shapeCasts_S1x16_S16,
    nullary main_cst_22 (constant S_ .f32 0x00000000#32),
    binary main_v135 main_cst_22 main_v140 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v140 main_v141 (broadcastInDim S100000x1 ![0] bcast_S100000_S100000x1_0 : (⟨S100000, .f32⟩ : BufTy).Contents (Elt F) → (⟨S100000x1, .f32⟩ : BufTy).Contents (Elt F)),
    nullary main_cst_23 (constant S_ .f32 0x41800000#32),
    unary main_cst_23 main_v142 (broadcastInDim S100000x1 ![] bcast_S_S100000x1 : (⟨S_, .f32⟩ : BufTy).Contents (Elt F) → (⟨S100000x1, .f32⟩ : BufTy).Contents (Elt F)),
    binary main_v141 main_v142 main_v143 (Host.divf : (⟨S100000x1, .f32⟩ : BufTy).Contents (Elt F) → (⟨S100000x1, .f32⟩ : BufTy).Contents (Elt F) → (⟨S100000x1, .f32⟩ : BufTy).Contents (Elt F)) ]

/-- Operations 173 to 174 of the reference program: the centred rows. -/
abbrev c16 : List (HloOp τ sig (Elt F)) :=
  [ unary main_v143 main_v144 (broadcastInDim S100000x16 ![0, 1] bcast_S100000x1_S100000x16_0_1 : (⟨S100000x1, .f32⟩ : BufTy).Contents (Elt F) → (⟨S100000x16, .f32⟩ : BufTy).Contents (Elt F)),
    binary main_v135 main_v144 main_v145 (subf : (⟨S100000x16, .f32⟩ : BufTy).Contents (Elt F) → (⟨S100000x16, .f32⟩ : BufTy).Contents (Elt F) → (⟨S100000x16, .f32⟩ : BufTy).Contents (Elt F)) ]

/-- Operations 175 to 195 of the reference program: layer two's normalisation, gain and offset. -/
abbrev c17 : List (HloOp τ sig (Elt F)) :=
  [ binary main_v145 main_v145 main_v146 (mulf : (⟨S100000x16, .f32⟩ : BufTy).Contents (Elt F) → (⟨S100000x16, .f32⟩ : BufTy).Contents (Elt F) → (⟨S100000x16, .f32⟩ : BufTy).Contents (Elt F)),
    nullary main_cst_24 (constant S_ .f32 0x00000000#32),
    binary main_v146 main_cst_24 main_v147 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v147 main_v148 (broadcastInDim S100000x1 ![0] bcast_S100000_S100000x1_0 : (⟨S100000, .f32⟩ : BufTy).Contents (Elt F) → (⟨S100000x1, .f32⟩ : BufTy).Contents (Elt F)),
    nullary main_cst_25 (constant S_ .f32 0x41800000#32),
    unary main_cst_25 main_v149 (broadcastInDim S100000x1 ![] bcast_S_S100000x1 : (⟨S_, .f32⟩ : BufTy).Contents (Elt F) → (⟨S100000x1, .f32⟩ : BufTy).Contents (Elt F)),
    binary main_v148 main_v149 main_v150 (Host.divf : (⟨S100000x1, .f32⟩ : BufTy).Contents (Elt F) → (⟨S100000x1, .f32⟩ : BufTy).Contents (Elt F) → (⟨S100000x1, .f32⟩ : BufTy).Contents (Elt F)),
    unary main_v143 main_v151 (broadcastInDim S100000x16 ![0, 1] bcast_S100000x1_S100000x16_0_1 : (⟨S100000x1, .f32⟩ : BufTy).Contents (Elt F) → (⟨S100000x16, .f32⟩ : BufTy).Contents (Elt F)),
    binary main_v135 main_v151 main_v152 (subf : (⟨S100000x16, .f32⟩ : BufTy).Contents (Elt F) → (⟨S100000x16, .f32⟩ : BufTy).Contents (Elt F) → (⟨S100000x16, .f32⟩ : BufTy).Contents (Elt F)),
    nullary main_cst_26 (constant S_ .f32 0x3727C5AC#32),
    unary main_cst_26 main_v153 (broadcastInDim S100000x1 ![] bcast_S_S100000x1 : (⟨S_, .f32⟩ : BufTy).Contents (Elt F) → (⟨S100000x1, .f32⟩ : BufTy).Contents (Elt F)),
    binary main_v150 main_v153 main_v154 (addf : (⟨S100000x1, .f32⟩ : BufTy).Contents (Elt F) → (⟨S100000x1, .f32⟩ : BufTy).Contents (Elt F) → (⟨S100000x1, .f32⟩ : BufTy).Contents (Elt F)),
    unary main_v154 main_v155 (Host.rsqrt : (⟨S100000x1, .f32⟩ : BufTy).Contents (Elt F) → (⟨S100000x1, .f32⟩ : BufTy).Contents (Elt F)),
    unary main_v155 main_v156 (broadcastInDim S100000x16 ![0, 1] bcast_S100000x1_S100000x16_0_1 : (⟨S100000x1, .f32⟩ : BufTy).Contents (Elt F) → (⟨S100000x16, .f32⟩ : BufTy).Contents (Elt F)),
    binary main_v152 main_v156 main_v157 (mulf : (⟨S100000x16, .f32⟩ : BufTy).Contents (Elt F) → (⟨S100000x16, .f32⟩ : BufTy).Contents (Elt F) → (⟨S100000x16, .f32⟩ : BufTy).Contents (Elt F)),
    unary main_v137 main_v158 (broadcastInDim S1x16 ![1] bcast_S16_S1x16_1 : (⟨S16, .f32⟩ : BufTy).Contents (Elt F) → (⟨S1x16, .f32⟩ : BufTy).Contents (Elt F)),
    unary main_v158 main_v159 (broadcastInDim S100000x16 ![0, 1] bcast_S1x16_S100000x16_0_1 : (⟨S1x16, .f32⟩ : BufTy).Contents (Elt F) → (⟨S100000x16, .f32⟩ : BufTy).Contents (Elt F)),
    binary main_v157 main_v159 main_v160 (mulf : (⟨S100000x16, .f32⟩ : BufTy).Contents (Elt F) → (⟨S100000x16, .f32⟩ : BufTy).Contents (Elt F) → (⟨S100000x16, .f32⟩ : BufTy).Contents (Elt F)),
    unary main_v139 main_v161 (broadcastInDim S1x16 ![1] bcast_S16_S1x16_1 : (⟨S16, .f32⟩ : BufTy).Contents (Elt F) → (⟨S1x16, .f32⟩ : BufTy).Contents (Elt F)),
    unary main_v161 main_v162 (broadcastInDim S100000x16 ![0, 1] bcast_S1x16_S100000x16_0_1 : (⟨S1x16, .f32⟩ : BufTy).Contents (Elt F) → (⟨S100000x16, .f32⟩ : BufTy).Contents (Elt F)),
    binary main_v160 main_v162 main_v163 (addf : (⟨S100000x16, .f32⟩ : BufTy).Contents (Elt F) → (⟨S100000x16, .f32⟩ : BufTy).Contents (Elt F) → (⟨S100000x16, .f32⟩ : BufTy).Contents (Elt F)) ]

/-- Operations 196 to 208 of the reference program: the classifier. -/
abbrev c18 : List (HloOp τ sig (Elt F)) :=
  [ unary main_arg10 main_v164 ((transpose S16x64 [1, 0] · transposes_S64x16_S16x64_1_0) : (⟨S64x16, .f32⟩ : BufTy).Contents (Elt F) → (⟨S16x64, .f32⟩ : BufTy).Contents (Elt F)),
    binary main_v163 main_v164 main_v165 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    unary main_arg11 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v165 main_v167 main_v168 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v168) (TRef.of (T := ⟨S100000x64, .f32⟩) main_call3_v0) (TRef.of (T := ⟨S100000x64, .f32⟩) main_v169) maximumf,
    unary main_arg12 main_v170 ((transpose S64x10 [1, 0] · transposes_S10x64_S64x10_1_0) : (⟨S10x64, .f32⟩ : BufTy).Contents (Elt F) → (⟨S64x10, .f32⟩ : BufTy).Contents (Elt F)),
    binary main_v169 main_v170 main_v171 ((fun l r => Host.dotGeneral dot_S100000x64_S64x10_S100000x10_1_0_0_1_n_n none l r) : (⟨S100000x64, .f32⟩ : BufTy).Contents (Elt F) → (⟨S64x10, .f32⟩ : BufTy).Contents (Elt F) → (⟨S100000x10, .f32⟩ : BufTy).Contents (Elt F)),
    unary main_arg13 main_v172 (broadcastInDim S1x10 ![1] bcast_S10_S1x10_1 : (⟨S10, .f32⟩ : BufTy).Contents (Elt F) → (⟨S1x10, .f32⟩ : BufTy).Contents (Elt F)),
    unary main_v172 main_v173 (broadcastInDim S100000x10 ![0, 1] bcast_S1x10_S100000x10_0_1 : (⟨S1x10, .f32⟩ : BufTy).Contents (Elt F) → (⟨S100000x10, .f32⟩ : BufTy).Contents (Elt F)),
    binary main_v171 main_v173 main_v174 (addf : (⟨S100000x10, .f32⟩ : BufTy).Contents (Elt F) → (⟨S100000x10, .f32⟩ : BufTy).Contents (Elt F) → (⟨S100000x10, .f32⟩ : BufTy).Contents (Elt F)) ]

/-- The program's line is its pieces in order. -/
theorem ops_pieces : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15 ++ (c16 ++ (c17 ++ (c18)))))))))))))))))) := rfl

end Cert.ReferenceIdeal.RunP

end
-- ==== Proof.RKeepP.lean ====
/-
  What each piece of the reference program leaves alone: a piece changes only the buffers its own operations write, so
  every value a later piece still reads, and every argument, passes through it unchanged — whatever the float values are.
-/
import proofs.«123398_j55817394979003_2_alg».proof.Proof.RPieces

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP

/-- A buffer that no operation of a piece writes holds after the piece what it held before it. -/
local macro "untouched_by " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

variable {F : FTy → Type} [FloatOps F] {W : Valuation τ sig (Elt F)}

theorem keep0_arg4 : StableHlo.after (c0 (F := F)) W (Proc.devRef .tc main_arg4) = W (Proc.devRef .tc main_arg4) := by untouched_by c0
theorem keep0_arg0 : StableHlo.after (c0 (F := F)) W (Proc.devRef .tc main_arg0) = W (Proc.devRef .tc main_arg0) := by untouched_by c0
theorem keep0_arg6 : StableHlo.after (c0 (F := F)) W (Proc.devRef .tc main_arg6) = W (Proc.devRef .tc main_arg6) := by untouched_by c0
theorem keep0_arg7 : StableHlo.after (c0 (F := F)) W (Proc.devRef .tc main_arg7) = W (Proc.devRef .tc main_arg7) := by untouched_by c0
theorem keep0_arg5 : StableHlo.after (c0 (F := F)) W (Proc.devRef .tc main_arg5) = W (Proc.devRef .tc main_arg5) := by untouched_by c0
theorem keep0_arg8 : StableHlo.after (c0 (F := F)) W (Proc.devRef .tc main_arg8) = W (Proc.devRef .tc main_arg8) := by untouched_by c0
theorem keep0_arg9 : StableHlo.after (c0 (F := F)) W (Proc.devRef .tc main_arg9) = W (Proc.devRef .tc main_arg9) := by untouched_by c0
theorem keep0_arg10 : StableHlo.after (c0 (F := F)) W (Proc.devRef .tc main_arg10) = W (Proc.devRef .tc main_arg10) := by untouched_by c0
theorem keep0_arg11 : StableHlo.after (c0 (F := F)) W (Proc.devRef .tc main_arg11) = W (Proc.devRef .tc main_arg11) := by untouched_by c0
theorem keep0_arg12 : StableHlo.after (c0 (F := F)) W (Proc.devRef .tc main_arg12) = W (Proc.devRef .tc main_arg12) := by untouched_by c0
theorem keep0_arg13 : StableHlo.after (c0 (F := F)) W (Proc.devRef .tc main_arg13) = W (Proc.devRef .tc main_arg13) := by untouched_by c0
theorem keep1_v3 : StableHlo.after (c1 (F := F)) W (Proc.devRef .tc main_v3) = W (Proc.devRef .tc main_v3) := by untouched_by c1
theorem keep1_v8 : StableHlo.after (c1 (F := F)) W (Proc.devRef .tc main_v8) = W (Proc.devRef .tc main_v8) := by untouched_by c1
theorem keep1_v6 : StableHlo.after (c1 (F := F)) W (Proc.devRef .tc main_v6) = W (Proc.devRef .tc main_v6) := by untouched_by c1
theorem keep1_arg4 : StableHlo.after (c1 (F := F)) W (Proc.devRef .tc main_arg4) = W (Proc.devRef .tc main_arg4) := by untouched_by c1
theorem keep1_arg0 : StableHlo.after (c1 (F := F)) W (Proc.devRef .tc main_arg0) = W (Proc.devRef .tc main_arg0) := by untouched_by c1
theorem keep1_arg6 : StableHlo.after (c1 (F := F)) W (Proc.devRef .tc main_arg6) = W (Proc.devRef .tc main_arg6) := by untouched_by c1
theorem keep1_arg7 : StableHlo.after (c1 (F := F)) W (Proc.devRef .tc main_arg7) = W (Proc.devRef .tc main_arg7) := by untouched_by c1
theorem keep1_arg5 : StableHlo.after (c1 (F := F)) W (Proc.devRef .tc main_arg5) = W (Proc.devRef .tc main_arg5) := by untouched_by c1
theorem keep1_arg8 : StableHlo.after (c1 (F := F)) W (Proc.devRef .tc main_arg8) = W (Proc.devRef .tc main_arg8) := by untouched_by c1
theorem keep1_arg9 : StableHlo.after (c1 (F := F)) W (Proc.devRef .tc main_arg9) = W (Proc.devRef .tc main_arg9) := by untouched_by c1
theorem keep1_arg10 : StableHlo.after (c1 (F := F)) W (Proc.devRef .tc main_arg10) = W (Proc.devRef .tc main_arg10) := by untouched_by c1
theorem keep1_arg11 : StableHlo.after (c1 (F := F)) W (Proc.devRef .tc main_arg11) = W (Proc.devRef .tc main_arg11) := by untouched_by c1
theorem keep1_arg12 : StableHlo.after (c1 (F := F)) W (Proc.devRef .tc main_arg12) = W (Proc.devRef .tc main_arg12) := by untouched_by c1
theorem keep1_arg13 : StableHlo.after (c1 (F := F)) W (Proc.devRef .tc main_arg13) = W (Proc.devRef .tc main_arg13) := by untouched_by c1
theorem keep2_v3 : StableHlo.after (c2 (F := F)) W (Proc.devRef .tc main_v3) = W (Proc.devRef .tc main_v3) := by untouched_by c2
theorem keep2_v8 : StableHlo.after (c2 (F := F)) W (Proc.devRef .tc main_v8) = W (Proc.devRef .tc main_v8) := by untouched_by c2
theorem keep2_v6 : StableHlo.after (c2 (F := F)) W (Proc.devRef .tc main_v6) = W (Proc.devRef .tc main_v6) := by untouched_by c2
theorem keep2_arg4 : StableHlo.after (c2 (F := F)) W (Proc.devRef .tc main_arg4) = W (Proc.devRef .tc main_arg4) := by untouched_by c2
theorem keep2_arg0 : StableHlo.after (c2 (F := F)) W (Proc.devRef .tc main_arg0) = W (Proc.devRef .tc main_arg0) := by untouched_by c2
theorem keep2_arg6 : StableHlo.after (c2 (F := F)) W (Proc.devRef .tc main_arg6) = W (Proc.devRef .tc main_arg6) := by untouched_by c2
theorem keep2_arg7 : StableHlo.after (c2 (F := F)) W (Proc.devRef .tc main_arg7) = W (Proc.devRef .tc main_arg7) := by untouched_by c2
theorem keep2_arg5 : StableHlo.after (c2 (F := F)) W (Proc.devRef .tc main_arg5) = W (Proc.devRef .tc main_arg5) := by untouched_by c2
theorem keep2_arg8 : StableHlo.after (c2 (F := F)) W (Proc.devRef .tc main_arg8) = W (Proc.devRef .tc main_arg8) := by untouched_by c2
theorem keep2_arg9 : StableHlo.after (c2 (F := F)) W (Proc.devRef .tc main_arg9) = W (Proc.devRef .tc main_arg9) := by untouched_by c2
theorem keep2_arg10 : StableHlo.after (c2 (F := F)) W (Proc.devRef .tc main_arg10) = W (Proc.devRef .tc main_arg10) := by untouched_by c2
theorem keep2_arg11 : StableHlo.after (c2 (F := F)) W (Proc.devRef .tc main_arg11) = W (Proc.devRef .tc main_arg11) := by untouched_by c2
theorem keep2_arg12 : StableHlo.after (c2 (F := F)) W (Proc.devRef .tc main_arg12) = W (Proc.devRef .tc main_arg12) := by untouched_by c2
theorem keep2_arg13 : StableHlo.after (c2 (F := F)) W (Proc.devRef .tc main_arg13) = W (Proc.devRef .tc main_arg13) := by untouched_by c2
theorem keep3_arg4 : StableHlo.after (c3 (F := F)) W (Proc.devRef .tc main_arg4) = W (Proc.devRef .tc main_arg4) := by untouched_by c3
theorem keep3_arg0 : StableHlo.after (c3 (F := F)) W (Proc.devRef .tc main_arg0) = W (Proc.devRef .tc main_arg0) := by untouched_by c3
theorem keep3_v3 : StableHlo.after (c3 (F := F)) W (Proc.devRef .tc main_v3) = W (Proc.devRef .tc main_v3) := by untouched_by c3
theorem keep3_v6 : StableHlo.after (c3 (F := F)) W (Proc.devRef .tc main_v6) = W (Proc.devRef .tc main_v6) := by untouched_by c3
theorem keep3_arg6 : StableHlo.after (c3 (F := F)) W (Proc.devRef .tc main_arg6) = W (Proc.devRef .tc main_arg6) := by untouched_by c3
theorem keep3_arg7 : StableHlo.after (c3 (F := F)) W (Proc.devRef .tc main_arg7) = W (Proc.devRef .tc main_arg7) := by untouched_by c3
theorem keep3_arg5 : StableHlo.after (c3 (F := F)) W (Proc.devRef .tc main_arg5) = W (Proc.devRef .tc main_arg5) := by untouched_by c3
theorem keep3_arg8 : StableHlo.after (c3 (F := F)) W (Proc.devRef .tc main_arg8) = W (Proc.devRef .tc main_arg8) := by untouched_by c3
theorem keep3_arg9 : StableHlo.after (c3 (F := F)) W (Proc.devRef .tc main_arg9) = W (Proc.devRef .tc main_arg9) := by untouched_by c3
theorem keep3_arg10 : StableHlo.after (c3 (F := F)) W (Proc.devRef .tc main_arg10) = W (Proc.devRef .tc main_arg10) := by untouched_by c3
theorem keep3_arg11 : StableHlo.after (c3 (F := F)) W (Proc.devRef .tc main_arg11) = W (Proc.devRef .tc main_arg11) := by untouched_by c3
theorem keep3_arg12 : StableHlo.after (c3 (F := F)) W (Proc.devRef .tc main_arg12) = W (Proc.devRef .tc main_arg12) := by untouched_by c3
theorem keep3_arg13 : StableHlo.after (c3 (F := F)) W (Proc.devRef .tc main_arg13) = W (Proc.devRef .tc main_arg13) := by untouched_by c3
theorem keep4_v33 : StableHlo.after (c4 (F := F)) W (Proc.devRef .tc main_v33) = W (Proc.devRef .tc main_v33) := by untouched_by c4
theorem keep4_v3 : StableHlo.after (c4 (F := F)) W (Proc.devRef .tc main_v3) = W (Proc.devRef .tc main_v3) := by untouched_by c4
theorem keep4_v6 : StableHlo.after (c4 (F := F)) W (Proc.devRef .tc main_v6) = W (Proc.devRef .tc main_v6) := by untouched_by c4
theorem keep4_arg6 : StableHlo.after (c4 (F := F)) W (Proc.devRef .tc main_arg6) = W (Proc.devRef .tc main_arg6) := by untouched_by c4
theorem keep4_arg7 : StableHlo.after (c4 (F := F)) W (Proc.devRef .tc main_arg7) = W (Proc.devRef .tc main_arg7) := by untouched_by c4
theorem keep4_arg5 : StableHlo.after (c4 (F := F)) W (Proc.devRef .tc main_arg5) = W (Proc.devRef .tc main_arg5) := by untouched_by c4
theorem keep4_arg8 : StableHlo.after (c4 (F := F)) W (Proc.devRef .tc main_arg8) = W (Proc.devRef .tc main_arg8) := by untouched_by c4
theorem keep4_arg9 : StableHlo.after (c4 (F := F)) W (Proc.devRef .tc main_arg9) = W (Proc.devRef .tc main_arg9) := by untouched_by c4
theorem keep4_arg4 : StableHlo.after (c4 (F := F)) W (Proc.devRef .tc main_arg4) = W (Proc.devRef .tc main_arg4) := by untouched_by c4
theorem keep4_arg10 : StableHlo.after (c4 (F := F)) W (Proc.devRef .tc main_arg10) = W (Proc.devRef .tc main_arg10) := by untouched_by c4
theorem keep4_arg11 : StableHlo.after (c4 (F := F)) W (Proc.devRef .tc main_arg11) = W (Proc.devRef .tc main_arg11) := by untouched_by c4
theorem keep4_arg12 : StableHlo.after (c4 (F := F)) W (Proc.devRef .tc main_arg12) = W (Proc.devRef .tc main_arg12) := by untouched_by c4
theorem keep4_arg13 : StableHlo.after (c4 (F := F)) W (Proc.devRef .tc main_arg13) = W (Proc.devRef .tc main_arg13) := by untouched_by c4
theorem keep5_arg6 : StableHlo.after (c5 (F := F)) W (Proc.devRef .tc main_arg6) = W (Proc.devRef .tc main_arg6) := by untouched_by c5
theorem keep5_arg7 : StableHlo.after (c5 (F := F)) W (Proc.devRef .tc main_arg7) = W (Proc.devRef .tc main_arg7) := by untouched_by c5
theorem keep5_arg5 : StableHlo.after (c5 (F := F)) W (Proc.devRef .tc main_arg5) = W (Proc.devRef .tc main_arg5) := by untouched_by c5
theorem keep5_arg8 : StableHlo.after (c5 (F := F)) W (Proc.devRef .tc main_arg8) = W (Proc.devRef .tc main_arg8) := by untouched_by c5
theorem keep5_arg9 : StableHlo.after (c5 (F := F)) W (Proc.devRef .tc main_arg9) = W (Proc.devRef .tc main_arg9) := by untouched_by c5
theorem keep5_arg4 : StableHlo.after (c5 (F := F)) W (Proc.devRef .tc main_arg4) = W (Proc.devRef .tc main_arg4) := by untouched_by c5
theorem keep5_v33 : StableHlo.after (c5 (F := F)) W (Proc.devRef .tc main_v33) = W (Proc.devRef .tc main_v33) := by untouched_by c5
theorem keep5_v3 : StableHlo.after (c5 (F := F)) W (Proc.devRef .tc main_v3) = W (Proc.devRef .tc main_v3) := by untouched_by c5
theorem keep5_v6 : StableHlo.after (c5 (F := F)) W (Proc.devRef .tc main_v6) = W (Proc.devRef .tc main_v6) := by untouched_by c5
theorem keep5_arg10 : StableHlo.after (c5 (F := F)) W (Proc.devRef .tc main_arg10) = W (Proc.devRef .tc main_arg10) := by untouched_by c5
theorem keep5_arg11 : StableHlo.after (c5 (F := F)) W (Proc.devRef .tc main_arg11) = W (Proc.devRef .tc main_arg11) := by untouched_by c5
theorem keep5_arg12 : StableHlo.after (c5 (F := F)) W (Proc.devRef .tc main_arg12) = W (Proc.devRef .tc main_arg12) := by untouched_by c5
theorem keep5_arg13 : StableHlo.after (c5 (F := F)) W (Proc.devRef .tc main_arg13) = W (Proc.devRef .tc main_arg13) := by untouched_by c5
theorem keep6_arg8 : StableHlo.after (c6 (F := F)) W (Proc.devRef .tc main_arg8) = W (Proc.devRef .tc main_arg8) := by untouched_by c6
theorem keep6_arg9 : StableHlo.after (c6 (F := F)) W (Proc.devRef .tc main_arg9) = W (Proc.devRef .tc main_arg9) := by untouched_by c6
theorem keep6_arg4 : StableHlo.after (c6 (F := F)) W (Proc.devRef .tc main_arg4) = W (Proc.devRef .tc main_arg4) := by untouched_by c6
theorem keep6_v33 : StableHlo.after (c6 (F := F)) W (Proc.devRef .tc main_v33) = W (Proc.devRef .tc main_v33) := by untouched_by c6
theorem keep6_v3 : StableHlo.after (c6 (F := F)) W (Proc.devRef .tc main_v3) = W (Proc.devRef .tc main_v3) := by untouched_by c6
theorem keep6_v6 : StableHlo.after (c6 (F := F)) W (Proc.devRef .tc main_v6) = W (Proc.devRef .tc main_v6) := by untouched_by c6
theorem keep6_arg6 : StableHlo.after (c6 (F := F)) W (Proc.devRef .tc main_arg6) = W (Proc.devRef .tc main_arg6) := by untouched_by c6
theorem keep6_arg7 : StableHlo.after (c6 (F := F)) W (Proc.devRef .tc main_arg7) = W (Proc.devRef .tc main_arg7) := by untouched_by c6
theorem keep6_arg5 : StableHlo.after (c6 (F := F)) W (Proc.devRef .tc main_arg5) = W (Proc.devRef .tc main_arg5) := by untouched_by c6
theorem keep6_arg10 : StableHlo.after (c6 (F := F)) W (Proc.devRef .tc main_arg10) = W (Proc.devRef .tc main_arg10) := by untouched_by c6
theorem keep6_arg11 : StableHlo.after (c6 (F := F)) W (Proc.devRef .tc main_arg11) = W (Proc.devRef .tc main_arg11) := by untouched_by c6
theorem keep6_arg12 : StableHlo.after (c6 (F := F)) W (Proc.devRef .tc main_arg12) = W (Proc.devRef .tc main_arg12) := by untouched_by c6
theorem keep6_arg13 : StableHlo.after (c6 (F := F)) W (Proc.devRef .tc main_arg13) = W (Proc.devRef .tc main_arg13) := by untouched_by c6
theorem keep7_arg8 : StableHlo.after (c7 (F := F)) W (Proc.devRef .tc main_arg8) = W (Proc.devRef .tc main_arg8) := by untouched_by c7
theorem keep7_arg9 : StableHlo.after (c7 (F := F)) W (Proc.devRef .tc main_arg9) = W (Proc.devRef .tc main_arg9) := by untouched_by c7
theorem keep7_arg4 : StableHlo.after (c7 (F := F)) W (Proc.devRef .tc main_arg4) = W (Proc.devRef .tc main_arg4) := by untouched_by c7
theorem keep7_v33 : StableHlo.after (c7 (F := F)) W (Proc.devRef .tc main_v33) = W (Proc.devRef .tc main_v33) := by untouched_by c7
theorem keep7_v3 : StableHlo.after (c7 (F := F)) W (Proc.devRef .tc main_v3) = W (Proc.devRef .tc main_v3) := by untouched_by c7
theorem keep7_v6 : StableHlo.after (c7 (F := F)) W (Proc.devRef .tc main_v6) = W (Proc.devRef .tc main_v6) := by untouched_by c7
theorem keep7_arg6 : StableHlo.after (c7 (F := F)) W (Proc.devRef .tc main_arg6) = W (Proc.devRef .tc main_arg6) := by untouched_by c7
theorem keep7_arg7 : StableHlo.after (c7 (F := F)) W (Proc.devRef .tc main_arg7) = W (Proc.devRef .tc main_arg7) := by untouched_by c7
theorem keep7_arg5 : StableHlo.after (c7 (F := F)) W (Proc.devRef .tc main_arg5) = W (Proc.devRef .tc main_arg5) := by untouched_by c7
theorem keep7_arg10 : StableHlo.after (c7 (F := F)) W (Proc.devRef .tc main_arg10) = W (Proc.devRef .tc main_arg10) := by untouched_by c7
theorem keep7_arg11 : StableHlo.after (c7 (F := F)) W (Proc.devRef .tc main_arg11) = W (Proc.devRef .tc main_arg11) := by untouched_by c7
theorem keep7_arg12 : StableHlo.after (c7 (F := F)) W (Proc.devRef .tc main_arg12) = W (Proc.devRef .tc main_arg12) := by untouched_by c7
theorem keep7_arg13 : StableHlo.after (c7 (F := F)) W (Proc.devRef .tc main_arg13) = W (Proc.devRef .tc main_arg13) := by untouched_by c7
theorem keep8_v70 : StableHlo.after (c8 (F := F)) W (Proc.devRef .tc main_v70) = W (Proc.devRef .tc main_v70) := by untouched_by c8
theorem keep8_arg4 : StableHlo.after (c8 (F := F)) W (Proc.devRef .tc main_arg4) = W (Proc.devRef .tc main_arg4) := by untouched_by c8
theorem keep8_v33 : StableHlo.after (c8 (F := F)) W (Proc.devRef .tc main_v33) = W (Proc.devRef .tc main_v33) := by untouched_by c8
theorem keep8_v3 : StableHlo.after (c8 (F := F)) W (Proc.devRef .tc main_v3) = W (Proc.devRef .tc main_v3) := by untouched_by c8
theorem keep8_v6 : StableHlo.after (c8 (F := F)) W (Proc.devRef .tc main_v6) = W (Proc.devRef .tc main_v6) := by untouched_by c8
theorem keep8_arg6 : StableHlo.after (c8 (F := F)) W (Proc.devRef .tc main_arg6) = W (Proc.devRef .tc main_arg6) := by untouched_by c8
theorem keep8_arg7 : StableHlo.after (c8 (F := F)) W (Proc.devRef .tc main_arg7) = W (Proc.devRef .tc main_arg7) := by untouched_by c8
theorem keep8_arg5 : StableHlo.after (c8 (F := F)) W (Proc.devRef .tc main_arg5) = W (Proc.devRef .tc main_arg5) := by untouched_by c8
theorem keep8_arg8 : StableHlo.after (c8 (F := F)) W (Proc.devRef .tc main_arg8) = W (Proc.devRef .tc main_arg8) := by untouched_by c8
theorem keep8_arg9 : StableHlo.after (c8 (F := F)) W (Proc.devRef .tc main_arg9) = W (Proc.devRef .tc main_arg9) := by untouched_by c8
theorem keep8_arg10 : StableHlo.after (c8 (F := F)) W (Proc.devRef .tc main_arg10) = W (Proc.devRef .tc main_arg10) := by untouched_by c8
theorem keep8_arg11 : StableHlo.after (c8 (F := F)) W (Proc.devRef .tc main_arg11) = W (Proc.devRef .tc main_arg11) := by untouched_by c8
theorem keep8_arg12 : StableHlo.after (c8 (F := F)) W (Proc.devRef .tc main_arg12) = W (Proc.devRef .tc main_arg12) := by untouched_by c8
theorem keep8_arg13 : StableHlo.after (c8 (F := F)) W (Proc.devRef .tc main_arg13) = W (Proc.devRef .tc main_arg13) := by untouched_by c8
theorem keep9_v78 : StableHlo.after (c9 (F := F)) W (Proc.devRef .tc main_v78) = W (Proc.devRef .tc main_v78) := by untouched_by c9
theorem keep9_v70 : StableHlo.after (c9 (F := F)) W (Proc.devRef .tc main_v70) = W (Proc.devRef .tc main_v70) := by untouched_by c9
theorem keep9_v72 : StableHlo.after (c9 (F := F)) W (Proc.devRef .tc main_v72) = W (Proc.devRef .tc main_v72) := by untouched_by c9
theorem keep9_v74 : StableHlo.after (c9 (F := F)) W (Proc.devRef .tc main_v74) = W (Proc.devRef .tc main_v74) := by untouched_by c9
theorem keep9_arg4 : StableHlo.after (c9 (F := F)) W (Proc.devRef .tc main_arg4) = W (Proc.devRef .tc main_arg4) := by untouched_by c9
theorem keep9_v33 : StableHlo.after (c9 (F := F)) W (Proc.devRef .tc main_v33) = W (Proc.devRef .tc main_v33) := by untouched_by c9
theorem keep9_v3 : StableHlo.after (c9 (F := F)) W (Proc.devRef .tc main_v3) = W (Proc.devRef .tc main_v3) := by untouched_by c9
theorem keep9_v6 : StableHlo.after (c9 (F := F)) W (Proc.devRef .tc main_v6) = W (Proc.devRef .tc main_v6) := by untouched_by c9
theorem keep9_arg6 : StableHlo.after (c9 (F := F)) W (Proc.devRef .tc main_arg6) = W (Proc.devRef .tc main_arg6) := by untouched_by c9
theorem keep9_arg7 : StableHlo.after (c9 (F := F)) W (Proc.devRef .tc main_arg7) = W (Proc.devRef .tc main_arg7) := by untouched_by c9
theorem keep9_arg5 : StableHlo.after (c9 (F := F)) W (Proc.devRef .tc main_arg5) = W (Proc.devRef .tc main_arg5) := by untouched_by c9
theorem keep9_arg8 : StableHlo.after (c9 (F := F)) W (Proc.devRef .tc main_arg8) = W (Proc.devRef .tc main_arg8) := by untouched_by c9
theorem keep9_arg9 : StableHlo.after (c9 (F := F)) W (Proc.devRef .tc main_arg9) = W (Proc.devRef .tc main_arg9) := by untouched_by c9
theorem keep9_arg10 : StableHlo.after (c9 (F := F)) W (Proc.devRef .tc main_arg10) = W (Proc.devRef .tc main_arg10) := by untouched_by c9
theorem keep9_arg11 : StableHlo.after (c9 (F := F)) W (Proc.devRef .tc main_arg11) = W (Proc.devRef .tc main_arg11) := by untouched_by c9
theorem keep9_arg12 : StableHlo.after (c9 (F := F)) W (Proc.devRef .tc main_arg12) = W (Proc.devRef .tc main_arg12) := by untouched_by c9
theorem keep9_arg13 : StableHlo.after (c9 (F := F)) W (Proc.devRef .tc main_arg13) = W (Proc.devRef .tc main_arg13) := by untouched_by c9
theorem keep10_arg4 : StableHlo.after (c10 (F := F)) W (Proc.devRef .tc main_arg4) = W (Proc.devRef .tc main_arg4) := by untouched_by c10
theorem keep10_v33 : StableHlo.after (c10 (F := F)) W (Proc.devRef .tc main_v33) = W (Proc.devRef .tc main_v33) := by untouched_by c10
theorem keep10_v3 : StableHlo.after (c10 (F := F)) W (Proc.devRef .tc main_v3) = W (Proc.devRef .tc main_v3) := by untouched_by c10
theorem keep10_v6 : StableHlo.after (c10 (F := F)) W (Proc.devRef .tc main_v6) = W (Proc.devRef .tc main_v6) := by untouched_by c10
theorem keep10_arg6 : StableHlo.after (c10 (F := F)) W (Proc.devRef .tc main_arg6) = W (Proc.devRef .tc main_arg6) := by untouched_by c10
theorem keep10_arg7 : StableHlo.after (c10 (F := F)) W (Proc.devRef .tc main_arg7) = W (Proc.devRef .tc main_arg7) := by untouched_by c10
theorem keep10_arg5 : StableHlo.after (c10 (F := F)) W (Proc.devRef .tc main_arg5) = W (Proc.devRef .tc main_arg5) := by untouched_by c10
theorem keep10_arg8 : StableHlo.after (c10 (F := F)) W (Proc.devRef .tc main_arg8) = W (Proc.devRef .tc main_arg8) := by untouched_by c10
theorem keep10_arg9 : StableHlo.after (c10 (F := F)) W (Proc.devRef .tc main_arg9) = W (Proc.devRef .tc main_arg9) := by untouched_by c10
theorem keep10_arg10 : StableHlo.after (c10 (F := F)) W (Proc.devRef .tc main_arg10) = W (Proc.devRef .tc main_arg10) := by untouched_by c10
theorem keep10_arg11 : StableHlo.after (c10 (F := F)) W (Proc.devRef .tc main_arg11) = W (Proc.devRef .tc main_arg11) := by untouched_by c10
theorem keep10_arg12 : StableHlo.after (c10 (F := F)) W (Proc.devRef .tc main_arg12) = W (Proc.devRef .tc main_arg12) := by untouched_by c10
theorem keep10_arg13 : StableHlo.after (c10 (F := F)) W (Proc.devRef .tc main_arg13) = W (Proc.devRef .tc main_arg13) := by untouched_by c10
theorem keep11_v33 : StableHlo.after (c11 (F := F)) W (Proc.devRef .tc main_v33) = W (Proc.devRef .tc main_v33) := by untouched_by c11
theorem keep11_v3 : StableHlo.after (c11 (F := F)) W (Proc.devRef .tc main_v3) = W (Proc.devRef .tc main_v3) := by untouched_by c11
theorem keep11_v6 : StableHlo.after (c11 (F := F)) W (Proc.devRef .tc main_v6) = W (Proc.devRef .tc main_v6) := by untouched_by c11
theorem keep11_arg6 : StableHlo.after (c11 (F := F)) W (Proc.devRef .tc main_arg6) = W (Proc.devRef .tc main_arg6) := by untouched_by c11
theorem keep11_arg7 : StableHlo.after (c11 (F := F)) W (Proc.devRef .tc main_arg7) = W (Proc.devRef .tc main_arg7) := by untouched_by c11
theorem keep11_arg5 : StableHlo.after (c11 (F := F)) W (Proc.devRef .tc main_arg5) = W (Proc.devRef .tc main_arg5) := by untouched_by c11
theorem keep11_arg8 : StableHlo.after (c11 (F := F)) W (Proc.devRef .tc main_arg8) = W (Proc.devRef .tc main_arg8) := by untouched_by c11
theorem keep11_arg9 : StableHlo.after (c11 (F := F)) W (Proc.devRef .tc main_arg9) = W (Proc.devRef .tc main_arg9) := by untouched_by c11
theorem keep11_arg10 : StableHlo.after (c11 (F := F)) W (Proc.devRef .tc main_arg10) = W (Proc.devRef .tc main_arg10) := by untouched_by c11
theorem keep11_arg11 : StableHlo.after (c11 (F := F)) W (Proc.devRef .tc main_arg11) = W (Proc.devRef .tc main_arg11) := by untouched_by c11
theorem keep11_arg12 : StableHlo.after (c11 (F := F)) W (Proc.devRef .tc main_arg12) = W (Proc.devRef .tc main_arg12) := by untouched_by c11
theorem keep11_arg13 : StableHlo.after (c11 (F := F)) W (Proc.devRef .tc main_arg13) = W (Proc.devRef .tc main_arg13) := by untouched_by c11
theorem keep12_arg6 : StableHlo.after (c12 (F := F)) W (Proc.devRef .tc main_arg6) = W (Proc.devRef .tc main_arg6) := by untouched_by c12
theorem keep12_arg7 : StableHlo.after (c12 (F := F)) W (Proc.devRef .tc main_arg7) = W (Proc.devRef .tc main_arg7) := by untouched_by c12
theorem keep12_arg5 : StableHlo.after (c12 (F := F)) W (Proc.devRef .tc main_arg5) = W (Proc.devRef .tc main_arg5) := by untouched_by c12
theorem keep12_arg8 : StableHlo.after (c12 (F := F)) W (Proc.devRef .tc main_arg8) = W (Proc.devRef .tc main_arg8) := by untouched_by c12
theorem keep12_arg9 : StableHlo.after (c12 (F := F)) W (Proc.devRef .tc main_arg9) = W (Proc.devRef .tc main_arg9) := by untouched_by c12
theorem keep12_arg10 : StableHlo.after (c12 (F := F)) W (Proc.devRef .tc main_arg10) = W (Proc.devRef .tc main_arg10) := by untouched_by c12
theorem keep12_arg11 : StableHlo.after (c12 (F := F)) W (Proc.devRef .tc main_arg11) = W (Proc.devRef .tc main_arg11) := by untouched_by c12
theorem keep12_arg12 : StableHlo.after (c12 (F := F)) W (Proc.devRef .tc main_arg12) = W (Proc.devRef .tc main_arg12) := by untouched_by c12
theorem keep12_arg13 : StableHlo.after (c12 (F := F)) W (Proc.devRef .tc main_arg13) = W (Proc.devRef .tc main_arg13) := by untouched_by c12
theorem keep13_arg8 : StableHlo.after (c13 (F := F)) W (Proc.devRef .tc main_arg8) = W (Proc.devRef .tc main_arg8) := by untouched_by c13
theorem keep13_arg9 : StableHlo.after (c13 (F := F)) W (Proc.devRef .tc main_arg9) = W (Proc.devRef .tc main_arg9) := by untouched_by c13
theorem keep13_arg10 : StableHlo.after (c13 (F := F)) W (Proc.devRef .tc main_arg10) = W (Proc.devRef .tc main_arg10) := by untouched_by c13
theorem keep13_arg11 : StableHlo.after (c13 (F := F)) W (Proc.devRef .tc main_arg11) = W (Proc.devRef .tc main_arg11) := by untouched_by c13
theorem keep13_arg12 : StableHlo.after (c13 (F := F)) W (Proc.devRef .tc main_arg12) = W (Proc.devRef .tc main_arg12) := by untouched_by c13
theorem keep13_arg13 : StableHlo.after (c13 (F := F)) W (Proc.devRef .tc main_arg13) = W (Proc.devRef .tc main_arg13) := by untouched_by c13
theorem keep14_arg8 : StableHlo.after (c14 (F := F)) W (Proc.devRef .tc main_arg8) = W (Proc.devRef .tc main_arg8) := by untouched_by c14
theorem keep14_arg9 : StableHlo.after (c14 (F := F)) W (Proc.devRef .tc main_arg9) = W (Proc.devRef .tc main_arg9) := by untouched_by c14
theorem keep14_arg10 : StableHlo.after (c14 (F := F)) W (Proc.devRef .tc main_arg10) = W (Proc.devRef .tc main_arg10) := by untouched_by c14
theorem keep14_arg11 : StableHlo.after (c14 (F := F)) W (Proc.devRef .tc main_arg11) = W (Proc.devRef .tc main_arg11) := by untouched_by c14
theorem keep14_arg12 : StableHlo.after (c14 (F := F)) W (Proc.devRef .tc main_arg12) = W (Proc.devRef .tc main_arg12) := by untouched_by c14
theorem keep14_arg13 : StableHlo.after (c14 (F := F)) W (Proc.devRef .tc main_arg13) = W (Proc.devRef .tc main_arg13) := by untouched_by c14
theorem keep15_v135 : StableHlo.after (c15 (F := F)) W (Proc.devRef .tc main_v135) = W (Proc.devRef .tc main_v135) := by untouched_by c15
theorem keep15_arg10 : StableHlo.after (c15 (F := F)) W (Proc.devRef .tc main_arg10) = W (Proc.devRef .tc main_arg10) := by untouched_by c15
theorem keep15_arg11 : StableHlo.after (c15 (F := F)) W (Proc.devRef .tc main_arg11) = W (Proc.devRef .tc main_arg11) := by untouched_by c15
theorem keep15_arg12 : StableHlo.after (c15 (F := F)) W (Proc.devRef .tc main_arg12) = W (Proc.devRef .tc main_arg12) := by untouched_by c15
theorem keep15_arg13 : StableHlo.after (c15 (F := F)) W (Proc.devRef .tc main_arg13) = W (Proc.devRef .tc main_arg13) := by untouched_by c15
theorem keep16_v143 : StableHlo.after (c16 (F := F)) W (Proc.devRef .tc main_v143) = W (Proc.devRef .tc main_v143) := by untouched_by c16
theorem keep16_v135 : StableHlo.after (c16 (F := F)) W (Proc.devRef .tc main_v135) = W (Proc.devRef .tc main_v135) := by untouched_by c16
theorem keep16_v137 : StableHlo.after (c16 (F := F)) W (Proc.devRef .tc main_v137) = W (Proc.devRef .tc main_v137) := by untouched_by c16
theorem keep16_v139 : StableHlo.after (c16 (F := F)) W (Proc.devRef .tc main_v139) = W (Proc.devRef .tc main_v139) := by untouched_by c16
theorem keep16_arg10 : StableHlo.after (c16 (F := F)) W (Proc.devRef .tc main_arg10) = W (Proc.devRef .tc main_arg10) := by untouched_by c16
theorem keep16_arg11 : StableHlo.after (c16 (F := F)) W (Proc.devRef .tc main_arg11) = W (Proc.devRef .tc main_arg11) := by untouched_by c16
theorem keep16_arg12 : StableHlo.after (c16 (F := F)) W (Proc.devRef .tc main_arg12) = W (Proc.devRef .tc main_arg12) := by untouched_by c16
theorem keep16_arg13 : StableHlo.after (c16 (F := F)) W (Proc.devRef .tc main_arg13) = W (Proc.devRef .tc main_arg13) := by untouched_by c16
theorem keep17_arg10 : StableHlo.after (c17 (F := F)) W (Proc.devRef .tc main_arg10) = W (Proc.devRef .tc main_arg10) := by untouched_by c17
theorem keep17_arg11 : StableHlo.after (c17 (F := F)) W (Proc.devRef .tc main_arg11) = W (Proc.devRef .tc main_arg11) := by untouched_by c17
theorem keep17_arg12 : StableHlo.after (c17 (F := F)) W (Proc.devRef .tc main_arg12) = W (Proc.devRef .tc main_arg12) := by untouched_by c17
theorem keep17_arg13 : StableHlo.after (c17 (F := F)) W (Proc.devRef .tc main_arg13) = W (Proc.devRef .tc main_arg13) := by untouched_by c17

end Cert.ReferenceIdeal.RunP

end
-- ==== Proof.RPcA.lean ====
/-
  What the pieces of the reference program compute (pieces 1 to 6): read from ANY contents in which the buffers
  a piece reads hold the expected stages of the arguments, the piece's fold leaves the next stage in its result buffer —
  the piece's operations applied to those stages are, term for term, the stage's definition.
-/
import proofs.«123398_j55817394979003_2_alg».proof.Proof.RPieces
import proofs.«123398_j55817394979003_2_alg».proof.Proof.ReadP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP
open Cert.ReferenceIdeal.ReadP

variable {W : Valuation τ sig (Elt Ideal)}
variable {x0 : (⟨S100000x16, .f32⟩ : BufTy).Contents (Elt Ideal)} {x1 : (⟨S2x3200000, .i32⟩ : BufTy).Contents (Elt Ideal)} {x2 : (⟨S3200000, .f32⟩ : BufTy).Contents (Elt Ideal)} {x4 : (⟨S2x16x16, .f32⟩ : BufTy).Contents (Elt Ideal)} {x5 : (⟨S2x16, .f32⟩ : BufTy).Contents (Elt Ideal)} {x6 : (⟨S2x16x16, .f32⟩ : BufTy).Contents (Elt Ideal)} {x7 : (⟨S2x16, .f32⟩ : BufTy).Contents (Elt Ideal)} {x8 : (⟨S2x16, .f32⟩ : BufTy).Contents (Elt Ideal)} {x9 : (⟨S2x16, .f32⟩ : BufTy).Contents (Elt Ideal)} {x10 : (⟨S64x16, .f32⟩ : BufTy).Contents (Elt Ideal)} {x11 : (⟨S64, .f32⟩ : BufTy).Contents (Elt Ideal)} {x12 : (⟨S10x64, .f32⟩ : BufTy).Contents (Elt Ideal)} {x13 : (⟨S10, .f32⟩ : BufTy).Contents (Elt Ideal)}

/-- Piece 1 (the two index vectors and the edge weights with the self loops appended): from contents holding the stages it reads, it leaves this stage. -/
theorem pc0_v3 (h_arg1 : W (Proc.devRef .tc main_arg1) = x1) :
    StableHlo.after (c0 (F := Ideal)) W (Proc.devRef .tc main_v3) = val_main_v3 (F := Ideal) x1 := by
  dsimp only [c0]
  after_results
  rw [h_arg1]
  rfl

/-- Piece 1 (the two index vectors and the edge weights with the self loops appended): from contents holding the stages it reads, it leaves this stage. -/
theorem pc0_v6 (h_arg1 : W (Proc.devRef .tc main_arg1) = x1) :
    StableHlo.after (c0 (F := Ideal)) W (Proc.devRef .tc main_v6) = val_main_v6 (F := Ideal) x1 := by
  dsimp only [c0]
  after_results
  rw [h_arg1]
  rfl

/-- Piece 1 (the two index vectors and the edge weights with the self loops appended): from contents holding the stages it reads, it leaves this stage. -/
theorem pc0_v8 (h_arg2 : W (Proc.devRef .tc main_arg2) = x2) :
    StableHlo.after (c0 (F := Ideal)) W (Proc.devRef .tc main_v8) = val_main_v8 (F := Ideal) x2 := by
  dsimp only [c0]
  after_results
  rw [h_arg2]
  rfl

/-- Piece 2 (the weighted degree of every node): from contents holding the stages it reads, it leaves this stage. -/
theorem pc1_v11 (h_v6 : W (Proc.devRef .tc main_v6) = val_main_v6 (F := Ideal) x1) (h_v8 : W (Proc.devRef .tc main_v8) = val_main_v8 (F := Ideal) x2) :
    StableHlo.after (c1 (F := Ideal)) W (Proc.devRef .tc main_v11) = val_main_v11 (F := Ideal) x1 x2 := by
  dsimp only [c1]
  after_results_simp
  rw [h_v6, h_v8]
  rfl

/-- Piece 3 (its inverse square root where the degree is positive): from contents holding the stages it reads, it leaves this stage. -/
theorem pc2_v17 (h_v11 : W (Proc.devRef .tc main_v11) = val_main_v11 (F := Ideal) x1 x2) :
    StableHlo.after (c2 (F := Ideal)) W (Proc.devRef .tc main_v17) = val_main_v17 (F := Ideal) x1 x2 := by
  dsimp only [c2]
  after_results_simp
  rw [h_v11]
  have t_cst_3 : ∀ v : (⟨S_, .f32⟩ : BufTy).Contents (Elt Ideal), (TRef.of (sig := sig) (T := ⟨S_, .f32⟩) main_cst_3).toBuf v = v := fun _ => rfl
  have o_cst_3 : ∀ v : (⟨S_, .f32⟩ : BufTy).Contents (Elt Ideal), (TRef.of (sig := sig) (T := ⟨S_, .f32⟩) main_cst_3).ofBuf (Val := Elt Ideal) v = v := fun _ => rfl
  have t_call0_v0 : ∀ v : (⟨S_, .f32⟩ : BufTy).Contents (Elt Ideal), (TRef.of (sig := sig) (T := ⟨S_, .f32⟩) main_call0_v0).toBuf v = v := fun _ => rfl
  have o_call0_v0 : ∀ v : (⟨S_, .f32⟩ : BufTy).Contents (Elt Ideal), (TRef.of (sig := sig) (T := ⟨S_, .f32⟩) main_call0_v0).ofBuf (Val := Elt Ideal) v = v := fun _ => rfl
  have t_call0_v1 : ∀ v : (⟨S100000, .f32⟩ : BufTy).Contents (Elt Ideal), (TRef.of (sig := sig) (T := ⟨S100000, .f32⟩) main_call0_v1).toBuf v = v := fun _ => rfl
  have o_call0_v1 : ∀ v : (⟨S100000, .f32⟩ : BufTy).Contents (Elt Ideal), (TRef.of (sig := sig) (T := ⟨S100000, .f32⟩) main_call0_v1).ofBuf (Val := Elt Ideal) v = v := fun _ => rfl
  have t_v13 : ∀ v : (⟨S100000, .i1⟩ : BufTy).Contents (Elt Ideal), (TRef.of (sig := sig) (T := ⟨S100000, .i1⟩) main_v13).toBuf v = v := fun _ => rfl
  have o_v13 : ∀ v : (⟨S100000, .i1⟩ : BufTy).Contents (Elt Ideal), (TRef.of (sig := sig) (T := ⟨S100000, .i1⟩) main_v13).ofBuf (Val := Elt Ideal) v = v := fun _ => rfl
  have t_v16 : ∀ v : (⟨S100000, .f32⟩ : BufTy).Contents (Elt Ideal), (TRef.of (sig := sig) (T := ⟨S100000, .f32⟩) main_v16).toBuf v = v := fun _ => rfl
  have o_v16 : ∀ v : (⟨S100000, .f32⟩ : BufTy).Contents (Elt Ideal), (TRef.of (sig := sig) (T := ⟨S100000, .f32⟩) main_v16).ofBuf (Val := Elt Ideal) v = v := fun _ => rfl
  have t_v17 : ∀ v : (⟨S100000, .f32⟩ : BufTy).Contents (Elt Ideal), (TRef.of (sig := sig) (T := ⟨S100000, .f32⟩) main_v17).toBuf v = v := fun _ => rfl
  have o_v17 : ∀ v : (⟨S100000, .f32⟩ : BufTy).Contents (Elt Ideal), (TRef.of (sig := sig) (T := ⟨S100000, .f32⟩) main_v17).ofBuf (Val := Elt Ideal) v = v := fun _ => rfl
  simp only [t_cst_3, o_cst_3, t_call0_v0, o_call0_v0, t_call0_v1, o_call0_v1, t_v13, o_v13, t_v16, o_v16, t_v17, o_v17]
  rfl

/-- Piece 4 (the normalised edge weights): from contents holding the stages it reads, it leaves this stage. -/
theorem pc3_v33 (h_v17 : W (Proc.devRef .tc main_v17) = val_main_v17 (F := Ideal) x1 x2) (h_v3 : W (Proc.devRef .tc main_v3) = val_main_v3 (F := Ideal) x1) (h_v8 : W (Proc.devRef .tc main_v8) = val_main_v8 (F := Ideal) x2) (h_v6 : W (Proc.devRef .tc main_v6) = val_main_v6 (F := Ideal) x1) :
    StableHlo.after (c3 (F := Ideal)) W (Proc.devRef .tc main_v33) = val_main_v33 (F := Ideal) x1 x2 := by
  dsimp only [c3]
  after_results_simp
  rw [h_v17, h_v3, h_v8, h_v6]
  rfl

/-- Piece 5 (layer one's projection): from contents holding the stages it reads, it leaves this stage. -/
theorem pc4_v37 (h_arg0 : W (Proc.devRef .tc main_arg0) = x0) (h_arg4 : W (Proc.devRef .tc main_arg4) = x4) :
    StableHlo.after (c4 (F := Ideal)) W (Proc.devRef .tc main_v37) = val_main_v37 (F := Ideal) x0 x4 := by
  dsimp only [c4]
  after_results_simp
  rw [h_arg0, h_arg4]
  rfl

/-- Piece 6 (layer one's aggregation along the edges): from contents holding the stages it reads, it leaves this stage. -/
theorem pc5_v50 (h_v6 : W (Proc.devRef .tc main_v6) = val_main_v6 (F := Ideal) x1) (h_v33 : W (Proc.devRef .tc main_v33) = val_main_v33 (F := Ideal) x1 x2) (h_v37 : W (Proc.devRef .tc main_v37) = val_main_v37 (F := Ideal) x0 x4) (h_v3 : W (Proc.devRef .tc main_v3) = val_main_v3 (F := Ideal) x1) :
    StableHlo.after (c5 (F := Ideal)) W (Proc.devRef .tc main_v50) = val_main_v50 (F := Ideal) x0 x1 x2 x4 := by
  dsimp only [c5]
  after_results_simp
  rw [h_v6, h_v33, h_v37, h_v3]
  rfl

end Cert.ReferenceIdeal.RunP

end
-- ==== Proof.RPcB.lean ====
/-
  What the pieces of the reference program compute (pieces 7 to 11): read from ANY contents in which the buffers
  a piece reads hold the expected stages of the arguments, the piece's fold leaves the next stage in its result buffer —
  the piece's operations applied to those stages are, term for term, the stage's definition.
-/
import proofs.«123398_j55817394979003_2_alg».proof.Proof.RPieces
import proofs.«123398_j55817394979003_2_alg».proof.Proof.ReadP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP
open Cert.ReferenceIdeal.ReadP

variable {W : Valuation τ sig (Elt Ideal)}
variable {x0 : (⟨S100000x16, .f32⟩ : BufTy).Contents (Elt Ideal)} {x1 : (⟨S2x3200000, .i32⟩ : BufTy).Contents (Elt Ideal)} {x2 : (⟨S3200000, .f32⟩ : BufTy).Contents (Elt Ideal)} {x4 : (⟨S2x16x16, .f32⟩ : BufTy).Contents (Elt Ideal)} {x5 : (⟨S2x16, .f32⟩ : BufTy).Contents (Elt Ideal)} {x6 : (⟨S2x16x16, .f32⟩ : BufTy).Contents (Elt Ideal)} {x7 : (⟨S2x16, .f32⟩ : BufTy).Contents (Elt Ideal)} {x8 : (⟨S2x16, .f32⟩ : BufTy).Contents (Elt Ideal)} {x9 : (⟨S2x16, .f32⟩ : BufTy).Contents (Elt Ideal)} {x10 : (⟨S64x16, .f32⟩ : BufTy).Contents (Elt Ideal)} {x11 : (⟨S64, .f32⟩ : BufTy).Contents (Elt Ideal)} {x12 : (⟨S10x64, .f32⟩ : BufTy).Contents (Elt Ideal)} {x13 : (⟨S10, .f32⟩ : BufTy).Contents (Elt Ideal)}

/-- Piece 7 (layer one's affine map, tanh and bias): from contents holding the stages it reads, it leaves this stage. -/
theorem pc6_v65 (h_v50 : W (Proc.devRef .tc main_v50) = val_main_v50 (F := Ideal) x0 x1 x2 x4) (h_arg6 : W (Proc.devRef .tc main_arg6) = x6) (h_arg7 : W (Proc.devRef .tc main_arg7) = x7) (h_arg5 : W (Proc.devRef .tc main_arg5) = x5) :
    StableHlo.after (c6 (F := Ideal)) W (Proc.devRef .tc main_v65) = val_main_v65 (F := Ideal) x0 x1 x2 x4 x5 x6 x7 := by
  dsimp only [c6]
  after_results_simp
  rw [h_v50, h_arg6, h_arg7, h_arg5]
  rfl

/-- Piece 8 (its leaky rectifier): from contents holding the stages it reads, it leaves this stage. -/
theorem pc7_v70 (h_v65 : W (Proc.devRef .tc main_v65) = val_main_v65 (F := Ideal) x0 x1 x2 x4 x5 x6 x7) :
    StableHlo.after (c7 (F := Ideal)) W (Proc.devRef .tc main_v70) = val_main_v70 (F := Ideal) x0 x1 x2 x4 x5 x6 x7 := by
  dsimp only [c7]
  after_results_simp
  rw [h_v65]
  have t_v67 : ∀ v : (⟨S100000x16, .i1⟩ : BufTy).Contents (Elt Ideal), (TRef.of (sig := sig) (T := ⟨S100000x16, .i1⟩) main_v67).toBuf v = v := fun _ => rfl
  have o_v67 : ∀ v : (⟨S100000x16, .i1⟩ : BufTy).Contents (Elt Ideal), (TRef.of (sig := sig) (T := ⟨S100000x16, .i1⟩) main_v67).ofBuf (Val := Elt Ideal) v = v := fun _ => rfl
  have t_v65 : ∀ v : (⟨S100000x16, .f32⟩ : BufTy).Contents (Elt Ideal), (TRef.of (sig := sig) (T := ⟨S100000x16, .f32⟩) main_v65).toBuf v = v := fun _ => rfl
  have o_v65 : ∀ v : (⟨S100000x16, .f32⟩ : BufTy).Contents (Elt Ideal), (TRef.of (sig := sig) (T := ⟨S100000x16, .f32⟩) main_v65).ofBuf (Val := Elt Ideal) v = v := fun _ => rfl
  have t_v69 : ∀ v : (⟨S100000x16, .f32⟩ : BufTy).Contents (Elt Ideal), (TRef.of (sig := sig) (T := ⟨S100000x16, .f32⟩) main_v69).toBuf v = v := fun _ => rfl
  have o_v69 : ∀ v : (⟨S100000x16, .f32⟩ : BufTy).Contents (Elt Ideal), (TRef.of (sig := sig) (T := ⟨S100000x16, .f32⟩) main_v69).ofBuf (Val := Elt Ideal) v = v := fun _ => rfl
  have t_v70 : ∀ v : (⟨S100000x16, .f32⟩ : BufTy).Contents (Elt Ideal), (TRef.of (sig := sig) (T := ⟨S100000x16, .f32⟩) main_v70).toBuf v = v := fun _ => rfl
  have o_v70 : ∀ v : (⟨S100000x16, .f32⟩ : BufTy).Contents (Elt Ideal), (TRef.of (sig := sig) (T := ⟨S100000x16, .f32⟩) main_v70).ofBuf (Val := Elt Ideal) v = v := fun _ => rfl
  simp only [t_v67, o_v67, t_v65, o_v65, t_v69, o_v69, t_v70, o_v70]
  rfl

/-- Piece 9 (the row means (and the gain and offset vectors cut out)): from contents holding the stages it reads, it leaves this stage. -/
theorem pc8_v72 (h_arg8 : W (Proc.devRef .tc main_arg8) = x8) :
    StableHlo.after (c8 (F := Ideal)) W (Proc.devRef .tc main_v72) = val_main_v72 (F := Ideal) x8 := by
  dsimp only [c8]
  after_results_simp
  rw [h_arg8]
  rfl

/-- Piece 9 (the row means (and the gain and offset vectors cut out)): from contents holding the stages it reads, it leaves this stage. -/
theorem pc8_v74 (h_arg9 : W (Proc.devRef .tc main_arg9) = x9) :
    StableHlo.after (c8 (F := Ideal)) W (Proc.devRef .tc main_v74) = val_main_v74 (F := Ideal) x9 := by
  dsimp only [c8]
  after_results_simp
  rw [h_arg9]
  rfl

/-- Piece 9 (the row means (and the gain and offset vectors cut out)): from contents holding the stages it reads, it leaves this stage. -/
theorem pc8_v78 (h_v70 : W (Proc.devRef .tc main_v70) = val_main_v70 (F := Ideal) x0 x1 x2 x4 x5 x6 x7) :
    StableHlo.after (c8 (F := Ideal)) W (Proc.devRef .tc main_v78) = val_main_v78 (F := Ideal) x0 x1 x2 x4 x5 x6 x7 := by
  dsimp only [c8]
  after_results_simp
  rw [h_v70]
  rfl

/-- Piece 10 (the centred rows): from contents holding the stages it reads, it leaves this stage. -/
theorem pc9_v80 (h_v70 : W (Proc.devRef .tc main_v70) = val_main_v70 (F := Ideal) x0 x1 x2 x4 x5 x6 x7) (h_v78 : W (Proc.devRef .tc main_v78) = val_main_v78 (F := Ideal) x0 x1 x2 x4 x5 x6 x7) :
    StableHlo.after (c9 (F := Ideal)) W (Proc.devRef .tc main_v80) = val_main_v80 (F := Ideal) x0 x1 x2 x4 x5 x6 x7 := by
  dsimp only [c9]
  after_results_simp
  rw [h_v70, h_v78]
  rfl

/-- Piece 11 (layer one's normalisation, gain and offset): from contents holding the stages it reads, it leaves this stage. -/
theorem pc10_v98 (h_v70 : W (Proc.devRef .tc main_v70) = val_main_v70 (F := Ideal) x0 x1 x2 x4 x5 x6 x7) (h_v78 : W (Proc.devRef .tc main_v78) = val_main_v78 (F := Ideal) x0 x1 x2 x4 x5 x6 x7) (h_v80 : W (Proc.devRef .tc main_v80) = val_main_v80 (F := Ideal) x0 x1 x2 x4 x5 x6 x7) (h_v72 : W (Proc.devRef .tc main_v72) = val_main_v72 (F := Ideal) x8) (h_v74 : W (Proc.devRef .tc main_v74) = val_main_v74 (F := Ideal) x9) :
    StableHlo.after (c10 (F := Ideal)) W (Proc.devRef .tc main_v98) = val_main_v98 (F := Ideal) x0 x1 x2 x4 x5 x6 x7 x8 x9 := by
  dsimp only [c10]
  after_results_simp
  rw [h_v70, h_v78, h_v80, h_v72, h_v74]
  rfl

end Cert.ReferenceIdeal.RunP

end
-- ==== Proof.RPcC.lean ====
/-
  What the pieces of the reference program compute (pieces 12 to 18): read from ANY contents in which the buffers
  a piece reads hold the expected stages of the arguments, the piece's fold leaves the next stage in its result buffer —
  the piece's operations applied to those stages are, term for term, the stage's definition.
-/
import proofs.«123398_j55817394979003_2_alg».proof.Proof.RPieces
import proofs.«123398_j55817394979003_2_alg».proof.Proof.ReadP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP
open Cert.ReferenceIdeal.ReadP

variable {W : Valuation τ sig (Elt Ideal)}
variable {x0 : (⟨S100000x16, .f32⟩ : BufTy).Contents (Elt Ideal)} {x1 : (⟨S2x3200000, .i32⟩ : BufTy).Contents (Elt Ideal)} {x2 : (⟨S3200000, .f32⟩ : BufTy).Contents (Elt Ideal)} {x4 : (⟨S2x16x16, .f32⟩ : BufTy).Contents (Elt Ideal)} {x5 : (⟨S2x16, .f32⟩ : BufTy).Contents (Elt Ideal)} {x6 : (⟨S2x16x16, .f32⟩ : BufTy).Contents (Elt Ideal)} {x7 : (⟨S2x16, .f32⟩ : BufTy).Contents (Elt Ideal)} {x8 : (⟨S2x16, .f32⟩ : BufTy).Contents (Elt Ideal)} {x9 : (⟨S2x16, .f32⟩ : BufTy).Contents (Elt Ideal)} {x10 : (⟨S64x16, .f32⟩ : BufTy).Contents (Elt Ideal)} {x11 : (⟨S64, .f32⟩ : BufTy).Contents (Elt Ideal)} {x12 : (⟨S10x64, .f32⟩ : BufTy).Contents (Elt Ideal)} {x13 : (⟨S10, .f32⟩ : BufTy).Contents (Elt Ideal)}

/-- Piece 12 (layer two's projection): from contents holding the stages it reads, it leaves this stage. -/
theorem pc11_v102 (h_v98 : W (Proc.devRef .tc main_v98) = val_main_v98 (F := Ideal) x0 x1 x2 x4 x5 x6 x7 x8 x9) (h_arg4 : W (Proc.devRef .tc main_arg4) = x4) :
    StableHlo.after (c11 (F := Ideal)) W (Proc.devRef .tc main_v102) = val_main_v102 (F := Ideal) x0 x1 x2 x4 x5 x6 x7 x8 x9 := by
  dsimp only [c11]
  after_results_simp
  rw [h_v98, h_arg4]
  rfl

/-- Piece 13 (layer two's aggregation along the edges): from contents holding the stages it reads, it leaves this stage. -/
theorem pc12_v115 (h_v6 : W (Proc.devRef .tc main_v6) = val_main_v6 (F := Ideal) x1) (h_v33 : W (Proc.devRef .tc main_v33) = val_main_v33 (F := Ideal) x1 x2) (h_v102 : W (Proc.devRef .tc main_v102) = val_main_v102 (F := Ideal) x0 x1 x2 x4 x5 x6 x7 x8 x9) (h_v3 : W (Proc.devRef .tc main_v3) = val_main_v3 (F := Ideal) x1) :
    StableHlo.after (c12 (F := Ideal)) W (Proc.devRef .tc main_v115) = val_main_v115 (F := Ideal) x0 x1 x2 x4 x5 x6 x7 x8 x9 := by
  dsimp only [c12]
  after_results_simp
  rw [h_v6, h_v33, h_v102, h_v3]
  rfl

/-- Piece 14 (layer two's affine map, tanh and bias): from contents holding the stages it reads, it leaves this stage. -/
theorem pc13_v130 (h_v115 : W (Proc.devRef .tc main_v115) = val_main_v115 (F := Ideal) x0 x1 x2 x4 x5 x6 x7 x8 x9) (h_arg6 : W (Proc.devRef .tc main_arg6) = x6) (h_arg7 : W (Proc.devRef .tc main_arg7) = x7) (h_arg5 : W (Proc.devRef .tc main_arg5) = x5) :
    StableHlo.after (c13 (F := Ideal)) W (Proc.devRef .tc main_v130) = val_main_v130 (F := Ideal) x0 x1 x2 x4 x5 x6 x7 x8 x9 := by
  dsimp only [c13]
  after_results_simp
  rw [h_v115, h_arg6, h_arg7, h_arg5]
  rfl

/-- Piece 15 (its leaky rectifier): from contents holding the stages it reads, it leaves this stage. -/
theorem pc14_v135 (h_v130 : W (Proc.devRef .tc main_v130) = val_main_v130 (F := Ideal) x0 x1 x2 x4 x5 x6 x7 x8 x9) :
    StableHlo.after (c14 (F := Ideal)) W (Proc.devRef .tc main_v135) = val_main_v135 (F := Ideal) x0 x1 x2 x4 x5 x6 x7 x8 x9 := by
  dsimp only [c14]
  after_results_simp
  rw [h_v130]
  have t_v132 : ∀ v : (⟨S100000x16, .i1⟩ : BufTy).Contents (Elt Ideal), (TRef.of (sig := sig) (T := ⟨S100000x16, .i1⟩) main_v132).toBuf v = v := fun _ => rfl
  have o_v132 : ∀ v : (⟨S100000x16, .i1⟩ : BufTy).Contents (Elt Ideal), (TRef.of (sig := sig) (T := ⟨S100000x16, .i1⟩) main_v132).ofBuf (Val := Elt Ideal) v = v := fun _ => rfl
  have t_v130 : ∀ v : (⟨S100000x16, .f32⟩ : BufTy).Contents (Elt Ideal), (TRef.of (sig := sig) (T := ⟨S100000x16, .f32⟩) main_v130).toBuf v = v := fun _ => rfl
  have o_v130 : ∀ v : (⟨S100000x16, .f32⟩ : BufTy).Contents (Elt Ideal), (TRef.of (sig := sig) (T := ⟨S100000x16, .f32⟩) main_v130).ofBuf (Val := Elt Ideal) v = v := fun _ => rfl
  have t_v134 : ∀ v : (⟨S100000x16, .f32⟩ : BufTy).Contents (Elt Ideal), (TRef.of (sig := sig) (T := ⟨S100000x16, .f32⟩) main_v134).toBuf v = v := fun _ => rfl
  have o_v134 : ∀ v : (⟨S100000x16, .f32⟩ : BufTy).Contents (Elt Ideal), (TRef.of (sig := sig) (T := ⟨S100000x16, .f32⟩) main_v134).ofBuf (Val := Elt Ideal) v = v := fun _ => rfl
  have t_v135 : ∀ v : (⟨S100000x16, .f32⟩ : BufTy).Contents (Elt Ideal), (TRef.of (sig := sig) (T := ⟨S100000x16, .f32⟩) main_v135).toBuf v = v := fun _ => rfl
  have o_v135 : ∀ v : (⟨S100000x16, .f32⟩ : BufTy).Contents (Elt Ideal), (TRef.of (sig := sig) (T := ⟨S100000x16, .f32⟩) main_v135).ofBuf (Val := Elt Ideal) v = v := fun _ => rfl
  simp only [t_v132, o_v132, t_v130, o_v130, t_v134, o_v134, t_v135, o_v135]
  rfl

/-- Piece 16 (the row means (and the gain and offset vectors cut out)): from contents holding the stages it reads, it leaves this stage. -/
theorem pc15_v137 (h_arg8 : W (Proc.devRef .tc main_arg8) = x8) :
    StableHlo.after (c15 (F := Ideal)) W (Proc.devRef .tc main_v137) = val_main_v137 (F := Ideal) x8 := by
  dsimp only [c15]
  after_results_simp
  rw [h_arg8]
  rfl

/-- Piece 16 (the row means (and the gain and offset vectors cut out)): from contents holding the stages it reads, it leaves this stage. -/
theorem pc15_v139 (h_arg9 : W (Proc.devRef .tc main_arg9) = x9) :
    StableHlo.after (c15 (F := Ideal)) W (Proc.devRef .tc main_v139) = val_main_v139 (F := Ideal) x9 := by
  dsimp only [c15]
  after_results_simp
  rw [h_arg9]
  rfl

/-- Piece 16 (the row means (and the gain and offset vectors cut out)): from contents holding the stages it reads, it leaves this stage. -/
theorem pc15_v143 (h_v135 : W (Proc.devRef .tc main_v135) = val_main_v135 (F := Ideal) x0 x1 x2 x4 x5 x6 x7 x8 x9) :
    StableHlo.after (c15 (F := Ideal)) W (Proc.devRef .tc main_v143) = val_main_v143 (F := Ideal) x0 x1 x2 x4 x5 x6 x7 x8 x9 := by
  dsimp only [c15]
  after_results_simp
  rw [h_v135]
  rfl

/-- Piece 17 (the centred rows): from contents holding the stages it reads, it leaves this stage. -/
theorem pc16_v145 (h_v135 : W (Proc.devRef .tc main_v135) = val_main_v135 (F := Ideal) x0 x1 x2 x4 x5 x6 x7 x8 x9) (h_v143 : W (Proc.devRef .tc main_v143) = val_main_v143 (F := Ideal) x0 x1 x2 x4 x5 x6 x7 x8 x9) :
    StableHlo.after (c16 (F := Ideal)) W (Proc.devRef .tc main_v145) = val_main_v145 (F := Ideal) x0 x1 x2 x4 x5 x6 x7 x8 x9 := by
  dsimp only [c16]
  after_results_simp
  rw [h_v135, h_v143]
  rfl

/-- Piece 18 (layer two's normalisation, gain and offset): from contents holding the stages it reads, it leaves this stage. -/
theorem pc17_v163 (h_v135 : W (Proc.devRef .tc main_v135) = val_main_v135 (F := Ideal) x0 x1 x2 x4 x5 x6 x7 x8 x9) (h_v143 : W (Proc.devRef .tc main_v143) = val_main_v143 (F := Ideal) x0 x1 x2 x4 x5 x6 x7 x8 x9) (h_v145 : W (Proc.devRef .tc main_v145) = val_main_v145 (F := Ideal) x0 x1 x2 x4 x5 x6 x7 x8 x9) (h_v137 : W (Proc.devRef .tc main_v137) = val_main_v137 (F := Ideal) x8) (h_v139 : W (Proc.devRef .tc main_v139) = val_main_v139 (F := Ideal) x9) :
    StableHlo.after (c17 (F := Ideal)) W (Proc.devRef .tc main_v163) = val_main_v163 (F := Ideal) x0 x1 x2 x4 x5 x6 x7 x8 x9 := by
  dsimp only [c17]
  after_results_simp
  rw [h_v135, h_v143, h_v145, h_v137, h_v139]
  rfl

end Cert.ReferenceIdeal.RunP

end
-- ==== Proof.RPcD.lean ====
/-
  What the pieces of the reference program compute (pieces 19 to 19): read from ANY contents in which the buffers
  a piece reads hold the expected stages of the arguments, the piece's fold leaves the next stage in its result buffer —
  the piece's operations applied to those stages are, term for term, the stage's definition.
-/
import proofs.«123398_j55817394979003_2_alg».proof.Proof.RPieces
import proofs.«123398_j55817394979003_2_alg».proof.Proof.ReadP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP
open Cert.ReferenceIdeal.ReadP

variable {W : Valuation τ sig (Elt Ideal)}
variable {x0 : (⟨S100000x16, .f32⟩ : BufTy).Contents (Elt Ideal)} {x1 : (⟨S2x3200000, .i32⟩ : BufTy).Contents (Elt Ideal)} {x2 : (⟨S3200000, .f32⟩ : BufTy).Contents (Elt Ideal)} {x4 : (⟨S2x16x16, .f32⟩ : BufTy).Contents (Elt Ideal)} {x5 : (⟨S2x16, .f32⟩ : BufTy).Contents (Elt Ideal)} {x6 : (⟨S2x16x16, .f32⟩ : BufTy).Contents (Elt Ideal)} {x7 : (⟨S2x16, .f32⟩ : BufTy).Contents (Elt Ideal)} {x8 : (⟨S2x16, .f32⟩ : BufTy).Contents (Elt Ideal)} {x9 : (⟨S2x16, .f32⟩ : BufTy).Contents (Elt Ideal)} {x10 : (⟨S64x16, .f32⟩ : BufTy).Contents (Elt Ideal)} {x11 : (⟨S64, .f32⟩ : BufTy).Contents (Elt Ideal)} {x12 : (⟨S10x64, .f32⟩ : BufTy).Contents (Elt Ideal)} {x13 : (⟨S10, .f32⟩ : BufTy).Contents (Elt Ideal)}

/-- Piece 19 (the classifier): from contents holding the stages it reads, it leaves this stage. -/
theorem pc18_v174 (h_v163 : W (Proc.devRef .tc main_v163) = val_main_v163 (F := Ideal) x0 x1 x2 x4 x5 x6 x7 x8 x9) (h_arg10 : W (Proc.devRef .tc main_arg10) = x10) (h_arg11 : W (Proc.devRef .tc main_arg11) = x11) (h_arg12 : W (Proc.devRef .tc main_arg12) = x12) (h_arg13 : W (Proc.devRef .tc main_arg13) = x13) :
    StableHlo.after (c18 (F := Ideal)) W (Proc.devRef .tc main_v174) = val_main_v174 (F := Ideal) x0 x1 x2 x4 x5 x6 x7 x8 x9 x10 x11 x12 x13 := by
  dsimp only [c18]
  after_results_simp
  rw [h_v163, h_arg10, h_arg11, h_arg12, h_arg13]
  have t_call3_cst : ∀ v : (⟨S_, .f32⟩ : BufTy).Contents (Elt Ideal), (TRef.of (sig := sig) (T := ⟨S_, .f32⟩) main_call3_cst).toBuf v = v := fun _ => rfl
  have o_call3_cst : ∀ v : (⟨S_, .f32⟩ : BufTy).Contents (Elt Ideal), (TRef.of (sig := sig) (T := ⟨S_, .f32⟩) main_call3_cst).ofBuf (Val := Elt Ideal) v = v := fun _ => rfl
  have t_call3_v0 : ∀ v : (⟨S100000x64, .f32⟩ : BufTy).Contents (Elt Ideal), (TRef.of (sig := sig) (T := ⟨S100000x64, .f32⟩) main_call3_v0).toBuf v = v := fun _ => rfl
  have o_call3_v0 : ∀ v : (⟨S100000x64, .f32⟩ : BufTy).Contents (Elt Ideal), (TRef.of (sig := sig) (T := ⟨S100000x64, .f32⟩) main_call3_v0).ofBuf (Val := Elt Ideal) v = v := fun _ => rfl
  have t_v168 : ∀ v : (⟨S100000x64, .f32⟩ : BufTy).Contents (Elt Ideal), (TRef.of (sig := sig) (T := ⟨S100000x64, .f32⟩) main_v168).toBuf v = v := fun _ => rfl
  have o_v168 : ∀ v : (⟨S100000x64, .f32⟩ : BufTy).Contents (Elt Ideal), (TRef.of (sig := sig) (T := ⟨S100000x64, .f32⟩) main_v168).ofBuf (Val := Elt Ideal) v = v := fun _ => rfl
  have t_v169 : ∀ v : (⟨S100000x64, .f32⟩ : BufTy).Contents (Elt Ideal), (TRef.of (sig := sig) (T := ⟨S100000x64, .f32⟩) main_v169).toBuf v = v := fun _ => rfl
  have o_v169 : ∀ v : (⟨S100000x64, .f32⟩ : BufTy).Contents (Elt Ideal), (TRef.of (sig := sig) (T := ⟨S100000x64, .f32⟩) main_v169).ofBuf (Val := Elt Ideal) v = v := fun _ => rfl
  simp only [t_call3_cst, o_call3_cst, t_call3_v0, o_call3_v0, t_v168, o_v168, t_v169, o_v169]
  rfl

end Cert.ReferenceIdeal.RunP

end
-- ==== Proof.RRunAll.lean ====
/-
  The reference program's pieces, chained from the launch contents. The contents after each piece are named; at each
  level the facts the later pieces need are listed — a value just computed comes from its piece, every other one is
  carried across the piece, which leaves it alone — and the whole line's fold at the result buffer is the last stage
  of the arguments. With the run of a straight line of host operations this reads the reference's result off every
  execution.
-/
import proofs.«123398_j55817394979003_2_alg».proof.Proof.RKeepP
import proofs.«123398_j55817394979003_2_alg».proof.Proof.RPcA
import proofs.«123398_j55817394979003_2_alg».proof.Proof.RPcB
import proofs.«123398_j55817394979003_2_alg».proof.Proof.RPcC
import proofs.«123398_j55817394979003_2_alg».proof.Proof.RPcD

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP
open Cert.ReferenceIdeal.ReadP

variable (m : (ℓ : Loc nD τ sig) → Buf (Elt Ideal) ℓ) (d : Dev nD)

/-! ## The contents after each piece -/
/-- The buffers' contents after the first 1 piece. -/
def U1 : Valuation τ sig (Elt Ideal) := StableHlo.after (c0 (F := Ideal)) (launchContents m d)
/-- The buffers' contents after the first 2 pieces. -/
def U2 : Valuation τ sig (Elt Ideal) := StableHlo.after (c1 (F := Ideal)) (U1 m d)
/-- The buffers' contents after the first 3 pieces. -/
def U3 : Valuation τ sig (Elt Ideal) := StableHlo.after (c2 (F := Ideal)) (U2 m d)
/-- The buffers' contents after the first 4 pieces. -/
def U4 : Valuation τ sig (Elt Ideal) := StableHlo.after (c3 (F := Ideal)) (U3 m d)
/-- The buffers' contents after the first 5 pieces. -/
def U5 : Valuation τ sig (Elt Ideal) := StableHlo.after (c4 (F := Ideal)) (U4 m d)
/-- The buffers' contents after the first 6 pieces. -/
def U6 : Valuation τ sig (Elt Ideal) := StableHlo.after (c5 (F := Ideal)) (U5 m d)
/-- The buffers' contents after the first 7 pieces. -/
def U7 : Valuation τ sig (Elt Ideal) := StableHlo.after (c6 (F := Ideal)) (U6 m d)
/-- The buffers' contents after the first 8 pieces. -/
def U8 : Valuation τ sig (Elt Ideal) := StableHlo.after (c7 (F := Ideal)) (U7 m d)
/-- The buffers' contents after the first 9 pieces. -/
def U9 : Valuation τ sig (Elt Ideal) := StableHlo.after (c8 (F := Ideal)) (U8 m d)
/-- The buffers' contents after the first 10 pieces. -/
def U10 : Valuation τ sig (Elt Ideal) := StableHlo.after (c9 (F := Ideal)) (U9 m d)
/-- The buffers' contents after the first 11 pieces. -/
def U11 : Valuation τ sig (Elt Ideal) := StableHlo.after (c10 (F := Ideal)) (U10 m d)
/-- The buffers' contents after the first 12 pieces. -/
def U12 : Valuation τ sig (Elt Ideal) := StableHlo.after (c11 (F := Ideal)) (U11 m d)
/-- The buffers' contents after the first 13 pieces. -/
def U13 : Valuation τ sig (Elt Ideal) := StableHlo.after (c12 (F := Ideal)) (U12 m d)
/-- The buffers' contents after the first 14 pieces. -/
def U14 : Valuation τ sig (Elt Ideal) := StableHlo.after (c13 (F := Ideal)) (U13 m d)
/-- The buffers' contents after the first 15 pieces. -/
def U15 : Valuation τ sig (Elt Ideal) := StableHlo.after (c14 (F := Ideal)) (U14 m d)
/-- The buffers' contents after the first 16 pieces. -/
def U16 : Valuation τ sig (Elt Ideal) := StableHlo.after (c15 (F := Ideal)) (U15 m d)
/-- The buffers' contents after the first 17 pieces. -/
def U17 : Valuation τ sig (Elt Ideal) := StableHlo.after (c16 (F := Ideal)) (U16 m d)
/-- The buffers' contents after the first 18 pieces. -/
def U18 : Valuation τ sig (Elt Ideal) := StableHlo.after (c17 (F := Ideal)) (U17 m d)
/-- The buffers' contents after the first 19 pieces. -/
def U19 : Valuation τ sig (Elt Ideal) := StableHlo.after (c18 (F := Ideal)) (U18 m d)

/-! ## After piece 1: the two index vectors and the edge weights with the self loops appended -/
theorem U1_v6 : U1 m d (Proc.devRef .tc main_v6) = val_main_v6 (F := Ideal) (m ((d.tc : Thread nD τ).loc main_arg1)) := by
  unfold U1
  exact pc0_v6 (rfl : launchContents m d (Proc.devRef .tc main_arg1) = (m ((d.tc : Thread nD τ).loc main_arg1)))
theorem U1_v8 : U1 m d (Proc.devRef .tc main_v8) = val_main_v8 (F := Ideal) (m ((d.tc : Thread nD τ).loc main_arg2)) := by
  unfold U1
  exact pc0_v8 (rfl : launchContents m d (Proc.devRef .tc main_arg2) = (m ((d.tc : Thread nD τ).loc main_arg2)))
theorem U1_v3 : U1 m d (Proc.devRef .tc main_v3) = val_main_v3 (F := Ideal) (m ((d.tc : Thread nD τ).loc main_arg1)) := by
  unfold U1
  exact pc0_v3 (rfl : launchContents m d (Proc.devRef .tc main_arg1) = (m ((d.tc : Thread nD τ).loc main_arg1)))
theorem U1_arg4 : U1 m d (Proc.devRef .tc main_arg4) = (m ((d.tc : Thread nD τ).loc main_arg4)) := (keep0_arg4 (W := (launchContents m d))).trans (rfl : launchContents m d (Proc.devRef .tc main_arg4) = (m ((d.tc : Thread nD τ).loc main_arg4)))
theorem U1_arg0 : U1 m d (Proc.devRef .tc main_arg0) = (m ((d.tc : Thread nD τ).loc main_arg0)) := (keep0_arg0 (W := (launchContents m d))).trans (rfl : launchContents m d (Proc.devRef .tc main_arg0) = (m ((d.tc : Thread nD τ).loc main_arg0)))
theorem U1_arg6 : U1 m d (Proc.devRef .tc main_arg6) = (m ((d.tc : Thread nD τ).loc main_arg6)) := (keep0_arg6 (W := (launchContents m d))).trans (rfl : launchContents m d (Proc.devRef .tc main_arg6) = (m ((d.tc : Thread nD τ).loc main_arg6)))
theorem U1_arg7 : U1 m d (Proc.devRef .tc main_arg7) = (m ((d.tc : Thread nD τ).loc main_arg7)) := (keep0_arg7 (W := (launchContents m d))).trans (rfl : launchContents m d (Proc.devRef .tc main_arg7) = (m ((d.tc : Thread nD τ).loc main_arg7)))
theorem U1_arg5 : U1 m d (Proc.devRef .tc main_arg5) = (m ((d.tc : Thread nD τ).loc main_arg5)) := (keep0_arg5 (W := (launchContents m d))).trans (rfl : launchContents m d (Proc.devRef .tc main_arg5) = (m ((d.tc : Thread nD τ).loc main_arg5)))
theorem U1_arg8 : U1 m d (Proc.devRef .tc main_arg8) = (m ((d.tc : Thread nD τ).loc main_arg8)) := (keep0_arg8 (W := (launchContents m d))).trans (rfl : launchContents m d (Proc.devRef .tc main_arg8) = (m ((d.tc : Thread nD τ).loc main_arg8)))
theorem U1_arg9 : U1 m d (Proc.devRef .tc main_arg9) = (m ((d.tc : Thread nD τ).loc main_arg9)) := (keep0_arg9 (W := (launchContents m d))).trans (rfl : launchContents m d (Proc.devRef .tc main_arg9) = (m ((d.tc : Thread nD τ).loc main_arg9)))
theorem U1_arg10 : U1 m d (Proc.devRef .tc main_arg10) = (m ((d.tc : Thread nD τ).loc main_arg10)) := (keep0_arg10 (W := (launchContents m d))).trans (rfl : launchContents m d (Proc.devRef .tc main_arg10) = (m ((d.tc : Thread nD τ).loc main_arg10)))
theorem U1_arg11 : U1 m d (Proc.devRef .tc main_arg11) = (m ((d.tc : Thread nD τ).loc main_arg11)) := (keep0_arg11 (W := (launchContents m d))).trans (rfl : launchContents m d (Proc.devRef .tc main_arg11) = (m ((d.tc : Thread nD τ).loc main_arg11)))
theorem U1_arg12 : U1 m d (Proc.devRef .tc main_arg12) = (m ((d.tc : Thread nD τ).loc main_arg12)) := (keep0_arg12 (W := (launchContents m d))).trans (rfl : launchContents m d (Proc.devRef .tc main_arg12) = (m ((d.tc : Thread nD τ).loc main_arg12)))
theorem U1_arg13 : U1 m d (Proc.devRef .tc main_arg13) = (m ((d.tc : Thread nD τ).loc main_arg13)) := (keep0_arg13 (W := (launchContents m d))).trans (rfl : launchContents m d (Proc.devRef .tc main_arg13) = (m ((d.tc : Thread nD τ).loc main_arg13)))

/-! ## After piece 2: the weighted degree of every node -/
theorem U2_v11 : U2 m d (Proc.devRef .tc main_v11) = val_main_v11 (F := Ideal) (m ((d.tc : Thread nD τ).loc main_arg1)) (m ((d.tc : Thread nD τ).loc main_arg2)) := by
  unfold U2
  exact pc1_v11 (U1_v6 m d) (U1_v8 m d)
theorem U2_v3 : U2 m d (Proc.devRef .tc main_v3) = val_main_v3 (F := Ideal) (m ((d.tc : Thread nD τ).loc main_arg1)) := (keep1_v3 (W := (U1 m d))).trans (U1_v3 m d)
theorem U2_v8 : U2 m d (Proc.devRef .tc main_v8) = val_main_v8 (F := Ideal) (m ((d.tc : Thread nD τ).loc main_arg2)) := (keep1_v8 (W := (U1 m d))).trans (U1_v8 m d)
theorem U2_v6 : U2 m d (Proc.devRef .tc main_v6) = val_main_v6 (F := Ideal) (m ((d.tc : Thread nD τ).loc main_arg1)) := (keep1_v6 (W := (U1 m d))).trans (U1_v6 m d)
theorem U2_arg4 : U2 m d (Proc.devRef .tc main_arg4) = (m ((d.tc : Thread nD τ).loc main_arg4)) := (keep1_arg4 (W := (U1 m d))).trans (U1_arg4 m d)
theorem U2_arg0 : U2 m d (Proc.devRef .tc main_arg0) = (m ((d.tc : Thread nD τ).loc main_arg0)) := (keep1_arg0 (W := (U1 m d))).trans (U1_arg0 m d)
theorem U2_arg6 : U2 m d (Proc.devRef .tc main_arg6) = (m ((d.tc : Thread nD τ).loc main_arg6)) := (keep1_arg6 (W := (U1 m d))).trans (U1_arg6 m d)
theorem U2_arg7 : U2 m d (Proc.devRef .tc main_arg7) = (m ((d.tc : Thread nD τ).loc main_arg7)) := (keep1_arg7 (W := (U1 m d))).trans (U1_arg7 m d)
theorem U2_arg5 : U2 m d (Proc.devRef .tc main_arg5) = (m ((d.tc : Thread nD τ).loc main_arg5)) := (keep1_arg5 (W := (U1 m d))).trans (U1_arg5 m d)
theorem U2_arg8 : U2 m d (Proc.devRef .tc main_arg8) = (m ((d.tc : Thread nD τ).loc main_arg8)) := (keep1_arg8 (W := (U1 m d))).trans (U1_arg8 m d)
theorem U2_arg9 : U2 m d (Proc.devRef .tc main_arg9) = (m ((d.tc : Thread nD τ).loc main_arg9)) := (keep1_arg9 (W := (U1 m d))).trans (U1_arg9 m d)
theorem U2_arg10 : U2 m d (Proc.devRef .tc main_arg10) = (m ((d.tc : Thread nD τ).loc main_arg10)) := (keep1_arg10 (W := (U1 m d))).trans (U1_arg10 m d)
theorem U2_arg11 : U2 m d (Proc.devRef .tc main_arg11) = (m ((d.tc : Thread nD τ).loc main_arg11)) := (keep1_arg11 (W := (U1 m d))).trans (U1_arg11 m d)
theorem U2_arg12 : U2 m d (Proc.devRef .tc main_arg12) = (m ((d.tc : Thread nD τ).loc main_arg12)) := (keep1_arg12 (W := (U1 m d))).trans (U1_arg12 m d)
theorem U2_arg13 : U2 m d (Proc.devRef .tc main_arg13) = (m ((d.tc : Thread nD τ).loc main_arg13)) := (keep1_arg13 (W := (U1 m d))).trans (U1_arg13 m d)

/-! ## After piece 3: its inverse square root where the degree is positive -/
theorem U3_v3 : U3 m d (Proc.devRef .tc main_v3) = val_main_v3 (F := Ideal) (m ((d.tc : Thread nD τ).loc main_arg1)) := (keep2_v3 (W := (U2 m d))).trans (U2_v3 m d)
theorem U3_v17 : U3 m d (Proc.devRef .tc main_v17) = val_main_v17 (F := Ideal) (m ((d.tc : Thread nD τ).loc main_arg1)) (m ((d.tc : Thread nD τ).loc main_arg2)) := by
  unfold U3
  exact pc2_v17 (U2_v11 m d)
theorem U3_v8 : U3 m d (Proc.devRef .tc main_v8) = val_main_v8 (F := Ideal) (m ((d.tc : Thread nD τ).loc main_arg2)) := (keep2_v8 (W := (U2 m d))).trans (U2_v8 m d)
theorem U3_v6 : U3 m d (Proc.devRef .tc main_v6) = val_main_v6 (F := Ideal) (m ((d.tc : Thread nD τ).loc main_arg1)) := (keep2_v6 (W := (U2 m d))).trans (U2_v6 m d)
theorem U3_arg4 : U3 m d (Proc.devRef .tc main_arg4) = (m ((d.tc : Thread nD τ).loc main_arg4)) := (keep2_arg4 (W := (U2 m d))).trans (U2_arg4 m d)
theorem U3_arg0 : U3 m d (Proc.devRef .tc main_arg0) = (m ((d.tc : Thread nD τ).loc main_arg0)) := (keep2_arg0 (W := (U2 m d))).trans (U2_arg0 m d)
theorem U3_arg6 : U3 m d (Proc.devRef .tc main_arg6) = (m ((d.tc : Thread nD τ).loc main_arg6)) := (keep2_arg6 (W := (U2 m d))).trans (U2_arg6 m d)
theorem U3_arg7 : U3 m d (Proc.devRef .tc main_arg7) = (m ((d.tc : Thread nD τ).loc main_arg7)) := (keep2_arg7 (W := (U2 m d))).trans (U2_arg7 m d)
theorem U3_arg5 : U3 m d (Proc.devRef .tc main_arg5) = (m ((d.tc : Thread nD τ).loc main_arg5)) := (keep2_arg5 (W := (U2 m d))).trans (U2_arg5 m d)
theorem U3_arg8 : U3 m d (Proc.devRef .tc main_arg8) = (m ((d.tc : Thread nD τ).loc main_arg8)) := (keep2_arg8 (W := (U2 m d))).trans (U2_arg8 m d)
theorem U3_arg9 : U3 m d (Proc.devRef .tc main_arg9) = (m ((d.tc : Thread nD τ).loc main_arg9)) := (keep2_arg9 (W := (U2 m d))).trans (U2_arg9 m d)
theorem U3_arg10 : U3 m d (Proc.devRef .tc main_arg10) = (m ((d.tc : Thread nD τ).loc main_arg10)) := (keep2_arg10 (W := (U2 m d))).trans (U2_arg10 m d)
theorem U3_arg11 : U3 m d (Proc.devRef .tc main_arg11) = (m ((d.tc : Thread nD τ).loc main_arg11)) := (keep2_arg11 (W := (U2 m d))).trans (U2_arg11 m d)
theorem U3_arg12 : U3 m d (Proc.devRef .tc main_arg12) = (m ((d.tc : Thread nD τ).loc main_arg12)) := (keep2_arg12 (W := (U2 m d))).trans (U2_arg12 m d)
theorem U3_arg13 : U3 m d (Proc.devRef .tc main_arg13) = (m ((d.tc : Thread nD τ).loc main_arg13)) := (keep2_arg13 (W := (U2 m d))).trans (U2_arg13 m d)

/-! ## After piece 4: the normalised edge weights -/
theorem U4_arg4 : U4 m d (Proc.devRef .tc main_arg4) = (m ((d.tc : Thread nD τ).loc main_arg4)) := (keep3_arg4 (W := (U3 m d))).trans (U3_arg4 m d)
theorem U4_arg0 : U4 m d (Proc.devRef .tc main_arg0) = (m ((d.tc : Thread nD τ).loc main_arg0)) := (keep3_arg0 (W := (U3 m d))).trans (U3_arg0 m d)
theorem U4_v33 : U4 m d (Proc.devRef .tc main_v33) = val_main_v33 (F := Ideal) (m ((d.tc : Thread nD τ).loc main_arg1)) (m ((d.tc : Thread nD τ).loc main_arg2)) := by
  unfold U4
  exact pc3_v33 (U3_v17 m d) (U3_v3 m d) (U3_v8 m d) (U3_v6 m d)
theorem U4_v3 : U4 m d (Proc.devRef .tc main_v3) = val_main_v3 (F := Ideal) (m ((d.tc : Thread nD τ).loc main_arg1)) := (keep3_v3 (W := (U3 m d))).trans (U3_v3 m d)
theorem U4_v6 : U4 m d (Proc.devRef .tc main_v6) = val_main_v6 (F := Ideal) (m ((d.tc : Thread nD τ).loc main_arg1)) := (keep3_v6 (W := (U3 m d))).trans (U3_v6 m d)
theorem U4_arg6 : U4 m d (Proc.devRef .tc main_arg6) = (m ((d.tc : Thread nD τ).loc main_arg6)) := (keep3_arg6 (W := (U3 m d))).trans (U3_arg6 m d)
theorem U4_arg7 : U4 m d (Proc.devRef .tc main_arg7) = (m ((d.tc : Thread nD τ).loc main_arg7)) := (keep3_arg7 (W := (U3 m d))).trans (U3_arg7 m d)
theorem U4_arg5 : U4 m d (Proc.devRef .tc main_arg5) = (m ((d.tc : Thread nD τ).loc main_arg5)) := (keep3_arg5 (W := (U3 m d))).trans (U3_arg5 m d)
theorem U4_arg8 : U4 m d (Proc.devRef .tc main_arg8) = (m ((d.tc : Thread nD τ).loc main_arg8)) := (keep3_arg8 (W := (U3 m d))).trans (U3_arg8 m d)
theorem U4_arg9 : U4 m d (Proc.devRef .tc main_arg9) = (m ((d.tc : Thread nD τ).loc main_arg9)) := (keep3_arg9 (W := (U3 m d))).trans (U3_arg9 m d)
theorem U4_arg10 : U4 m d (Proc.devRef .tc main_arg10) = (m ((d.tc : Thread nD τ).loc main_arg10)) := (keep3_arg10 (W := (U3 m d))).trans (U3_arg10 m d)
theorem U4_arg11 : U4 m d (Proc.devRef .tc main_arg11) = (m ((d.tc : Thread nD τ).loc main_arg11)) := (keep3_arg11 (W := (U3 m d))).trans (U3_arg11 m d)
theorem U4_arg12 : U4 m d (Proc.devRef .tc main_arg12) = (m ((d.tc : Thread nD τ).loc main_arg12)) := (keep3_arg12 (W := (U3 m d))).trans (U3_arg12 m d)
theorem U4_arg13 : U4 m d (Proc.devRef .tc main_arg13) = (m ((d.tc : Thread nD τ).loc main_arg13)) := (keep3_arg13 (W := (U3 m d))).trans (U3_arg13 m d)

/-! ## After piece 5: layer one's projection -/
theorem U5_v33 : U5 m d (Proc.devRef .tc main_v33) = val_main_v33 (F := Ideal) (m ((d.tc : Thread nD τ).loc main_arg1)) (m ((d.tc : Thread nD τ).loc main_arg2)) := (keep4_v33 (W := (U4 m d))).trans (U4_v33 m d)
theorem U5_v3 : U5 m d (Proc.devRef .tc main_v3) = val_main_v3 (F := Ideal) (m ((d.tc : Thread nD τ).loc main_arg1)) := (keep4_v3 (W := (U4 m d))).trans (U4_v3 m d)
theorem U5_v37 : U5 m d (Proc.devRef .tc main_v37) = val_main_v37 (F := Ideal) (m ((d.tc : Thread nD τ).loc main_arg0)) (m ((d.tc : Thread nD τ).loc main_arg4)) := by
  unfold U5
  exact pc4_v37 (U4_arg0 m d) (U4_arg4 m d)
theorem U5_v6 : U5 m d (Proc.devRef .tc main_v6) = val_main_v6 (F := Ideal) (m ((d.tc : Thread nD τ).loc main_arg1)) := (keep4_v6 (W := (U4 m d))).trans (U4_v6 m d)
theorem U5_arg6 : U5 m d (Proc.devRef .tc main_arg6) = (m ((d.tc : Thread nD τ).loc main_arg6)) := (keep4_arg6 (W := (U4 m d))).trans (U4_arg6 m d)
theorem U5_arg7 : U5 m d (Proc.devRef .tc main_arg7) = (m ((d.tc : Thread nD τ).loc main_arg7)) := (keep4_arg7 (W := (U4 m d))).trans (U4_arg7 m d)
theorem U5_arg5 : U5 m d (Proc.devRef .tc main_arg5) = (m ((d.tc : Thread nD τ).loc main_arg5)) := (keep4_arg5 (W := (U4 m d))).trans (U4_arg5 m d)
theorem U5_arg8 : U5 m d (Proc.devRef .tc main_arg8) = (m ((d.tc : Thread nD τ).loc main_arg8)) := (keep4_arg8 (W := (U4 m d))).trans (U4_arg8 m d)
theorem U5_arg9 : U5 m d (Proc.devRef .tc main_arg9) = (m ((d.tc : Thread nD τ).loc main_arg9)) := (keep4_arg9 (W := (U4 m d))).trans (U4_arg9 m d)
theorem U5_arg4 : U5 m d (Proc.devRef .tc main_arg4) = (m ((d.tc : Thread nD τ).loc main_arg4)) := (keep4_arg4 (W := (U4 m d))).trans (U4_arg4 m d)
theorem U5_arg10 : U5 m d (Proc.devRef .tc main_arg10) = (m ((d.tc : Thread nD τ).loc main_arg10)) := (keep4_arg10 (W := (U4 m d))).trans (U4_arg10 m d)
theorem U5_arg11 : U5 m d (Proc.devRef .tc main_arg11) = (m ((d.tc : Thread nD τ).loc main_arg11)) := (keep4_arg11 (W := (U4 m d))).trans (U4_arg11 m d)
theorem U5_arg12 : U5 m d (Proc.devRef .tc main_arg12) = (m ((d.tc : Thread nD τ).loc main_arg12)) := (keep4_arg12 (W := (U4 m d))).trans (U4_arg12 m d)
theorem U5_arg13 : U5 m d (Proc.devRef .tc main_arg13) = (m ((d.tc : Thread nD τ).loc main_arg13)) := (keep4_arg13 (W := (U4 m d))).trans (U4_arg13 m d)

/-! ## After piece 6: layer one's aggregation along the edges -/
theorem U6_arg6 : U6 m d (Proc.devRef .tc main_arg6) = (m ((d.tc : Thread nD τ).loc main_arg6)) := (keep5_arg6 (W := (U5 m d))).trans (U5_arg6 m d)
theorem U6_v50 : U6 m d (Proc.devRef .tc main_v50) = val_main_v50 (F := Ideal) (m ((d.tc : Thread nD τ).loc main_arg0)) (m ((d.tc : Thread nD τ).loc main_arg1)) (m ((d.tc : Thread nD τ).loc main_arg2)) (m ((d.tc : Thread nD τ).loc main_arg4)) := by
  unfold U6
  exact pc5_v50 (U5_v6 m d) (U5_v33 m d) (U5_v37 m d) (U5_v3 m d)
theorem U6_arg7 : U6 m d (Proc.devRef .tc main_arg7) = (m ((d.tc : Thread nD τ).loc main_arg7)) := (keep5_arg7 (W := (U5 m d))).trans (U5_arg7 m d)
theorem U6_arg5 : U6 m d (Proc.devRef .tc main_arg5) = (m ((d.tc : Thread nD τ).loc main_arg5)) := (keep5_arg5 (W := (U5 m d))).trans (U5_arg5 m d)
theorem U6_arg8 : U6 m d (Proc.devRef .tc main_arg8) = (m ((d.tc : Thread nD τ).loc main_arg8)) := (keep5_arg8 (W := (U5 m d))).trans (U5_arg8 m d)
theorem U6_arg9 : U6 m d (Proc.devRef .tc main_arg9) = (m ((d.tc : Thread nD τ).loc main_arg9)) := (keep5_arg9 (W := (U5 m d))).trans (U5_arg9 m d)
theorem U6_arg4 : U6 m d (Proc.devRef .tc main_arg4) = (m ((d.tc : Thread nD τ).loc main_arg4)) := (keep5_arg4 (W := (U5 m d))).trans (U5_arg4 m d)
theorem U6_v33 : U6 m d (Proc.devRef .tc main_v33) = val_main_v33 (F := Ideal) (m ((d.tc : Thread nD τ).loc main_arg1)) (m ((d.tc : Thread nD τ).loc main_arg2)) := (keep5_v33 (W := (U5 m d))).trans (U5_v33 m d)
theorem U6_v3 : U6 m d (Proc.devRef .tc main_v3) = val_main_v3 (F := Ideal) (m ((d.tc : Thread nD τ).loc main_arg1)) := (keep5_v3 (W := (U5 m d))).trans (U5_v3 m d)
theorem U6_v6 : U6 m d (Proc.devRef .tc main_v6) = val_main_v6 (F := Ideal) (m ((d.tc : Thread nD τ).loc main_arg1)) := (keep5_v6 (W := (U5 m d))).trans (U5_v6 m d)
theorem U6_arg10 : U6 m d (Proc.devRef .tc main_arg10) = (m ((d.tc : Thread nD τ).loc main_arg10)) := (keep5_arg10 (W := (U5 m d))).trans (U5_arg10 m d)
theorem U6_arg11 : U6 m d (Proc.devRef .tc main_arg11) = (m ((d.tc : Thread nD τ).loc main_arg11)) := (keep5_arg11 (W := (U5 m d))).trans (U5_arg11 m d)
theorem U6_arg12 : U6 m d (Proc.devRef .tc main_arg12) = (m ((d.tc : Thread nD τ).loc main_arg12)) := (keep5_arg12 (W := (U5 m d))).trans (U5_arg12 m d)
theorem U6_arg13 : U6 m d (Proc.devRef .tc main_arg13) = (m ((d.tc : Thread nD τ).loc main_arg13)) := (keep5_arg13 (W := (U5 m d))).trans (U5_arg13 m d)

/-! ## After piece 7: layer one's affine map, tanh and bias -/
theorem U7_v65 : U7 m d (Proc.devRef .tc main_v65) = val_main_v65 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := by
  unfold U7
  exact pc6_v65 (U6_v50 m d) (U6_arg6 m d) (U6_arg7 m d) (U6_arg5 m d)
theorem U7_arg8 : U7 m d (Proc.devRef .tc main_arg8) = (m ((d.tc : Thread nD τ).loc main_arg8)) := (keep6_arg8 (W := (U6 m d))).trans (U6_arg8 m d)
theorem U7_arg9 : U7 m d (Proc.devRef .tc main_arg9) = (m ((d.tc : Thread nD τ).loc main_arg9)) := (keep6_arg9 (W := (U6 m d))).trans (U6_arg9 m d)
theorem U7_arg4 : U7 m d (Proc.devRef .tc main_arg4) = (m ((d.tc : Thread nD τ).loc main_arg4)) := (keep6_arg4 (W := (U6 m d))).trans (U6_arg4 m d)
theorem U7_v33 : U7 m d (Proc.devRef .tc main_v33) = val_main_v33 (F := Ideal) (m ((d.tc : Thread nD τ).loc main_arg1)) (m ((d.tc : Thread nD τ).loc main_arg2)) := (keep6_v33 (W := (U6 m d))).trans (U6_v33 m d)
theorem U7_v3 : U7 m d (Proc.devRef .tc main_v3) = val_main_v3 (F := Ideal) (m ((d.tc : Thread nD τ).loc main_arg1)) := (keep6_v3 (W := (U6 m d))).trans (U6_v3 m d)
theorem U7_v6 : U7 m d (Proc.devRef .tc main_v6) = val_main_v6 (F := Ideal) (m ((d.tc : Thread nD τ).loc main_arg1)) := (keep6_v6 (W := (U6 m d))).trans (U6_v6 m d)
theorem U7_arg6 : U7 m d (Proc.devRef .tc main_arg6) = (m ((d.tc : Thread nD τ).loc main_arg6)) := (keep6_arg6 (W := (U6 m d))).trans (U6_arg6 m d)
theorem U7_arg7 : U7 m d (Proc.devRef .tc main_arg7) = (m ((d.tc : Thread nD τ).loc main_arg7)) := (keep6_arg7 (W := (U6 m d))).trans (U6_arg7 m d)
theorem U7_arg5 : U7 m d (Proc.devRef .tc main_arg5) = (m ((d.tc : Thread nD τ).loc main_arg5)) := (keep6_arg5 (W := (U6 m d))).trans (U6_arg5 m d)
theorem U7_arg10 : U7 m d (Proc.devRef .tc main_arg10) = (m ((d.tc : Thread nD τ).loc main_arg10)) := (keep6_arg10 (W := (U6 m d))).trans (U6_arg10 m d)
theorem U7_arg11 : U7 m d (Proc.devRef .tc main_arg11) = (m ((d.tc : Thread nD τ).loc main_arg11)) := (keep6_arg11 (W := (U6 m d))).trans (U6_arg11 m d)
theorem U7_arg12 : U7 m d (Proc.devRef .tc main_arg12) = (m ((d.tc : Thread nD τ).loc main_arg12)) := (keep6_arg12 (W := (U6 m d))).trans (U6_arg12 m d)
theorem U7_arg13 : U7 m d (Proc.devRef .tc main_arg13) = (m ((d.tc : Thread nD τ).loc main_arg13)) := (keep6_arg13 (W := (U6 m d))).trans (U6_arg13 m d)

/-! ## After piece 8: its leaky rectifier -/
theorem U8_arg8 : U8 m d (Proc.devRef .tc main_arg8) = (m ((d.tc : Thread nD τ).loc main_arg8)) := (keep7_arg8 (W := (U7 m d))).trans (U7_arg8 m d)
theorem U8_arg9 : U8 m d (Proc.devRef .tc main_arg9) = (m ((d.tc : Thread nD τ).loc main_arg9)) := (keep7_arg9 (W := (U7 m d))).trans (U7_arg9 m d)
theorem U8_v70 : U8 m d (Proc.devRef .tc main_v70) = val_main_v70 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := by
  unfold U8
  exact pc7_v70 (U7_v65 m d)
theorem U8_arg4 : U8 m d (Proc.devRef .tc main_arg4) = (m ((d.tc : Thread nD τ).loc main_arg4)) := (keep7_arg4 (W := (U7 m d))).trans (U7_arg4 m d)
theorem U8_v33 : U8 m d (Proc.devRef .tc main_v33) = val_main_v33 (F := Ideal) (m ((d.tc : Thread nD τ).loc main_arg1)) (m ((d.tc : Thread nD τ).loc main_arg2)) := (keep7_v33 (W := (U7 m d))).trans (U7_v33 m d)
theorem U8_v3 : U8 m d (Proc.devRef .tc main_v3) = val_main_v3 (F := Ideal) (m ((d.tc : Thread nD τ).loc main_arg1)) := (keep7_v3 (W := (U7 m d))).trans (U7_v3 m d)
theorem U8_v6 : U8 m d (Proc.devRef .tc main_v6) = val_main_v6 (F := Ideal) (m ((d.tc : Thread nD τ).loc main_arg1)) := (keep7_v6 (W := (U7 m d))).trans (U7_v6 m d)
theorem U8_arg6 : U8 m d (Proc.devRef .tc main_arg6) = (m ((d.tc : Thread nD τ).loc main_arg6)) := (keep7_arg6 (W := (U7 m d))).trans (U7_arg6 m d)
theorem U8_arg7 : U8 m d (Proc.devRef .tc main_arg7) = (m ((d.tc : Thread nD τ).loc main_arg7)) := (keep7_arg7 (W := (U7 m d))).trans (U7_arg7 m d)
theorem U8_arg5 : U8 m d (Proc.devRef .tc main_arg5) = (m ((d.tc : Thread nD τ).loc main_arg5)) := (keep7_arg5 (W := (U7 m d))).trans (U7_arg5 m d)
theorem U8_arg10 : U8 m d (Proc.devRef .tc main_arg10) = (m ((d.tc : Thread nD τ).loc main_arg10)) := (keep7_arg10 (W := (U7 m d))).trans (U7_arg10 m d)
theorem U8_arg11 : U8 m d (Proc.devRef .tc main_arg11) = (m ((d.tc : Thread nD τ).loc main_arg11)) := (keep7_arg11 (W := (U7 m d))).trans (U7_arg11 m d)
theorem U8_arg12 : U8 m d (Proc.devRef .tc main_arg12) = (m ((d.tc : Thread nD τ).loc main_arg12)) := (keep7_arg12 (W := (U7 m d))).trans (U7_arg12 m d)
theorem U8_arg13 : U8 m d (Proc.devRef .tc main_arg13) = (m ((d.tc : Thread nD τ).loc main_arg13)) := (keep7_arg13 (W := (U7 m d))).trans (U7_arg13 m d)

/-! ## After piece 9: the row means (and the gain and offset vectors cut out) -/
theorem U9_v78 : U9 m d (Proc.devRef .tc main_v78) = val_main_v78 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := by
  unfold U9
  exact pc8_v78 (U8_v70 m d)
theorem U9_v70 : U9 m d (Proc.devRef .tc main_v70) = val_main_v70 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := (keep8_v70 (W := (U8 m d))).trans (U8_v70 m d)
theorem U9_v72 : U9 m d (Proc.devRef .tc main_v72) = val_main_v72 (F := Ideal) (m ((d.tc : Thread nD τ).loc main_arg8)) := by
  unfold U9
  exact pc8_v72 (U8_arg8 m d)
theorem U9_v74 : U9 m d (Proc.devRef .tc main_v74) = val_main_v74 (F := Ideal) (m ((d.tc : Thread nD τ).loc main_arg9)) := by
  unfold U9
  exact pc8_v74 (U8_arg9 m d)
theorem U9_arg4 : U9 m d (Proc.devRef .tc main_arg4) = (m ((d.tc : Thread nD τ).loc main_arg4)) := (keep8_arg4 (W := (U8 m d))).trans (U8_arg4 m d)
theorem U9_v33 : U9 m d (Proc.devRef .tc main_v33) = val_main_v33 (F := Ideal) (m ((d.tc : Thread nD τ).loc main_arg1)) (m ((d.tc : Thread nD τ).loc main_arg2)) := (keep8_v33 (W := (U8 m d))).trans (U8_v33 m d)
theorem U9_v3 : U9 m d (Proc.devRef .tc main_v3) = val_main_v3 (F := Ideal) (m ((d.tc : Thread nD τ).loc main_arg1)) := (keep8_v3 (W := (U8 m d))).trans (U8_v3 m d)
theorem U9_v6 : U9 m d (Proc.devRef .tc main_v6) = val_main_v6 (F := Ideal) (m ((d.tc : Thread nD τ).loc main_arg1)) := (keep8_v6 (W := (U8 m d))).trans (U8_v6 m d)
theorem U9_arg6 : U9 m d (Proc.devRef .tc main_arg6) = (m ((d.tc : Thread nD τ).loc main_arg6)) := (keep8_arg6 (W := (U8 m d))).trans (U8_arg6 m d)
theorem U9_arg7 : U9 m d (Proc.devRef .tc main_arg7) = (m ((d.tc : Thread nD τ).loc main_arg7)) := (keep8_arg7 (W := (U8 m d))).trans (U8_arg7 m d)
theorem U9_arg5 : U9 m d (Proc.devRef .tc main_arg5) = (m ((d.tc : Thread nD τ).loc main_arg5)) := (keep8_arg5 (W := (U8 m d))).trans (U8_arg5 m d)
theorem U9_arg8 : U9 m d (Proc.devRef .tc main_arg8) = (m ((d.tc : Thread nD τ).loc main_arg8)) := (keep8_arg8 (W := (U8 m d))).trans (U8_arg8 m d)
theorem U9_arg9 : U9 m d (Proc.devRef .tc main_arg9) = (m ((d.tc : Thread nD τ).loc main_arg9)) := (keep8_arg9 (W := (U8 m d))).trans (U8_arg9 m d)
theorem U9_arg10 : U9 m d (Proc.devRef .tc main_arg10) = (m ((d.tc : Thread nD τ).loc main_arg10)) := (keep8_arg10 (W := (U8 m d))).trans (U8_arg10 m d)
theorem U9_arg11 : U9 m d (Proc.devRef .tc main_arg11) = (m ((d.tc : Thread nD τ).loc main_arg11)) := (keep8_arg11 (W := (U8 m d))).trans (U8_arg11 m d)
theorem U9_arg12 : U9 m d (Proc.devRef .tc main_arg12) = (m ((d.tc : Thread nD τ).loc main_arg12)) := (keep8_arg12 (W := (U8 m d))).trans (U8_arg12 m d)
theorem U9_arg13 : U9 m d (Proc.devRef .tc main_arg13) = (m ((d.tc : Thread nD τ).loc main_arg13)) := (keep8_arg13 (W := (U8 m d))).trans (U8_arg13 m d)

/-! ## After piece 10: the centred rows -/
theorem U10_v80 : U10 m d (Proc.devRef .tc main_v80) = val_main_v80 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := by
  unfold U10
  exact pc9_v80 (U9_v70 m d) (U9_v78 m d)
theorem U10_v78 : U10 m d (Proc.devRef .tc main_v78) = val_main_v78 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := (keep9_v78 (W := (U9 m d))).trans (U9_v78 m d)
theorem U10_v70 : U10 m d (Proc.devRef .tc main_v70) = val_main_v70 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) := (keep9_v70 (W := (U9 m d))).trans (U9_v70 m d)
theorem U10_v72 : U10 m d (Proc.devRef .tc main_v72) = val_main_v72 (F := Ideal) (m ((d.tc : Thread nD τ).loc main_arg8)) := (keep9_v72 (W := (U9 m d))).trans (U9_v72 m d)
theorem U10_v74 : U10 m d (Proc.devRef .tc main_v74) = val_main_v74 (F := Ideal) (m ((d.tc : Thread nD τ).loc main_arg9)) := (keep9_v74 (W := (U9 m d))).trans (U9_v74 m d)
theorem U10_arg4 : U10 m d (Proc.devRef .tc main_arg4) = (m ((d.tc : Thread nD τ).loc main_arg4)) := (keep9_arg4 (W := (U9 m d))).trans (U9_arg4 m d)
theorem U10_v33 : U10 m d (Proc.devRef .tc main_v33) = val_main_v33 (F := Ideal) (m ((d.tc : Thread nD τ).loc main_arg1)) (m ((d.tc : Thread nD τ).loc main_arg2)) := (keep9_v33 (W := (U9 m d))).trans (U9_v33 m d)
theorem U10_v3 : U10 m d (Proc.devRef .tc main_v3) = val_main_v3 (F := Ideal) (m ((d.tc : Thread nD τ).loc main_arg1)) := (keep9_v3 (W := (U9 m d))).trans (U9_v3 m d)
theorem U10_v6 : U10 m d (Proc.devRef .tc main_v6) = val_main_v6 (F := Ideal) (m ((d.tc : Thread nD τ).loc main_arg1)) := (keep9_v6 (W := (U9 m d))).trans (U9_v6 m d)
theorem U10_arg6 : U10 m d (Proc.devRef .tc main_arg6) = (m ((d.tc : Thread nD τ).loc main_arg6)) := (keep9_arg6 (W := (U9 m d))).trans (U9_arg6 m d)
theorem U10_arg7 : U10 m d (Proc.devRef .tc main_arg7) = (m ((d.tc : Thread nD τ).loc main_arg7)) := (keep9_arg7 (W := (U9 m d))).trans (U9_arg7 m d)
theorem U10_arg5 : U10 m d (Proc.devRef .tc main_arg5) = (m ((d.tc : Thread nD τ).loc main_arg5)) := (keep9_arg5 (W := (U9 m d))).trans (U9_arg5 m d)
theorem U10_arg8 : U10 m d (Proc.devRef .tc main_arg8) = (m ((d.tc : Thread nD τ).loc main_arg8)) := (keep9_arg8 (W := (U9 m d))).trans (U9_arg8 m d)
theorem U10_arg9 : U10 m d (Proc.devRef .tc main_arg9) = (m ((d.tc : Thread nD τ).loc main_arg9)) := (keep9_arg9 (W := (U9 m d))).trans (U9_arg9 m d)
theorem U10_arg10 : U10 m d (Proc.devRef .tc main_arg10) = (m ((d.tc : Thread nD τ).loc main_arg10)) := (keep9_arg10 (W := (U9 m d))).trans (U9_arg10 m d)
theorem U10_arg11 : U10 m d (Proc.devRef .tc main_arg11) = (m ((d.tc : Thread nD τ).loc main_arg11)) := (keep9_arg11 (W := (U9 m d))).trans (U9_arg11 m d)
theorem U10_arg12 : U10 m d (Proc.devRef .tc main_arg12) = (m ((d.tc : Thread nD τ).loc main_arg12)) := (keep9_arg12 (W := (U9 m d))).trans (U9_arg12 m d)
theorem U10_arg13 : U10 m d (Proc.devRef .tc main_arg13) = (m ((d.tc : Thread nD τ).loc main_arg13)) := (keep9_arg13 (W := (U9 m d))).trans (U9_arg13 m d)

/-! ## After piece 11: layer one's normalisation, gain and offset -/
theorem U11_arg4 : U11 m d (Proc.devRef .tc main_arg4) = (m ((d.tc : Thread nD τ).loc main_arg4)) := (keep10_arg4 (W := (U10 m d))).trans (U10_arg4 m d)
theorem U11_v98 : U11 m d (Proc.devRef .tc main_v98) = val_main_v98 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U11
  exact pc10_v98 (U10_v70 m d) (U10_v78 m d) (U10_v80 m d) (U10_v72 m d) (U10_v74 m d)
theorem U11_v33 : U11 m d (Proc.devRef .tc main_v33) = val_main_v33 (F := Ideal) (m ((d.tc : Thread nD τ).loc main_arg1)) (m ((d.tc : Thread nD τ).loc main_arg2)) := (keep10_v33 (W := (U10 m d))).trans (U10_v33 m d)
theorem U11_v3 : U11 m d (Proc.devRef .tc main_v3) = val_main_v3 (F := Ideal) (m ((d.tc : Thread nD τ).loc main_arg1)) := (keep10_v3 (W := (U10 m d))).trans (U10_v3 m d)
theorem U11_v6 : U11 m d (Proc.devRef .tc main_v6) = val_main_v6 (F := Ideal) (m ((d.tc : Thread nD τ).loc main_arg1)) := (keep10_v6 (W := (U10 m d))).trans (U10_v6 m d)
theorem U11_arg6 : U11 m d (Proc.devRef .tc main_arg6) = (m ((d.tc : Thread nD τ).loc main_arg6)) := (keep10_arg6 (W := (U10 m d))).trans (U10_arg6 m d)
theorem U11_arg7 : U11 m d (Proc.devRef .tc main_arg7) = (m ((d.tc : Thread nD τ).loc main_arg7)) := (keep10_arg7 (W := (U10 m d))).trans (U10_arg7 m d)
theorem U11_arg5 : U11 m d (Proc.devRef .tc main_arg5) = (m ((d.tc : Thread nD τ).loc main_arg5)) := (keep10_arg5 (W := (U10 m d))).trans (U10_arg5 m d)
theorem U11_arg8 : U11 m d (Proc.devRef .tc main_arg8) = (m ((d.tc : Thread nD τ).loc main_arg8)) := (keep10_arg8 (W := (U10 m d))).trans (U10_arg8 m d)
theorem U11_arg9 : U11 m d (Proc.devRef .tc main_arg9) = (m ((d.tc : Thread nD τ).loc main_arg9)) := (keep10_arg9 (W := (U10 m d))).trans (U10_arg9 m d)
theorem U11_arg10 : U11 m d (Proc.devRef .tc main_arg10) = (m ((d.tc : Thread nD τ).loc main_arg10)) := (keep10_arg10 (W := (U10 m d))).trans (U10_arg10 m d)
theorem U11_arg11 : U11 m d (Proc.devRef .tc main_arg11) = (m ((d.tc : Thread nD τ).loc main_arg11)) := (keep10_arg11 (W := (U10 m d))).trans (U10_arg11 m d)
theorem U11_arg12 : U11 m d (Proc.devRef .tc main_arg12) = (m ((d.tc : Thread nD τ).loc main_arg12)) := (keep10_arg12 (W := (U10 m d))).trans (U10_arg12 m d)
theorem U11_arg13 : U11 m d (Proc.devRef .tc main_arg13) = (m ((d.tc : Thread nD τ).loc main_arg13)) := (keep10_arg13 (W := (U10 m d))).trans (U10_arg13 m d)

/-! ## After piece 12: layer two's projection -/
theorem U12_v33 : U12 m d (Proc.devRef .tc main_v33) = val_main_v33 (F := Ideal) (m ((d.tc : Thread nD τ).loc main_arg1)) (m ((d.tc : Thread nD τ).loc main_arg2)) := (keep11_v33 (W := (U11 m d))).trans (U11_v33 m d)
theorem U12_v3 : U12 m d (Proc.devRef .tc main_v3) = val_main_v3 (F := Ideal) (m ((d.tc : Thread nD τ).loc main_arg1)) := (keep11_v3 (W := (U11 m d))).trans (U11_v3 m d)
theorem U12_v102 : U12 m d (Proc.devRef .tc main_v102) = val_main_v102 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U12
  exact pc11_v102 (U11_v98 m d) (U11_arg4 m d)
theorem U12_v6 : U12 m d (Proc.devRef .tc main_v6) = val_main_v6 (F := Ideal) (m ((d.tc : Thread nD τ).loc main_arg1)) := (keep11_v6 (W := (U11 m d))).trans (U11_v6 m d)
theorem U12_arg6 : U12 m d (Proc.devRef .tc main_arg6) = (m ((d.tc : Thread nD τ).loc main_arg6)) := (keep11_arg6 (W := (U11 m d))).trans (U11_arg6 m d)
theorem U12_arg7 : U12 m d (Proc.devRef .tc main_arg7) = (m ((d.tc : Thread nD τ).loc main_arg7)) := (keep11_arg7 (W := (U11 m d))).trans (U11_arg7 m d)
theorem U12_arg5 : U12 m d (Proc.devRef .tc main_arg5) = (m ((d.tc : Thread nD τ).loc main_arg5)) := (keep11_arg5 (W := (U11 m d))).trans (U11_arg5 m d)
theorem U12_arg8 : U12 m d (Proc.devRef .tc main_arg8) = (m ((d.tc : Thread nD τ).loc main_arg8)) := (keep11_arg8 (W := (U11 m d))).trans (U11_arg8 m d)
theorem U12_arg9 : U12 m d (Proc.devRef .tc main_arg9) = (m ((d.tc : Thread nD τ).loc main_arg9)) := (keep11_arg9 (W := (U11 m d))).trans (U11_arg9 m d)
theorem U12_arg10 : U12 m d (Proc.devRef .tc main_arg10) = (m ((d.tc : Thread nD τ).loc main_arg10)) := (keep11_arg10 (W := (U11 m d))).trans (U11_arg10 m d)
theorem U12_arg11 : U12 m d (Proc.devRef .tc main_arg11) = (m ((d.tc : Thread nD τ).loc main_arg11)) := (keep11_arg11 (W := (U11 m d))).trans (U11_arg11 m d)
theorem U12_arg12 : U12 m d (Proc.devRef .tc main_arg12) = (m ((d.tc : Thread nD τ).loc main_arg12)) := (keep11_arg12 (W := (U11 m d))).trans (U11_arg12 m d)
theorem U12_arg13 : U12 m d (Proc.devRef .tc main_arg13) = (m ((d.tc : Thread nD τ).loc main_arg13)) := (keep11_arg13 (W := (U11 m d))).trans (U11_arg13 m d)

/-! ## After piece 13: layer two's aggregation along the edges -/
theorem U13_arg6 : U13 m d (Proc.devRef .tc main_arg6) = (m ((d.tc : Thread nD τ).loc main_arg6)) := (keep12_arg6 (W := (U12 m d))).trans (U12_arg6 m d)
theorem U13_v115 : U13 m d (Proc.devRef .tc main_v115) = val_main_v115 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U13
  exact pc12_v115 (U12_v6 m d) (U12_v33 m d) (U12_v102 m d) (U12_v3 m d)
theorem U13_arg7 : U13 m d (Proc.devRef .tc main_arg7) = (m ((d.tc : Thread nD τ).loc main_arg7)) := (keep12_arg7 (W := (U12 m d))).trans (U12_arg7 m d)
theorem U13_arg5 : U13 m d (Proc.devRef .tc main_arg5) = (m ((d.tc : Thread nD τ).loc main_arg5)) := (keep12_arg5 (W := (U12 m d))).trans (U12_arg5 m d)
theorem U13_arg8 : U13 m d (Proc.devRef .tc main_arg8) = (m ((d.tc : Thread nD τ).loc main_arg8)) := (keep12_arg8 (W := (U12 m d))).trans (U12_arg8 m d)
theorem U13_arg9 : U13 m d (Proc.devRef .tc main_arg9) = (m ((d.tc : Thread nD τ).loc main_arg9)) := (keep12_arg9 (W := (U12 m d))).trans (U12_arg9 m d)
theorem U13_arg10 : U13 m d (Proc.devRef .tc main_arg10) = (m ((d.tc : Thread nD τ).loc main_arg10)) := (keep12_arg10 (W := (U12 m d))).trans (U12_arg10 m d)
theorem U13_arg11 : U13 m d (Proc.devRef .tc main_arg11) = (m ((d.tc : Thread nD τ).loc main_arg11)) := (keep12_arg11 (W := (U12 m d))).trans (U12_arg11 m d)
theorem U13_arg12 : U13 m d (Proc.devRef .tc main_arg12) = (m ((d.tc : Thread nD τ).loc main_arg12)) := (keep12_arg12 (W := (U12 m d))).trans (U12_arg12 m d)
theorem U13_arg13 : U13 m d (Proc.devRef .tc main_arg13) = (m ((d.tc : Thread nD τ).loc main_arg13)) := (keep12_arg13 (W := (U12 m d))).trans (U12_arg13 m d)

/-! ## After piece 14: layer two's affine map, tanh and bias -/
theorem U14_v130 : U14 m d (Proc.devRef .tc main_v130) = val_main_v130 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U14
  exact pc13_v130 (U13_v115 m d) (U13_arg6 m d) (U13_arg7 m d) (U13_arg5 m d)
theorem U14_arg8 : U14 m d (Proc.devRef .tc main_arg8) = (m ((d.tc : Thread nD τ).loc main_arg8)) := (keep13_arg8 (W := (U13 m d))).trans (U13_arg8 m d)
theorem U14_arg9 : U14 m d (Proc.devRef .tc main_arg9) = (m ((d.tc : Thread nD τ).loc main_arg9)) := (keep13_arg9 (W := (U13 m d))).trans (U13_arg9 m d)
theorem U14_arg10 : U14 m d (Proc.devRef .tc main_arg10) = (m ((d.tc : Thread nD τ).loc main_arg10)) := (keep13_arg10 (W := (U13 m d))).trans (U13_arg10 m d)
theorem U14_arg11 : U14 m d (Proc.devRef .tc main_arg11) = (m ((d.tc : Thread nD τ).loc main_arg11)) := (keep13_arg11 (W := (U13 m d))).trans (U13_arg11 m d)
theorem U14_arg12 : U14 m d (Proc.devRef .tc main_arg12) = (m ((d.tc : Thread nD τ).loc main_arg12)) := (keep13_arg12 (W := (U13 m d))).trans (U13_arg12 m d)
theorem U14_arg13 : U14 m d (Proc.devRef .tc main_arg13) = (m ((d.tc : Thread nD τ).loc main_arg13)) := (keep13_arg13 (W := (U13 m d))).trans (U13_arg13 m d)

/-! ## After piece 15: its leaky rectifier -/
theorem U15_arg8 : U15 m d (Proc.devRef .tc main_arg8) = (m ((d.tc : Thread nD τ).loc main_arg8)) := (keep14_arg8 (W := (U14 m d))).trans (U14_arg8 m d)
theorem U15_arg9 : U15 m d (Proc.devRef .tc main_arg9) = (m ((d.tc : Thread nD τ).loc main_arg9)) := (keep14_arg9 (W := (U14 m d))).trans (U14_arg9 m d)
theorem U15_v135 : U15 m d (Proc.devRef .tc main_v135) = val_main_v135 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U15
  exact pc14_v135 (U14_v130 m d)
theorem U15_arg10 : U15 m d (Proc.devRef .tc main_arg10) = (m ((d.tc : Thread nD τ).loc main_arg10)) := (keep14_arg10 (W := (U14 m d))).trans (U14_arg10 m d)
theorem U15_arg11 : U15 m d (Proc.devRef .tc main_arg11) = (m ((d.tc : Thread nD τ).loc main_arg11)) := (keep14_arg11 (W := (U14 m d))).trans (U14_arg11 m d)
theorem U15_arg12 : U15 m d (Proc.devRef .tc main_arg12) = (m ((d.tc : Thread nD τ).loc main_arg12)) := (keep14_arg12 (W := (U14 m d))).trans (U14_arg12 m d)
theorem U15_arg13 : U15 m d (Proc.devRef .tc main_arg13) = (m ((d.tc : Thread nD τ).loc main_arg13)) := (keep14_arg13 (W := (U14 m d))).trans (U14_arg13 m d)

/-! ## After piece 16: the row means (and the gain and offset vectors cut out) -/
theorem U16_v143 : U16 m d (Proc.devRef .tc main_v143) = val_main_v143 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U16
  exact pc15_v143 (U15_v135 m d)
theorem U16_v135 : U16 m d (Proc.devRef .tc main_v135) = val_main_v135 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := (keep15_v135 (W := (U15 m d))).trans (U15_v135 m d)
theorem U16_v137 : U16 m d (Proc.devRef .tc main_v137) = val_main_v137 (F := Ideal) (m ((d.tc : Thread nD τ).loc main_arg8)) := by
  unfold U16
  exact pc15_v137 (U15_arg8 m d)
theorem U16_v139 : U16 m d (Proc.devRef .tc main_v139) = val_main_v139 (F := Ideal) (m ((d.tc : Thread nD τ).loc main_arg9)) := by
  unfold U16
  exact pc15_v139 (U15_arg9 m d)
theorem U16_arg10 : U16 m d (Proc.devRef .tc main_arg10) = (m ((d.tc : Thread nD τ).loc main_arg10)) := (keep15_arg10 (W := (U15 m d))).trans (U15_arg10 m d)
theorem U16_arg11 : U16 m d (Proc.devRef .tc main_arg11) = (m ((d.tc : Thread nD τ).loc main_arg11)) := (keep15_arg11 (W := (U15 m d))).trans (U15_arg11 m d)
theorem U16_arg12 : U16 m d (Proc.devRef .tc main_arg12) = (m ((d.tc : Thread nD τ).loc main_arg12)) := (keep15_arg12 (W := (U15 m d))).trans (U15_arg12 m d)
theorem U16_arg13 : U16 m d (Proc.devRef .tc main_arg13) = (m ((d.tc : Thread nD τ).loc main_arg13)) := (keep15_arg13 (W := (U15 m d))).trans (U15_arg13 m d)

/-! ## After piece 17: the centred rows -/
theorem U17_v145 : U17 m d (Proc.devRef .tc main_v145) = val_main_v145 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U17
  exact pc16_v145 (U16_v135 m d) (U16_v143 m d)
theorem U17_v143 : U17 m d (Proc.devRef .tc main_v143) = val_main_v143 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := (keep16_v143 (W := (U16 m d))).trans (U16_v143 m d)
theorem U17_v135 : U17 m d (Proc.devRef .tc main_v135) = val_main_v135 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := (keep16_v135 (W := (U16 m d))).trans (U16_v135 m d)
theorem U17_v137 : U17 m d (Proc.devRef .tc main_v137) = val_main_v137 (F := Ideal) (m ((d.tc : Thread nD τ).loc main_arg8)) := (keep16_v137 (W := (U16 m d))).trans (U16_v137 m d)
theorem U17_v139 : U17 m d (Proc.devRef .tc main_v139) = val_main_v139 (F := Ideal) (m ((d.tc : Thread nD τ).loc main_arg9)) := (keep16_v139 (W := (U16 m d))).trans (U16_v139 m d)
theorem U17_arg10 : U17 m d (Proc.devRef .tc main_arg10) = (m ((d.tc : Thread nD τ).loc main_arg10)) := (keep16_arg10 (W := (U16 m d))).trans (U16_arg10 m d)
theorem U17_arg11 : U17 m d (Proc.devRef .tc main_arg11) = (m ((d.tc : Thread nD τ).loc main_arg11)) := (keep16_arg11 (W := (U16 m d))).trans (U16_arg11 m d)
theorem U17_arg12 : U17 m d (Proc.devRef .tc main_arg12) = (m ((d.tc : Thread nD τ).loc main_arg12)) := (keep16_arg12 (W := (U16 m d))).trans (U16_arg12 m d)
theorem U17_arg13 : U17 m d (Proc.devRef .tc main_arg13) = (m ((d.tc : Thread nD τ).loc main_arg13)) := (keep16_arg13 (W := (U16 m d))).trans (U16_arg13 m d)

/-! ## After piece 18: layer two's normalisation, gain and offset -/
theorem U18_arg10 : U18 m d (Proc.devRef .tc main_arg10) = (m ((d.tc : Thread nD τ).loc main_arg10)) := (keep17_arg10 (W := (U17 m d))).trans (U17_arg10 m d)
theorem U18_v163 : U18 m d (Proc.devRef .tc main_v163) = val_main_v163 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
  unfold U18
  exact pc17_v163 (U17_v135 m d) (U17_v143 m d) (U17_v145 m d) (U17_v137 m d) (U17_v139 m d)
theorem U18_arg11 : U18 m d (Proc.devRef .tc main_arg11) = (m ((d.tc : Thread nD τ).loc main_arg11)) := (keep17_arg11 (W := (U17 m d))).trans (U17_arg11 m d)
theorem U18_arg12 : U18 m d (Proc.devRef .tc main_arg12) = (m ((d.tc : Thread nD τ).loc main_arg12)) := (keep17_arg12 (W := (U17 m d))).trans (U17_arg12 m d)
theorem U18_arg13 : U18 m d (Proc.devRef .tc main_arg13) = (m ((d.tc : Thread nD τ).loc main_arg13)) := (keep17_arg13 (W := (U17 m d))).trans (U17_arg13 m d)

/-! ## After piece 19: the classifier -/
theorem U19_v174 : U19 m d (Proc.devRef .tc main_v174) = val_main_v174 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  unfold U19
  exact pc18_v174 (U18_v163 m d) (U18_arg10 m d) (U18_arg11 m d) (U18_arg12 m d) (U18_arg13 m d)

/-! ## The whole line -/

/-- The fold of the reference program's whole line over the launch contents, at the result buffer: the last stage of the arguments. -/
theorem result_eq : StableHlo.after (ops (F := Ideal)) (launchContents m d) (Proc.devRef .tc main_v174) = val_main_v174 (F := Ideal) (m ((d.tc : Thread nD τ).loc main_arg0)) (m ((d.tc : Thread nD τ).loc main_arg1)) (m ((d.tc : Thread nD τ).loc main_arg2)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) := by
  rw [ops_pieces, after_append, after_append, after_append, after_append, after_append, after_append, after_append, after_append, after_append, after_append, after_append, after_append, after_append, after_append, after_append, after_append, after_append, after_append]
  exact U19_v174 m d

/-- Every weakly fair execution of the reference terminates, nothing faulting, with every buffer at the fold of the
    program's line over the launch contents. -/
theorem run (ρ : Dev nD → PrngReg) :
    θ_run defs (onTc (τ := τ) (main (F := Ideal))) ⟨m, fun _ => 0, ρ⟩ fun r => ∀ (d : Dev nD) (b : Ref sig .tc),
      r.2.mem ((d.tc : Thread nD τ).loc b) = StableHlo.after (ops (F := Ideal)) (launchContents m d) (Proc.devRef .tc b) :=
  run_seq scopedRefs_eq scopedSems_eq defs main (fun _ => ops) main_eq (fun _ => ops_sub) m ρ

end Cert.ReferenceIdeal.RunP

end
-- ==== Proof.RKept.lean ====
/-
  The reference program never writes an argument array: each of its operations writes its own result buffer, and
  none of those is an argument. So the fold of its whole line over the launch contents leaves every argument as
  launched.
-/
import proofs.«123398_j55817394979003_2_alg».proof.Proof.RefRunP

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]
variable (m : (ℓ : Loc nD τ sig) → Buf (Elt F) ℓ) (d : Dev nD)

/-- A buffer that no operation of a line writes holds after the line what it held before it. -/
local macro "untouched_by " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

theorem kept_arg0 : StableHlo.after (ops (F := F)) (launchContents m d) (Proc.devRef .tc main_arg0) = m ((d.tc : Thread nD τ).loc main_arg0) :=
  (by untouched_by ops : StableHlo.after (ops (F := F)) (launchContents m d) (Proc.devRef .tc main_arg0) = launchContents m d (Proc.devRef .tc main_arg0)).trans rfl

theorem kept_arg1 : StableHlo.after (ops (F := F)) (launchContents m d) (Proc.devRef .tc main_arg1) = m ((d.tc : Thread nD τ).loc main_arg1) :=
  (by untouched_by ops : StableHlo.after (ops (F := F)) (launchContents m d) (Proc.devRef .tc main_arg1) = launchContents m d (Proc.devRef .tc main_arg1)).trans rfl

theorem kept_arg2 : StableHlo.after (ops (F := F)) (launchContents m d) (Proc.devRef .tc main_arg2) = m ((d.tc : Thread nD τ).loc main_arg2) :=
  (by untouched_by ops : StableHlo.after (ops (F := F)) (launchContents m d) (Proc.devRef .tc main_arg2) = launchContents m d (Proc.devRef .tc main_arg2)).trans rfl

theorem kept_arg3 : StableHlo.after (ops (F := F)) (launchContents m d) (Proc.devRef .tc main_arg3) = m ((d.tc : Thread nD τ).loc main_arg3) :=
  (by untouched_by ops : StableHlo.after (ops (F := F)) (launchContents m d) (Proc.devRef .tc main_arg3) = launchContents m d (Proc.devRef .tc main_arg3)).trans rfl

theorem kept_arg4 : StableHlo.after (ops (F := F)) (launchContents m d) (Proc.devRef .tc main_arg4) = m ((d.tc : Thread nD τ).loc main_arg4) :=
  (by untouched_by ops : StableHlo.after (ops (F := F)) (launchContents m d) (Proc.devRef .tc main_arg4) = launchContents m d (Proc.devRef .tc main_arg4)).trans rfl

theorem kept_arg5 : StableHlo.after (ops (F := F)) (launchContents m d) (Proc.devRef .tc main_arg5) = m ((d.tc : Thread nD τ).loc main_arg5) :=
  (by untouched_by ops : StableHlo.after (ops (F := F)) (launchContents m d) (Proc.devRef .tc main_arg5) = launchContents m d (Proc.devRef .tc main_arg5)).trans rfl

theorem kept_arg6 : StableHlo.after (ops (F := F)) (launchContents m d) (Proc.devRef .tc main_arg6) = m ((d.tc : Thread nD τ).loc main_arg6) :=
  (by untouched_by ops : StableHlo.after (ops (F := F)) (launchContents m d) (Proc.devRef .tc main_arg6) = launchContents m d (Proc.devRef .tc main_arg6)).trans rfl

theorem kept_arg7 : StableHlo.after (ops (F := F)) (launchContents m d) (Proc.devRef .tc main_arg7) = m ((d.tc : Thread nD τ).loc main_arg7) :=
  (by untouched_by ops : StableHlo.after (ops (F := F)) (launchContents m d) (Proc.devRef .tc main_arg7) = launchContents m d (Proc.devRef .tc main_arg7)).trans rfl

theorem kept_arg8 : StableHlo.after (ops (F := F)) (launchContents m d) (Proc.devRef .tc main_arg8) = m ((d.tc : Thread nD τ).loc main_arg8) :=
  (by untouched_by ops : StableHlo.after (ops (F := F)) (launchContents m d) (Proc.devRef .tc main_arg8) = launchContents m d (Proc.devRef .tc main_arg8)).trans rfl

theorem kept_arg9 : StableHlo.after (ops (F := F)) (launchContents m d) (Proc.devRef .tc main_arg9) = m ((d.tc : Thread nD τ).loc main_arg9) :=
  (by untouched_by ops : StableHlo.after (ops (F := F)) (launchContents m d) (Proc.devRef .tc main_arg9) = launchContents m d (Proc.devRef .tc main_arg9)).trans rfl

theorem kept_arg10 : StableHlo.after (ops (F := F)) (launchContents m d) (Proc.devRef .tc main_arg10) = m ((d.tc : Thread nD τ).loc main_arg10) :=
  (by untouched_by ops : StableHlo.after (ops (F := F)) (launchContents m d) (Proc.devRef .tc main_arg10) = launchContents m d (Proc.devRef .tc main_arg10)).trans rfl

theorem kept_arg11 : StableHlo.after (ops (F := F)) (launchContents m d) (Proc.devRef .tc main_arg11) = m ((d.tc : Thread nD τ).loc main_arg11) :=
  (by untouched_by ops : StableHlo.after (ops (F := F)) (launchContents m d) (Proc.devRef .tc main_arg11) = launchContents m d (Proc.devRef .tc main_arg11)).trans rfl

theorem kept_arg12 : StableHlo.after (ops (F := F)) (launchContents m d) (Proc.devRef .tc main_arg12) = m ((d.tc : Thread nD τ).loc main_arg12) :=
  (by untouched_by ops : StableHlo.after (ops (F := F)) (launchContents m d) (Proc.devRef .tc main_arg12) = launchContents m d (Proc.devRef .tc main_arg12)).trans rfl

theorem kept_arg13 : StableHlo.after (ops (F := F)) (launchContents m d) (Proc.devRef .tc main_arg13) = m ((d.tc : Thread nD τ).loc main_arg13) :=
  (by untouched_by ops : StableHlo.after (ops (F := F)) (launchContents m d) (Proc.devRef .tc main_arg13) = launchContents m d (Proc.devRef .tc main_arg13)).trans rfl

end Cert.ReferenceIdeal.RunP

end
-- ==== Proof.lean ====
/-
  A two-layer graph convolution network with a two-layer classifier on 100000 nodes of 16 features and 3.2 million
  weighted edges, written with five kernels (a projection and a node update per layer, and the classifier, each on
  blocks of 5000 nodes) among host operations, against the same network written with host operations only.

  At the extended reals the two programs are one function of the arguments. Outside the kernels they run the same
  host operations: the symmetric normalisation of the edge weights by the two endpoints' degrees, and per layer the
  gather of the projected rows along the edges, their scaling, and the scatter-add into the target nodes. Each
  kernel computes, block by block, what the reference computes on whole arrays with host operations: a matrix
  product against a transposed weight; an affine map, tanh, a bias, the leaky rectifier and the normalisation of
  each row over its 16 entries; two affine maps with the positive part between them. A change of float format is
  the identity on the extended reals, a kernel's matrix product and lane sum are the host's, and a sum of sixteen
  or sixty-four terms does not depend on the order in which it is taken; nothing else separates the two sides, and
  no finiteness of the inputs is used. The idealisation rewrote no operation of the kernel program, so the claim
  that it is the kernel's sanctioned idealisation is empty.

  The frames of the two kernel programs are the generated ones; the reference's is its run, a straight line of
  host operations none of which writes an argument.
-/
import proofs.«123398_j55817394979003_2_alg».proof.Defs
import proofs.«123398_j55817394979003_2_alg».proof.Proof.Gen.Kernel
import proofs.«123398_j55817394979003_2_alg».proof.Proof.Gen.Kernel.Skeleton
import proofs.«123398_j55817394979003_2_alg».proof.Proof.Gen.Kernel.Launch
import proofs.«123398_j55817394979003_2_alg».proof.Proof.Gen.Kernel.Points
import proofs.«123398_j55817394979003_2_alg».proof.Proof.Gen.Kernel.Frame
import proofs.«123398_j55817394979003_2_alg».proof.Proof.Gen.KernelIdeal
import proofs.«123398_j55817394979003_2_alg».proof.Proof.Gen.KernelIdeal.Skeleton
import proofs.«123398_j55817394979003_2_alg».proof.Proof.Gen.KernelIdeal.Launch
import proofs.«123398_j55817394979003_2_alg».proof.Proof.Gen.KernelIdeal.Points
import proofs.«123398_j55817394979003_2_alg».proof.Proof.Gen.KernelIdeal.Frame
import proofs.«123398_j55817394979003_2_alg».proof.Proof.Gen.ReferenceIdeal
import proofs.«123398_j55817394979003_2_alg».proof.Proof.Gen.Pre_finite_inputs
import proofs.«123398_j55817394979003_2_alg».proof.Proof.KRun
import proofs.«123398_j55817394979003_2_alg».proof.Proof.KLayers
import proofs.«123398_j55817394979003_2_alg».proof.Proof.RRunAll
import proofs.«123398_j55817394979003_2_alg».proof.Proof.RKept
import Idealize.ShloMosaic.Adequacy
import Idealize.ShloMosaic.Init

noncomputable section

namespace Cert.Proof

open Idealize.ShloMosaic Idealize.SL.Sem

/-- The kernel program runs and leaves its arguments as launched. -/
theorem frame_kernel : @Cert.frame_Kernel Cert.Kernel.Gen.facts Cert.Pre_finite_inputs.Gen.facts :=
  fun m ρ _ => Cert.Kernel.Gen.frame m ρ

/-- So does its reading at the extended reals. -/
theorem frame_kernelIdeal : @Cert.frame_KernelIdeal Cert.KernelIdeal.Gen.facts Cert.Pre_finite_inputs.Gen.facts :=
  fun m ρ _ => Cert.KernelIdeal.Gen.frame m ρ

/-- The reference runs, and none of its operations writes an argument. -/
theorem frame_referenceIdeal : @Cert.frame_ReferenceIdeal Cert.ReferenceIdeal.Gen.facts Cert.Pre_finite_inputs.Gen.facts :=
  fun m ρ _ => (θ_run (Cert.ReferenceIdeal.defs (F := Ideal)) _ _).mono
    (fun r h c =>
      ⟨(h c Cert.ReferenceIdeal.main_arg0).trans (Cert.ReferenceIdeal.RunP.kept_arg0 m c),
        (h c Cert.ReferenceIdeal.main_arg1).trans (Cert.ReferenceIdeal.RunP.kept_arg1 m c),
        (h c Cert.ReferenceIdeal.main_arg2).trans (Cert.ReferenceIdeal.RunP.kept_arg2 m c),
        (h c Cert.ReferenceIdeal.main_arg3).trans (Cert.ReferenceIdeal.RunP.kept_arg3 m c),
        (h c Cert.ReferenceIdeal.main_arg4).trans (Cert.ReferenceIdeal.RunP.kept_arg4 m c),
        (h c Cert.ReferenceIdeal.main_arg5).trans (Cert.ReferenceIdeal.RunP.kept_arg5 m c),
        (h c Cert.ReferenceIdeal.main_arg6).trans (Cert.ReferenceIdeal.RunP.kept_arg6 m c),
        (h c Cert.ReferenceIdeal.main_arg7).trans (Cert.ReferenceIdeal.RunP.kept_arg7 m c),
        (h c Cert.ReferenceIdeal.main_arg8).trans (Cert.ReferenceIdeal.RunP.kept_arg8 m c),
        (h c Cert.ReferenceIdeal.main_arg9).trans (Cert.ReferenceIdeal.RunP.kept_arg9 m c),
        (h c Cert.ReferenceIdeal.main_arg10).trans (Cert.ReferenceIdeal.RunP.kept_arg10 m c),
        (h c Cert.ReferenceIdeal.main_arg11).trans (Cert.ReferenceIdeal.RunP.kept_arg11 m c),
        (h c Cert.ReferenceIdeal.main_arg12).trans (Cert.ReferenceIdeal.RunP.kept_arg12 m c),
        (h c Cert.ReferenceIdeal.main_arg13).trans (Cert.ReferenceIdeal.RunP.kept_arg13 m c)⟩)
    (Cert.ReferenceIdeal.RunP.run m ρ)

/-- From memories that agree on the arguments both programs end with one result: the kernel program's result buffer
    holds, after the classifier region, the reference's last stage of the arguments, and that is what the reference's
    run leaves in its result buffer. -/
theorem algebraic : @Cert.algebraic_KernelIdeal_ReferenceIdeal Cert.KernelIdeal.Gen.facts Cert.ReferenceIdeal.Gen.facts Cert.Pre_finite_inputs.Gen.facts := by
  intro m g m' g' _ hagree
  refine ⟨fun c => Cert.KernelIdeal.Gen.W12 m g c (Proc.devRef .tc Cert.KernelIdeal.main_v98), ?_, ?_⟩
  · exact Cert.KernelIdeal.RunNamed.run_boundary m g (fun s h c =>
      ⟨h c _ (Cert.KernelIdeal.Gen.mem_uc Cert.KernelIdeal.main_v98 (by decide)),
        (h c _ (Cert.KernelIdeal.Gen.mem_uc Cert.KernelIdeal.main_arg0 (by decide))).trans (Cert.KernelIdeal.Gen.W12_main_arg0 m g c),
        (h c _ (Cert.KernelIdeal.Gen.mem_uc Cert.KernelIdeal.main_arg1 (by decide))).trans (Cert.KernelIdeal.Gen.W12_main_arg1 m g c),
        (h c _ (Cert.KernelIdeal.Gen.mem_uc Cert.KernelIdeal.main_arg2 (by decide))).trans (Cert.KernelIdeal.Gen.W12_main_arg2 m g c),
        (h c _ (Cert.KernelIdeal.Gen.mem_uc Cert.KernelIdeal.main_arg3 (by decide))).trans (Cert.KernelIdeal.Gen.W12_main_arg3 m g c),
        (h c _ (Cert.KernelIdeal.Gen.mem_uc Cert.KernelIdeal.main_arg4 (by decide))).trans (Cert.KernelIdeal.Gen.W12_main_arg4 m g c),
        (h c _ (Cert.KernelIdeal.Gen.mem_uc Cert.KernelIdeal.main_arg5 (by decide))).trans (Cert.KernelIdeal.Gen.W12_main_arg5 m g c),
        (h c _ (Cert.KernelIdeal.Gen.mem_uc Cert.KernelIdeal.main_arg6 (by decide))).trans (Cert.KernelIdeal.Gen.W12_main_arg6 m g c),
        (h c _ (Cert.KernelIdeal.Gen.mem_uc Cert.KernelIdeal.main_arg7 (by decide))).trans (Cert.KernelIdeal.Gen.W12_main_arg7 m g c),
        (h c _ (Cert.KernelIdeal.Gen.mem_uc Cert.KernelIdeal.main_arg8 (by decide))).trans (Cert.KernelIdeal.Gen.W12_main_arg8 m g c),
        (h c _ (Cert.KernelIdeal.Gen.mem_uc Cert.KernelIdeal.main_arg9 (by decide))).trans (Cert.KernelIdeal.Gen.W12_main_arg9 m g c),
        (h c _ (Cert.KernelIdeal.Gen.mem_uc Cert.KernelIdeal.main_arg10 (by decide))).trans (Cert.KernelIdeal.Gen.W12_main_arg10 m g c),
        (h c _ (Cert.KernelIdeal.Gen.mem_uc Cert.KernelIdeal.main_arg11 (by decide))).trans (Cert.KernelIdeal.Gen.W12_main_arg11 m g c),
        (h c _ (Cert.KernelIdeal.Gen.mem_uc Cert.KernelIdeal.main_arg12 (by decide))).trans (Cert.KernelIdeal.Gen.W12_main_arg12 m g c),
        (h c _ (Cert.KernelIdeal.Gen.mem_uc Cert.KernelIdeal.main_arg13 (by decide))).trans (Cert.KernelIdeal.Gen.W12_main_arg13 m g c)⟩)
  · refine (θ_run (Cert.ReferenceIdeal.defs (F := Ideal)) _ _).mono (fun r h c => ⟨?_,
        (h c Cert.ReferenceIdeal.main_arg0).trans (Cert.ReferenceIdeal.RunP.kept_arg0 m' c),
        (h c Cert.ReferenceIdeal.main_arg1).trans (Cert.ReferenceIdeal.RunP.kept_arg1 m' c),
        (h c Cert.ReferenceIdeal.main_arg2).trans (Cert.ReferenceIdeal.RunP.kept_arg2 m' c),
        (h c Cert.ReferenceIdeal.main_arg3).trans (Cert.ReferenceIdeal.RunP.kept_arg3 m' c),
        (h c Cert.ReferenceIdeal.main_arg4).trans (Cert.ReferenceIdeal.RunP.kept_arg4 m' c),
        (h c Cert.ReferenceIdeal.main_arg5).trans (Cert.ReferenceIdeal.RunP.kept_arg5 m' c),
        (h c Cert.ReferenceIdeal.main_arg6).trans (Cert.ReferenceIdeal.RunP.kept_arg6 m' c),
        (h c Cert.ReferenceIdeal.main_arg7).trans (Cert.ReferenceIdeal.RunP.kept_arg7 m' c),
        (h c Cert.ReferenceIdeal.main_arg8).trans (Cert.ReferenceIdeal.RunP.kept_arg8 m' c),
        (h c Cert.ReferenceIdeal.main_arg9).trans (Cert.ReferenceIdeal.RunP.kept_arg9 m' c),
        (h c Cert.ReferenceIdeal.main_arg10).trans (Cert.ReferenceIdeal.RunP.kept_arg10 m' c),
        (h c Cert.ReferenceIdeal.main_arg11).trans (Cert.ReferenceIdeal.RunP.kept_arg11 m' c),
        (h c Cert.ReferenceIdeal.main_arg12).trans (Cert.ReferenceIdeal.RunP.kept_arg12 m' c),
        (h c Cert.ReferenceIdeal.main_arg13).trans (Cert.ReferenceIdeal.RunP.kept_arg13 m' c)⟩) (Cert.ReferenceIdeal.RunP.run m' g')
    refine ((h c Cert.ReferenceIdeal.main_v174).trans (Cert.ReferenceIdeal.RunP.result_eq m' c)).trans ?_
    rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    exact (Cert.KLayers.layer_cls m g c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
